-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x4800000 : Shape := ⟨2, ![2, 4800000]⟩
abbrev S1x16 : Shape := ⟨2, ![1, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1x16 : S_.BroadcastsInDim S1x16 (![] : Fin 0 → Fin S1x16.rank)
  reducesTo_S1x16_S_d0_1 : S1x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S16x2 1) : IVec S_ 1 :=
  let main_c_5 : IVec S_ 1 := constantI S_ 1 1#1
  let main_v17 : IVec S_ 1 := (fun x v => Host.reduce IntOp.andi x v reducesTo_S16x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x1 .f32) (main_arg1 : IVec S2x4800000 32) (main_arg2 : FVec F S1x16 .f32) (main_arg3 : FVec F S16 .f32) (main_arg4 : FVec F S16x2 .f32) (main_arg5 : FVec F S2 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1x16 .f32 := Host.absf main_arg2
  let main_cst_0 : FVec F S_ .f32 := constant S_ .f32 0x7F800000#32
  let main_v5 : FVec F S1x16 .f32 := broadcastInDim S1x16 ![] bcast_S_S1x16 main_cst_0
  let main_v6 : IVec S1x16 1 := cmpf .olt main_v4 main_v5
  let main_c_1 : IVec S_ 1 := constantI S_ 1 1#1
  let main_v7 : IVec S_ 1 := (fun x v => Host.reduce IntOp.andi x v reducesTo_S1x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x2 .f32 := Host.absf main_arg4
  let main_cst_4 : FVec F S_ .f32 := constant S_ .f32 0x7F800000#32
  let main_v15 : FVec F S16x2 .f32 := broadcastInDim S16x2 ![] bcast_S_S16x2 main_cst_4
  let main_v16 : IVec S16x2 1 := cmpf .olt main_v14 main_v15
  fn_part1 (F := F) main_arg5 main_v13 main_v16
-- ==== Kernel.lean ====
abbrev S100000x1 : Shape := ⟨2, ![100000, 1]⟩
abbrev S2x4800000 : Shape := ⟨2, ![2, 4800000]⟩
abbrev S1x16 : Shape := ⟨2, ![1, 16]⟩
abbrev S16 : Shape := ⟨1, ![16]⟩
abbrev S16x2 : Shape := ⟨2, ![16, 2]⟩
abbrev S2 : Shape := ⟨1, ![2]⟩
abbrev S100000 : Shape := ⟨1, ![100000]⟩
abbrev S1x4800000 : Shape := ⟨2, ![1, 4800000]⟩
abbrev S4800000 : Shape := ⟨1, ![4800000]⟩
abbrev S4900000 : Shape := ⟨1, ![4900000]⟩
abbrev S_ : Shape := ⟨0, ![]⟩
abbrev S4900000x1 : Shape := ⟨2, ![4900000, 1]⟩
abbrev S4915200 : Shape := ⟨1, ![4915200]⟩
abbrev S38400x128 : Shape := ⟨2, ![38400, 128]⟩
abbrev S4800x128 : Shape := ⟨2, ![4800, 128]⟩
abbrev S100000x16 : Shape := ⟨2, ![100000, 16]⟩
abbrev S10000x1 : Shape := ⟨2, ![10000, 1]⟩
abbrev S10000x16 : Shape := ⟨2, ![10000, 16]⟩
abbrev S1x2 : Shape := ⟨2, ![1, 2]⟩
abbrev S100000x2 : Shape := ⟨2, ![100000, 2]⟩
abbrev S10000x2 : Shape := ⟨2, ![10000, 2]⟩
abbrev S4900000x2 : Shape := ⟨2, ![4900000, 2]⟩
abbrev S9800000 : Shape := ⟨1, ![9800000]⟩
abbrev S9830400 : Shape := ⟨1, ![9830400]⟩
abbrev S76800x128 : Shape := ⟨2, ![76800, 128]⟩
abbrev S10000 : Shape := ⟨1, ![10000]⟩

abbrev nBuf : Space → Nat
  | .hbm => 120
  | .vmem => 33
  | .smem => 0
  | _ => 0

abbrev bufTy : (tb : Table) → Fin (tcTables nBuf tb) → BufTy
  | .hbm, ⟨0, _⟩ => ⟨S100000x1, .f32⟩
  | .hbm, ⟨1, _⟩ => ⟨S2x4800000, .i32⟩
  | .hbm, ⟨2, _⟩ => ⟨S1x16, .f32⟩
  | .hbm, ⟨3, _⟩ => ⟨S16, .f32⟩
  | .hbm, ⟨4, _⟩ => ⟨S16x2, .f32⟩
  | .hbm, ⟨5, _⟩ => ⟨S2, .f32⟩
  | .hbm, ⟨6, _⟩ => ⟨S100000, .i32⟩
  | .hbm, ⟨7, _⟩ => ⟨S1x4800000, .i32⟩
  | .hbm, ⟨8, _⟩ => ⟨S4800000, .i32⟩
  | .hbm, ⟨9, _⟩ => ⟨S4900000, .i32⟩
  | .hbm, ⟨10, _⟩ => ⟨S1x4800000, .i32⟩
  | .hbm, ⟨11, _⟩ => ⟨S4800000, .i32⟩
  | .hbm, ⟨12, _⟩ => ⟨S4900000, .i32⟩
  | .hbm, ⟨13, _⟩ => ⟨S_, .f32⟩
  | .hbm, ⟨14, _⟩ => ⟨S4900000, .f32⟩
  | .hbm, ⟨15, _⟩ => ⟨S_, .f32⟩
  | .hbm, ⟨16, _⟩ => ⟨S100000, .f32⟩
  | .hbm, ⟨17, _⟩ => ⟨S4900000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S4900000, .i32⟩
  | .hbm, ⟨29, _⟩ => ⟨S4900000, .i1⟩
  | .hbm, ⟨30, _⟩ => ⟨S_, .i32⟩
  | .hbm, ⟨31, _⟩ => ⟨S4900000, .i32⟩
  | .hbm, ⟨32, _⟩ => ⟨S4900000, .i32⟩
  | .hbm, ⟨33, _⟩ => ⟨S4900000, .i32⟩
  | .hbm, ⟨34, _⟩ => ⟨S4900000x1, .i32⟩
  | .hbm, ⟨35, _⟩ => ⟨S4900000, .f32⟩
  | .hbm, ⟨36, _⟩ => ⟨S4900000x1, .f32⟩
  | .hbm, ⟨37, _⟩ => ⟨S_, .i32⟩
  | .hbm, ⟨38, _⟩ => ⟨S4900000, .i32⟩
  | .hbm, ⟨39, _⟩ => ⟨S4900000, .i1⟩
  | .hbm, ⟨40, _⟩ => ⟨S_, .i32⟩
  | .hbm, ⟨41, _⟩ => ⟨S4900000, .i32⟩
  | .hbm, ⟨42, _⟩ => ⟨S4900000, .i32⟩
  | .hbm, ⟨43, _⟩ => ⟨S4900000, .i32⟩
  | .hbm, ⟨44, _⟩ => ⟨S4900000x1, .i32⟩
  | .hbm, ⟨45, _⟩ => ⟨S4900000, .f32⟩
  | .hbm, ⟨46, _⟩ => ⟨S4900000x1, .f32⟩
  | .hbm, ⟨47, _⟩ => ⟨S_, .i32⟩
  | .hbm, ⟨48, _⟩ => ⟨S4900000, .i32⟩
  | .hbm, ⟨49, _⟩ => ⟨S4900000, .i1⟩
  | .hbm, ⟨50, _⟩ => ⟨S_, .i32⟩
  | .hbm, ⟨51, _⟩ => ⟨S4900000, .i32⟩
  | .hbm, ⟨52, _⟩ => ⟨S4900000, .i32⟩
  | .hbm, ⟨53, _⟩ => ⟨S4900000, .i32⟩
  | .hbm, ⟨54, _⟩ => ⟨S4900000x1, .i32⟩
  | .hbm, ⟨55, _⟩ => ⟨S4900000x1, .f32⟩
  | .hbm, ⟨56, _⟩ => ⟨S4900000, .f32⟩
  | .hbm, ⟨57, _⟩ => ⟨S_, .i32⟩
  | .hbm, ⟨58, _⟩ => ⟨S_, .f32⟩
  | .hbm, ⟨59, _⟩ => ⟨S4915200, .f32⟩
  | .hbm, ⟨60, _⟩ => ⟨S4900000, .f32⟩
  | .hbm, ⟨61, _⟩ => ⟨S_, .i32⟩
  | .hbm, ⟨62, _⟩ => ⟨S_, .f32⟩
  | .hbm, ⟨63, _⟩ => ⟨S4915200, .f32⟩
  | .hbm, ⟨64, _⟩ => ⟨S4900000, .f32⟩
  | .hbm, ⟨65, _⟩ => ⟨S_, .i32⟩
  | .hbm, ⟨66, _⟩ => ⟨S_, .f32⟩
  | .hbm, ⟨67, _⟩ => ⟨S4915200, .f32⟩
  | .hbm, ⟨68, _⟩ => ⟨S38400x128, .f32⟩
  | .hbm, ⟨69, _⟩ => ⟨S38400x128, .f32⟩
  | .hbm, ⟨70, _⟩ => ⟨S38400x128, .f32⟩
  | .hbm, ⟨71, _⟩ => ⟨S38400x128, .f32⟩
  | .hbm, ⟨72, _⟩ => ⟨S4915200, .f32⟩
  | .hbm, ⟨73, _⟩ => ⟨S4900000, .f32⟩
  | .hbm, ⟨74, _⟩ => ⟨S4900000x1, .f32⟩
  | .hbm, ⟨75, _⟩ => ⟨S_, .f32⟩
  | .hbm, ⟨76, _⟩ => ⟨S100000x1, .f32⟩
  | .hbm, ⟨77, _⟩ => ⟨S4900000x1, .i32⟩
  | .hbm, ⟨78, _⟩ => ⟨S100000x1, .f32⟩
  | .hbm, ⟨79, _⟩ => ⟨S1x16, .f32⟩
  | .hbm, ⟨80, _⟩ => ⟨S100000x16, .f32⟩
  | .hbm, ⟨81, _⟩ => ⟨S_, .f32⟩
  | .hbm, ⟨82, _⟩ => ⟨S1x2, .f32⟩
  | .hbm, ⟨83, _⟩ => ⟨S100000x2, .f32⟩
  | .hbm, ⟨84, _⟩ => ⟨S_, .i32⟩
  | .hbm, ⟨85, _⟩ => ⟨S4900000, .i32⟩
  | .hbm, ⟨86, _⟩ => ⟨S4900000, .i1⟩
  | .hbm, ⟨87, _⟩ => ⟨S_, .i32⟩
  | .hbm, ⟨88, _⟩ => ⟨S4900000, .i32⟩
  | .hbm, ⟨89, _⟩ => ⟨S4900000, .i32⟩
  | .hbm, ⟨90, _⟩ => ⟨S4900000, .i32⟩
  | .hbm, ⟨91, _⟩ => ⟨S4900000x1, .i32⟩
  | .hbm, ⟨92, _⟩ => ⟨S4900000x2, .f32⟩
  | .hbm, ⟨93, _⟩ => ⟨S9800000, .f32⟩
  | .hbm, ⟨94, _⟩ => ⟨S_, .i32⟩
  | .hbm, ⟨95, _⟩ => ⟨S_, .f32⟩
  | .hbm, ⟨96, _⟩ => ⟨S9830400, .f32⟩
  | .hbm, ⟨97, _⟩ => ⟨S4900000x2, .f32⟩
  | .hbm, ⟨98, _⟩ => ⟨S9800000, .f32⟩
  | .hbm, ⟨99, _⟩ => ⟨S_, .i32⟩
  | .hbm, ⟨100, _⟩ => ⟨S_, .f32⟩
  | .hbm, ⟨101, _⟩ => ⟨S9830400, .f32⟩
  | .hbm, ⟨102, _⟩ => ⟨S4900000x2, .f32⟩
  | .hbm, ⟨103, _⟩ => ⟨S9800000, .f32⟩
  | .hbm, ⟨104, _⟩ => ⟨S_, .i32⟩
  | .hbm, ⟨105, _⟩ => ⟨S_, .f32⟩
  | .hbm, ⟨106, _⟩ => ⟨S9830400, .f32⟩
  | .hbm, ⟨107, _⟩ => ⟨S76800x128, .f32⟩
  | .hbm, ⟨108, _⟩ => ⟨S76800x128, .f32⟩
  | .hbm, ⟨109, _⟩ => ⟨S76800x128, .f32⟩
  | .hbm, ⟨110, _⟩ => ⟨S76800x128, .f32⟩
  | .hbm, ⟨111, _⟩ => ⟨S9830400, .f32⟩
  | .hbm, ⟨112, _⟩ => ⟨S9800000, .f32⟩
  | .hbm, ⟨113, _⟩ => ⟨S4900000x2, .f32⟩
  | .hbm, ⟨114, _⟩ => ⟨S_, .f32⟩
  | .hbm, ⟨115, _⟩ => ⟨S100000x2, .f32⟩
  | .hbm, ⟨116, _⟩ => ⟨S4900000x1, .i32⟩
  | .hbm, ⟨117, _⟩ => ⟨S100000x2, .f32⟩
  | .hbm, ⟨118, _⟩ => ⟨S1x2, .f32⟩
  | .hbm, ⟨119, _⟩ => ⟨S100000x2, .f32⟩
  | .local _ .vmem, ⟨0, _⟩ => ⟨S4800x128, .f32⟩
  | .local _ .vmem, ⟨1, _⟩ => ⟨S4800x128, .f32⟩
  | .local _ .vmem, ⟨2, _⟩ => ⟨S4800x128, .f32⟩
  | .local _ .vmem, ⟨3, _⟩ => ⟨S4800x128, .f32⟩
  | .local _ .vmem, ⟨4, _⟩ => ⟨S4800x128, .f32⟩
  | .local _ .vmem, ⟨5, _⟩ => ⟨S4800x128, .f32⟩
  | .local _ .vmem, ⟨6, _⟩ => ⟨S4800x128, .f32⟩
  | .local _ .vmem, ⟨7, _⟩ => ⟨S4800x128, .f32⟩
  | .local _ .vmem, ⟨8, _⟩ => ⟨S10000x1, .f32⟩
  | .local _ .vmem, ⟨9, _⟩ => ⟨S10000x1, .f32⟩
  | .local _ .vmem, ⟨10, _⟩ => ⟨S1x16, .f32⟩
  | .local _ .vmem, ⟨11, _⟩ => ⟨S1x16, .f32⟩
  | .local _ .vmem, ⟨12, _⟩ => ⟨S10000x16, .f32⟩
  | .local _ .vmem, ⟨13, _⟩ => ⟨S10000x16, .f32⟩
  | .local _ .vmem, ⟨14, _⟩ => ⟨S10000x16, .f32⟩
  | .local _ .vmem, ⟨15, _⟩ => ⟨S10000x16, .f32⟩
  | .local _ .vmem, ⟨16, _⟩ => ⟨S16x2, .f32⟩
  | .local _ .vmem, ⟨17, _⟩ => ⟨S1x2, .f32⟩
  | .local _ .vmem, ⟨18, _⟩ => ⟨S10000x2, .f32⟩
  | .local _ .vmem, ⟨19, _⟩ => ⟨S10000x2, .f32⟩
  | .local _ .vmem, ⟨20, _⟩ => ⟨S4800x128, .f32⟩
  | .local _ .vmem, ⟨21, _⟩ => ⟨S4800x128, .f32⟩
  | .local _ .vmem, ⟨22, _⟩ => ⟨S4800x128, .f32⟩
  | .local _ .vmem, ⟨23, _⟩ => ⟨S4800x128, .f32⟩
  | .local _ .vmem, ⟨24, _⟩ => ⟨S4800x128, .f32⟩
  | .local _ .vmem, ⟨25, _⟩ => ⟨S4800x128, .f32⟩
  | .local _ .vmem, ⟨26, _⟩ => ⟨S4800x128, .f32⟩
  | .local _ .vmem, ⟨27, _⟩ => ⟨S4800x128, .f32⟩
  | .local _ .vmem, ⟨28, _⟩ => ⟨S10000x2, .f32⟩
  | .local _ .vmem, ⟨29, _⟩ => ⟨S10000x2, .f32⟩
  | .local _ .vmem, ⟨30, _⟩ => ⟨S1x2, .f32⟩
  | .local _ .vmem, ⟨31, _⟩ => ⟨S10000x2, .f32⟩
  | .local _ .vmem, ⟨32, _⟩ => ⟨S10000x2, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_8 : Ref sig .tc := ⟨.hbm, 57, rfl⟩
abbrev main_call1_v0 : Ref sig .tc := ⟨.hbm, 58, rfl⟩
abbrev main_v39 : Ref sig .tc := ⟨.hbm, 59, rfl⟩
abbrev main_v40 : Ref sig .tc := ⟨.hbm, 60, rfl⟩
abbrev main_c_9 : Ref sig .tc := ⟨.hbm, 61, rfl⟩
abbrev main_call2_v0 : Ref sig .tc := ⟨.hbm, 62, rfl⟩
abbrev main_v41 : Ref sig .tc := ⟨.hbm, 63, rfl⟩
abbrev main_v42 : Ref sig .tc := ⟨.hbm, 64, rfl⟩
abbrev main_c_10 : Ref sig .tc := ⟨.hbm, 65, rfl⟩
abbrev main_call3_v0 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_11 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_12 : Ref sig .tc := ⟨.hbm, 81, rfl⟩
abbrev main_v56 : Ref sig .tc := ⟨.hbm, 82, rfl⟩
abbrev main_v57 : Ref sig .tc := ⟨.hbm, 83, rfl⟩
abbrev main_c_13 : Ref sig .tc := ⟨.hbm, 84, rfl⟩
abbrev main_v58 : Ref sig .tc := ⟨.hbm, 85, rfl⟩
abbrev main_v59 : Ref sig .tc := ⟨.hbm, 86, rfl⟩
abbrev main_c_14 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_15 : Ref sig .tc := ⟨.hbm, 94, rfl⟩
abbrev main_call4_v0 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_call5_v0 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_c_17 : Ref sig .tc := ⟨.hbm, 104, rfl⟩
abbrev main_call6_v0 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_18 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4800x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4800x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4800x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4800x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x2 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4800x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4800x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4800x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S4800x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x2 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x2 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x4800000_S1x4800000_0_0 : S2x4800000.Slices ![0, 0] S1x4800000
  shapeCasts_S1x4800000_S4800000 : S1x4800000.ShapeCasts S4800000
  concatenates_S4800000_S100000_S4900000_d0 : Shape.Concatenates [S4800000, S100000] S4900000 0
  slices_S2x4800000_S1x4800000_1_0 : S2x4800000.Slices ![1, 0] S1x4800000
  bcast_S_S4900000 : S_.BroadcastsInDim S4900000 (![] : Fin 0 → Fin S4900000.rank)
  bcast_S_S100000 : S_.BroadcastsInDim S100000 (![] : Fin 0 → Fin S100000.rank)
  bcast_S4900000_S4900000x1_0 : S4900000.BroadcastsInDim S4900000x1 (![0] : Fin 1 → Fin S4900000x1.rank)
  shapeCasts_S4900000_S4900000x1 : S4900000.ShapeCasts S4900000x1
  shapeCasts_S4900000x1_S4900000 : S4900000x1.ShapeCasts S4900000
  pads_S4900000_S4915200_0152000 : S4900000.Pads (![0] : Fin 1 → Nat) ![15200] ![0] S4915200
  h_S_ : 0 < S_.numel
  shapeCasts_S4915200_S38400x128 : S4915200.ShapeCasts S38400x128
  inb_S4800x128_S4800x128_0_0 : ∀ a, (![0, 0] : Fin 2 → Nat) a + S4800x128.size a ≤ S4800x128.size a
  h_S4800x128 : 0 < S4800x128.numel
  shapeCasts_S4800x128_S4800x128 : S4800x128.ShapeCasts S4800x128
  shapeCasts_S38400x128_S4915200 : S38400x128.ShapeCasts S4915200
  slices_S4915200_S4900000_0 : S4915200.Slices ![0] S4900000
  bcast_S_S100000x1 : S_.BroadcastsInDim S100000x1 (![] : Fin 0 → Fin S100000x1.rank)
  shapeCasts_S16_S1x16 : S16.ShapeCasts S1x16
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  bcast_S_S1x2 : S_.BroadcastsInDim S1x2 (![] : Fin 0 → Fin S1x2.rank)
  shapeCasts_S10000x16_S10000x16 : S10000x16.ShapeCasts S10000x16
  inb_S16x2_S16x2_0_0 : ∀ a, (![0, 0] : Fin 2 → Nat) a + S16x2.size a ≤ S16x2.size a
  h_S16x2 : 0 < S16x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  inb_S10000x2_S10000x2_0_0 : ∀ a, (![0, 0] : Fin 2 → Nat) a + S10000x2.size a ≤ S10000x2.size a
  h_S10000x2 : 0 < S10000x2.numel
  shapeCasts_S4900000x2_S9800000 : S4900000x2.ShapeCasts S9800000
  pads_S9800000_S9830400_0304000 : S9800000.Pads (![0] : Fin 1 → Nat) ![30400] ![0] S9830400
  bcast_S4900000x1_S4900000x2_0_1 : S4900000x1.BroadcastsInDim S4900000x2 (![0, 1] : Fin 2 → Fin S4900000x2.rank)
  shapeCasts_S9830400_S76800x128 : S9830400.ShapeCasts S76800x128
  shapeCasts_S76800x128_S9830400 : S76800x128.ShapeCasts S9830400
  slices_S9830400_S9800000_0 : S9830400.Slices ![0] S9800000
  shapeCasts_S9800000_S4900000x2 : S9800000.ShapeCasts S4900000x2
  bcast_S_S100000x2 : S_.BroadcastsInDim S100000x2 (![] : Fin 0 → Fin S100000x2.rank)
  shapeCasts_S2_S1x2 : S2.ShapeCasts S1x2
  shapeCasts_S10000x2_S10000x2 : S10000x2.ShapeCasts S10000x2
  reduces_S10000x2_S10000 : S10000x2.Reduces [1] S10000
  shapeCasts_S10000_S10000x1 : S10000.ShapeCasts S10000x1
  broadcasts_S10000x1_S10000x2 : S10000x1.Broadcasts S10000x2
  scatter_S100000_S4900000x1_S4900000_n_0_0_1_wf : ScatterDims.WF S100000 S4900000x1 S4900000 [] [0] [0] 1
  gather_S100000_S4900000x1_S4900000_n_0_n_n_0_1_1_wf : GatherDims.WF S100000 S4900000x1 S4900000 [] [0] [] [0] [] 1 ![1]
  gather_S100000x1_S4900000x1_S4900000x1_1_0_n_n_0_1_11_wf : GatherDims.WF S100000x1 S4900000x1 S4900000x1 [1] [0] [] [0] [] 1 ![1, 1]
  scatter_S100000x1_S4900000x1_S4900000x1_1_0_0_1_wf : ScatterDims.WF S100000x1 S4900000x1 S4900000x1 [1] [0] [0] 1
  dot_S10000x1_S1x16_S10000x16_1_0_0_1_n_n_wf : DotDims.WF S10000x1 S1x16 S10000x16 [1] [0] [0] [1] [] []
  dot_S10000x16_S16x2_S10000x2_1_0_0_1_n_n_wf : DotDims.WF S10000x16 S16x2 S10000x2 [1] [0] [0] [1] [] []
  gather_S100000x2_S4900000x1_S4900000x2_1_0_n_n_0_1_12_wf : GatherDims.WF S100000x2 S4900000x1 S4900000x2 [1] [0] [] [0] [] 1 ![1, 2]
  scatter_S100000x2_S4900000x1_S4900000x2_1_0_0_1_wf : ScatterDims.WF S100000x2 S4900000x1 S4900000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4800x128.size a ≤ S38400x128.size a
  hwx0_0 : ∀ i : grid0.Coords, EltTy.bits .f32 = 32 ∨ (Rect.block (s := S38400x128) S4800x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4800x128.size a ≤ S38400x128.size a
  hwx0_1 : ∀ i : grid0.Coords, EltTy.bits .f32 = 32 ∨ (Rect.block (s := S38400x128) S4800x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4800x128.size a ≤ S38400x128.size a
  hwx0_2 : ∀ i : grid0.Coords, EltTy.bits .f32 = 32 ∨ (Rect.block (s := S38400x128) S4800x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4800x128.size a ≤ S38400x128.size a
  hwx0_3 : ∀ i : grid0.Coords, EltTy.bits .f32 = 32 ∨ (Rect.block (s := S38400x128) S4800x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x1.size a ≤ S100000x1.size a
  hwx1_0 : ∀ i : grid1.Coords, EltTy.bits .f32 = 32 ∨ (Rect.block (s := S100000x1) S10000x1.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x16.size a ≤ S100000x16.size a
  hwx1_3 : ∀ i : grid1.Coords, EltTy.bits .f32 = 32 ∨ (Rect.block (s := S100000x16) S10000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x2.size a ≤ S16x2.size a
  hwx2_1 : ∀ i : grid2.Coords, EltTy.bits .f32 = 32 ∨ (Rect.block (s := S16x2) S16x2.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2.size a ≤ S1x2.size a
  hwx2_2 : ∀ i : grid2.Coords, EltTy.bits .f32 = 32 ∨ (Rect.block (s := S1x2) S1x2.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x2.size a ≤ S100000x2.size a
  hwx2_3 : ∀ i : grid2.Coords, EltTy.bits .f32 = 32 ∨ (Rect.block (s := S100000x2) S10000x2.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4800x128.size a ≤ S76800x128.size a
  hwx3_0 : ∀ i : grid3.Coords, EltTy.bits .f32 = 32 ∨ (Rect.block (s := S76800x128) S4800x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4800x128.size a ≤ S76800x128.size a
  hwx3_1 : ∀ i : grid3.Coords, EltTy.bits .f32 = 32 ∨ (Rect.block (s := S76800x128) S4800x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4800x128.size a ≤ S76800x128.size a
  hwx3_2 : ∀ i : grid3.Coords, EltTy.bits .f32 = 32 ∨ (Rect.block (s := S76800x128) S4800x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4800x128.size a ≤ S76800x128.size a
  hwx3_3 : ∀ i : grid3.Coords, EltTy.bits .f32 = 32 ∨ (Rect.block (s := S76800x128) S4800x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x2.size a ≤ S100000x2.size a
  hwx4_0 : ∀ i : grid4.Coords, EltTy.bits .f32 = 32 ∨ (Rect.block (s := S100000x2) S10000x2.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x2.size a ≤ S1x2.size a
  hwx4_1 : ∀ i : grid4.Coords, EltTy.bits .f32 = 32 ∨ (Rect.block (s := S1x2) S1x2.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x2.size a ≤ S100000x2.size a
  hwx4_2 : ∀ i : grid4.Coords, EltTy.bits .f32 = 32 ∨ (Rect.block (s := S100000x2) S10000x2.size (cc4_transform_2 i) (hinb4_2 i)).WholeWords (EltTy.packing .f32)

variable [Facts₀]

def scatter_S100000_S4900000x1_S4900000_n_0_0_1 : ScatterDims S100000 S4900000x1 S4900000 where
  updateWindowDims := []
  insertedWindowDims := [0]
  scatterDimsToOperandDims := [0]
  indexVectorDim := 1
  wf := scatter_S100000_S4900000x1_S4900000_n_0_0_1_wf
def gather_S100000_S4900000x1_S4900000_n_0_n_n_0_1_1 : GatherDims S100000 S4900000x1 S4900000 where
  offsetDims := []
  collapsedSliceDims := [0]
  operandBatchingDims := []
  startIndicesBatchingDims := []
  startIndexMap := [0]
  indexVectorDim := 1
  sliceSizes := ![1]
  wf := gather_S100000_S4900000x1_S4900000_n_0_n_n_0_1_1_wf
def gather_S100000x1_S4900000x1_S4900000x1_1_0_n_n_0_1_11 : GatherDims S100000x1 S4900000x1 S4900000x1 where
  offsetDims := [1]
  collapsedSliceDims := [0]
  operandBatchingDims := []
  startIndicesBatchingDims := []
  startIndexMap := [0]
  indexVectorDim := 1
  sliceSizes := ![1, 1]
  wf := gather_S100000x1_S4900000x1_S4900000x1_1_0_n_n_0_1_11_wf
def scatter_S100000x1_S4900000x1_S4900000x1_1_0_0_1 : ScatterDims S100000x1 S4900000x1 S4900000x1 where
  updateWindowDims := [1]
  insertedWindowDims := [0]
  scatterDimsToOperandDims := [0]
  indexVectorDim := 1
  wf := scatter_S100000x1_S4900000x1_S4900000x1_1_0_0_1_wf
def dot_S10000x1_S1x16_S10000x16_1_0_0_1_n_n : DotDims S10000x1 S1x16 S10000x16 where
  lhsContracting := [1]
  rhsContracting := [0]
  lhsNonContracting := [0]
  rhsNonContracting := [1]
  lhsBatch := []
  rhsBatch := []
  wf := dot_S10000x1_S1x16_S10000x16_1_0_0_1_n_n_wf
def dot_S10000x16_S16x2_S10000x2_1_0_0_1_n_n : DotDims S10000x16 S16x2 S10000x2 where
  lhsContracting := [1]
  rhsContracting := [0]
  lhsNonContracting := [0]
  rhsNonContracting := [1]
  lhsBatch := []
  rhsBatch := []
  wf := dot_S10000x16_S16x2_S10000x2_1_0_0_1_n_n_wf
def gather_S100000x2_S4900000x1_S4900000x2_1_0_n_n_0_1_12 : GatherDims S100000x2 S4900000x1 S4900000x2 where
  offsetDims := [1]
  collapsedSliceDims := [0]
  operandBatchingDims := []
  startIndicesBatchingDims := []
  startIndexMap := [0]
  indexVectorDim := 1
  sliceSizes := ![1, 2]
  wf := gather_S100000x2_S4900000x1_S4900000x2_1_0_n_n_0_1_12_wf
def scatter_S100000x2_S4900000x1_S4900000x2_1_0_0_1 : ScatterDims S100000x2 S4900000x1 S4900000x2 where
  updateWindowDims := [1]
  insertedWindowDims := [0]
  scatterDimsToOperandDims := [0]
  indexVectorDim := 1
  wf := scatter_S100000x2_S4900000x1_S4900000x2_1_0_0_1_wf

abbrev win0_0 : Pipeline.Window sig grid0 :=
  Pipeline.Window.ofSpec (Memref.whole main_v44) S4800x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S4800x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v46) S4800x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v47) S4800x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v53) S10000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55) S10000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v55) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v56) S1x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S10000x2.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v73) S4800x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S4800x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v75) S4800x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v76) S4800x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v82) S10000x2.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v83) S1x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v84) S10000x2.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x1 : Shape := ⟨2, ![100000, 1]⟩
abbrev S2x4800000 : Shape := ⟨2, ![2, 4800000]⟩
abbrev S1x16 : Shape := ⟨2, ![1, 16]⟩
abbrev S16 : Shape := ⟨1, ![16]⟩
abbrev S16x2 : Shape := ⟨2, ![16, 2]⟩
abbrev S2 : Shape := ⟨1, ![2]⟩
abbrev S100000 : Shape := ⟨1, ![100000]⟩
abbrev S1x4800000 : Shape := ⟨2, ![1, 4800000]⟩
abbrev S4800000 : Shape := ⟨1, ![4800000]⟩
abbrev S4900000 : Shape := ⟨1, ![4900000]⟩
abbrev S_ : Shape := ⟨0, ![]⟩
abbrev S4900000x1 : Shape := ⟨2, ![4900000, 1]⟩
abbrev S100000x16 : Shape := ⟨2, ![100000, 16]⟩
abbrev S4900000x16 : Shape := ⟨2, ![4900000, 16]⟩
abbrev S100000x2 : Shape := ⟨2, ![100000, 2]⟩
abbrev S4900000x2 : Shape := ⟨2, ![4900000, 2]⟩
abbrev S1x2 : Shape := ⟨2, ![1, 2]⟩

abbrev nBuf : Space → Nat
  | .hbm => 144
  | .vmem => 0
  | .smem => 0
  | _ => 0

abbrev hbmTy0_0 (i : Nat) : BufTy := match i % 128 with
  | 0 => ⟨S100000x1, .f32⟩
  | 1 => ⟨S2x4800000, .i32⟩
  | 2 => ⟨S1x16, .f32⟩
  | 3 => ⟨S16, .f32⟩
  | 4 => ⟨S16x2, .f32⟩
  | 5 => ⟨S2, .f32⟩
  | 6 => ⟨S100000, .i32⟩
  | 7 => ⟨S1x4800000, .i32⟩
  | 8 => ⟨S4800000, .i32⟩
  | 9 => ⟨S4900000, .i32⟩
  | 10 => ⟨S1x4800000, .i32⟩
  | 11 => ⟨S4800000, .i32⟩
  | 12 => ⟨S4900000, .i32⟩
  | 13 => ⟨S_, .f32⟩
  | 14 => ⟨S4900000, .f32⟩
  | 15 => ⟨S_, .f32⟩
  | 16 => ⟨S100000, .f32⟩
  | 17 => ⟨S4900000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S4900000, .i32⟩
  | 29 => ⟨S4900000, .i1⟩
  | 30 => ⟨S_, .i32⟩
  | 31 => ⟨S4900000, .i32⟩
  | 32 => ⟨S4900000, .i32⟩
  | 33 => ⟨S4900000, .i32⟩
  | 34 => ⟨S4900000x1, .i32⟩
  | 35 => ⟨S4900000, .f32⟩
  | 36 => ⟨S_, .i32⟩
  | 37 => ⟨S4900000, .i32⟩
  | 38 => ⟨S4900000, .i1⟩
  | 39 => ⟨S_, .i32⟩
  | 40 => ⟨S4900000, .i32⟩
  | 41 => ⟨S4900000, .i32⟩
  | 42 => ⟨S4900000, .i32⟩
  | 43 => ⟨S4900000x1, .i32⟩
  | 44 => ⟨S4900000, .f32⟩
  | 45 => ⟨S4900000, .f32⟩
  | 46 => ⟨S100000x16, .f32⟩
  | 47 => ⟨S_, .i32⟩
  | 48 => ⟨S4900000, .i32⟩
  | 49 => ⟨S4900000, .i1⟩
  | 50 => ⟨S_, .i32⟩
  | 51 => ⟨S4900000, .i32⟩
  | 52 => ⟨S4900000, .i32⟩
  | 53 => ⟨S4900000, .i32⟩
  | 54 => ⟨S4900000x1, .i32⟩
  | 55 => ⟨S4900000x16, .f32⟩
  | 56 => ⟨S4900000x1, .f32⟩
  | 57 => ⟨S4900000x16, .f32⟩
  | 58 => ⟨S4900000x16, .f32⟩
  | 59 => ⟨S_, .f32⟩
  | 60 => ⟨S100000x16, .f32⟩
  | 61 => ⟨S4900000x1, .i32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S100000, .i32⟩
  | 70 => ⟨S1x4800000, .i32⟩
  | 71 => ⟨S4800000, .i32⟩
  | 72 => ⟨S4900000, .i32⟩
  | 73 => ⟨S1x4800000, .i32⟩
  | 74 => ⟨S4800000, .i32⟩
  | 75 => ⟨S4900000, .i32⟩
  | 76 => ⟨S_, .f32⟩
  | 77 => ⟨S4900000, .f32⟩
  | 78 => ⟨S_, .f32⟩
  | 79 => ⟨S100000, .f32⟩
  | 80 => ⟨S4900000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S4900000, .i32⟩
  | 92 => ⟨S4900000, .i1⟩
  | 93 => ⟨S_, .i32⟩
  | 94 => ⟨S4900000, .i32⟩
  | 95 => ⟨S4900000, .i32⟩
  | 96 => ⟨S4900000, .i32⟩
  | 97 => ⟨S4900000x1, .i32⟩
  | 98 => ⟨S4900000, .f32⟩
  | 99 => ⟨S_, .i32⟩
  | 100 => ⟨S4900000, .i32⟩
  | 101 => ⟨S4900000, .i1⟩
  | 102 => ⟨S_, .i32⟩
  | 103 => ⟨S4900000, .i32⟩
  | 104 => ⟨S4900000, .i32⟩
  | 105 => ⟨S4900000, .i32⟩
  | 106 => ⟨S4900000x1, .i32⟩
  | 107 => ⟨S4900000, .f32⟩
  | 108 => ⟨S4900000, .f32⟩
  | 109 => ⟨S100000x2, .f32⟩
  | 110 => ⟨S_, .i32⟩
  | 111 => ⟨S4900000, .i32⟩
  | 112 => ⟨S4900000, .i1⟩
  | 113 => ⟨S_, .i32⟩
  | 114 => ⟨S4900000, .i32⟩
  | 115 => ⟨S4900000, .i32⟩
  | 116 => ⟨S4900000, .i32⟩
  | 117 => ⟨S4900000x1, .i32⟩
  | 118 => ⟨S4900000x2, .f32⟩
  | 119 => ⟨S4900000x1, .f32⟩
  | 120 => ⟨S4900000x2, .f32⟩
  | 121 => ⟨S4900000x2, .f32⟩
  | 122 => ⟨S_, .f32⟩
  | 123 => ⟨S100000x2, .f32⟩
  | 124 => ⟨S4900000x1, .i32⟩
  | 125 => ⟨S100000x2, .f32⟩
  | 126 => ⟨S1x2, .f32⟩
  | 127 => ⟨S100000x2, .f32⟩
  | _ => ⟨S100000x1, .f32⟩

abbrev hbmTy0_1 (i : Nat) : BufTy := match i % 128 with
  | 0 => ⟨S100000x2, .f32⟩
  | 1 => ⟨S_, .f32⟩
  | 2 => ⟨S100000, .f32⟩
  | 3 => ⟨S_, .f32⟩
  | 4 => ⟨S100000, .f32⟩
  | 5 => ⟨S100000, .f32⟩
  | 6 => ⟨S100000x1, .f32⟩
  | 7 => ⟨S100000x2, .f32⟩
  | 8 => ⟨S100000x2, .f32⟩
  | 9 => ⟨S100000x2, .f32⟩
  | 10 => ⟨S_, .f32⟩
  | 11 => ⟨S100000, .f32⟩
  | 12 => ⟨S100000x1, .f32⟩
  | 13 => ⟨S100000x1, .f32⟩
  | 14 => ⟨S100000x2, .f32⟩
  | 15 => ⟨S100000x2, .f32⟩
  | _ => ⟨S100000x1, .f32⟩

abbrev hbmTy (i : Nat) : BufTy := match i / 128 with
  | 0 => hbmTy0_0 i
  | 1 => hbmTy0_1 i
  | _ => ⟨S100000x1, .f32⟩

abbrev bufTy : (tb : Table) → Fin (tcTables nBuf tb) → BufTy
  | .hbm, ⟨i, _⟩ => hbmTy i
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_call3_cst : Ref sig .tc := ⟨.hbm, 129, rfl⟩
abbrev main_call3_v0 : Ref sig .tc := ⟨.hbm, 130, rfl⟩
abbrev main_call3_cst_0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_v6 : Ref sig .tc := ⟨.hbm, 137, rfl⟩
abbrev main_call3_cst_1 : Ref sig .tc := ⟨.hbm, 138, rfl⟩
abbrev main_call3_v7 : Ref sig .tc := ⟨.hbm, 139, rfl⟩
abbrev main_call3_v8 : Ref sig .tc := ⟨.hbm, 140, rfl⟩
abbrev main_call3_v9 : Ref sig .tc := ⟨.hbm, 141, rfl⟩
abbrev main_call3_v10 : Ref sig .tc := ⟨.hbm, 142, rfl⟩
abbrev main_v95 : Ref sig .tc := ⟨.hbm, 143, rfl⟩

abbrev nD : Nat := 1
abbrev τ : Topo := Topo.v7x

variable {F : FTy → Type} [FloatOps F]

class Facts₀ : Prop where
  slices_S2x4800000_S1x4800000_0_0 : S2x4800000.Slices ![0, 0] S1x4800000
  shapeCasts_S1x4800000_S4800000 : S1x4800000.ShapeCasts S4800000
  concatenates_S4800000_S100000_S4900000_d0 : Shape.Concatenates [S4800000, S100000] S4900000 0
  slices_S2x4800000_S1x4800000_1_0 : S2x4800000.Slices ![1, 0] S1x4800000
  bcast_S_S4900000 : S_.BroadcastsInDim S4900000 (![] : Fin 0 → Fin S4900000.rank)
  bcast_S_S100000 : S_.BroadcastsInDim S100000 (![] : Fin 0 → Fin S100000.rank)
  bcast_S4900000_S4900000x1_0 : S4900000.BroadcastsInDim S4900000x1 (![0] : Fin 1 → Fin S4900000x1.rank)
  bcast_S4900000x1_S4900000x16_0_1 : S4900000x1.BroadcastsInDim S4900000x16 (![0, 1] : Fin 2 → Fin S4900000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S4900000x1_S4900000x2_0_1 : S4900000x1.BroadcastsInDim S4900000x2 (![0, 1] : Fin 2 → Fin S4900000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  scatter_S100000_S4900000x1_S4900000_n_0_0_1_wf : ScatterDims.WF S100000 S4900000x1 S4900000 [] [0] [0] 1
  gather_S100000_S4900000x1_S4900000_n_0_n_n_0_1_1_wf : GatherDims.WF S100000 S4900000x1 S4900000 [] [0] [] [0] [] 1 ![1]
  dot_S100000x1_S1x16_S100000x16_1_0_0_1_n_n_wf : DotDims.WF S100000x1 S1x16 S100000x16 [1] [0] [0] [1] [] []
  gather_S100000x16_S4900000x1_S4900000x16_1_0_n_n_0_1_116_wf : GatherDims.WF S100000x16 S4900000x1 S4900000x16 [1] [0] [] [0] [] 1 ![1, 16]
  scatter_S100000x16_S4900000x1_S4900000x16_1_0_0_1_wf : ScatterDims.WF S100000x16 S4900000x1 S4900000x16 [1] [0] [0] 1
  dot_S100000x16_S16x2_S100000x2_1_0_0_1_n_n_wf : DotDims.WF S100000x16 S16x2 S100000x2 [1] [0] [0] [1] [] []
  gather_S100000x2_S4900000x1_S4900000x2_1_0_n_n_0_1_12_wf : GatherDims.WF S100000x2 S4900000x1 S4900000x2 [1] [0] [] [0] [] 1 ![1, 2]
  scatter_S100000x2_S4900000x1_S4900000x2_1_0_0_1_wf : ScatterDims.WF S100000x2 S4900000x1 S4900000x2 [1] [0] [0] 1

variable [Facts₀]

def scatter_S100000_S4900000x1_S4900000_n_0_0_1 : ScatterDims S100000 S4900000x1 S4900000 where
  updateWindowDims := []
  insertedWindowDims := [0]
  scatterDimsToOperandDims := [0]
  indexVectorDim := 1
  wf := scatter_S100000_S4900000x1_S4900000_n_0_0_1_wf
def gather_S100000_S4900000x1_S4900000_n_0_n_n_0_1_1 : GatherDims S100000 S4900000x1 S4900000 where
  offsetDims := []
  collapsedSliceDims := [0]
  operandBatchingDims := []
  startIndicesBatchingDims := []
  startIndexMap := [0]
  indexVectorDim := 1
  sliceSizes := ![1]
  wf := gather_S100000_S4900000x1_S4900000_n_0_n_n_0_1_1_wf
def dot_S100000x1_S1x16_S100000x16_1_0_0_1_n_n : DotDims S100000x1 S1x16 S100000x16 where
  lhsContracting := [1]
  rhsContracting := [0]
  lhsNonContracting := [0]
  rhsNonContracting := [1]
  lhsBatch := []
  rhsBatch := []
  wf := dot_S100000x1_S1x16_S100000x16_1_0_0_1_n_n_wf
def gather_S100000x16_S4900000x1_S4900000x16_1_0_n_n_0_1_116 : GatherDims S100000x16 S4900000x1 S4900000x16 where
  offsetDims := [1]
  collapsedSliceDims := [0]
  operandBatchingDims := []
  startIndicesBatchingDims := []
  startIndexMap := [0]
  indexVectorDim := 1
  sliceSizes := ![1, 16]
  wf := gather_S100000x16_S4900000x1_S4900000x16_1_0_n_n_0_1_116_wf
def scatter_S100000x16_S4900000x1_S4900000x16_1_0_0_1 : ScatterDims S100000x16 S4900000x1 S4900000x16 where
  updateWindowDims := [1]
  insertedWindowDims := [0]
  scatterDimsToOperandDims := [0]
  indexVectorDim := 1
  wf := scatter_S100000x16_S4900000x1_S4900000x16_1_0_0_1_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf
def gather_S100000x2_S4900000x1_S4900000x2_1_0_n_n_0_1_12 : GatherDims S100000x2 S4900000x1 S4900000x2 where
  offsetDims := [1]
  collapsedSliceDims := [0]
  operandBatchingDims := []
  startIndicesBatchingDims := []
  startIndexMap := [0]
  indexVectorDim := 1
  sliceSizes := ![1, 2]
  wf := gather_S100000x2_S4900000x1_S4900000x2_1_0_n_n_0_1_12_wf
def scatter_S100000x2_S4900000x1_S4900000x2_1_0_0_1 : ScatterDims S100000x2 S4900000x1 S4900000x2 where
  updateWindowDims := [1]
  insertedWindowDims := [0]
  scatterDimsToOperandDims := [0]
  indexVectorDim := 1
  wf := scatter_S100000x2_S4900000x1_S4900000x2_1_0_0_1_wf

class Facts : Prop extends Facts₀ where

variable [Facts]
-- ==== Proof.KRun.lean ====
/-
  The idealized kernel's run with its RESULT named.  @main is 24 segments (stretches of host operations and five
  kernel regions); the buffer contents at each segment boundary are a fold from the launch memory, and every weakly
  fair execution terminates with each unscoped buffer at the last boundary's contents.  Read at the result buffer
  this gives the result array as the last boundary's contents there, beside the unchanged arguments.
-/
import proofs.«103736_j14559939134162_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel's @main terminates without a fault, its result array at the
    contents the last segment boundary gives the result buffer, its argument arrays as launched. -/
theorem run_result : θ_run defs (onTc (τ := τ) (main (F := F))) ⟨m, fun _ => 0, ρ⟩ (fun r => ∀ c : Dev nD,
      r.2.mem ((c.tc : Thread nD τ).loc main_v84) = W24 m ρ c (Proc.devRef .tc main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 m ρ c) s')
      isplitl [Hh] <;> iassumption)
    (hQ := fun s h c =>
      ⟨h c _ (mem_uc main_v84 (by decide)),
       (h c _ (mem_uc main_arg0 (by decide))).trans (W24_main_arg0 m ρ c),
       (h c _ (mem_uc main_arg1 (by decide))).trans (W24_main_arg1 m ρ c),
       (h c _ (mem_uc main_arg2 (by decide))).trans (W24_main_arg2 m ρ c),
       (h c _ (mem_uc main_arg3 (by decide))).trans (W24_main_arg3 m ρ c),
       (h c _ (mem_uc main_arg4 (by decide))).trans (W24_main_arg4 m ρ c),
       (h c _ (mem_uc main_arg5 (by decide))).trans (W24_main_arg5 m ρ c)⟩)

end Cert.KernelIdeal.Run

end
-- ==== Proof.RefRead.lean ====
/-
  The reference's run, read one operation at a time (the read-at-an-index lemmas are imported here).
-/
import proofs.«103736_j14559939134162_2_alg».proof.Proof.ReadP

noncomputable section

namespace Cert.RefSide

end Cert.RefSide

end
-- ==== Proof.Scale0.lean ====
/-
  Region 0 (the per-edge scaling kernel): its output array after the run, as one function of the arrays the
  region finds.  Each grid point handles one block of 4800 rows of 128 lanes; the body multiplies the three input
  blocks entry by entry, (g · a) · b, and the blocks of the 8 points tile the array, so the whole array ends
  at the entrywise product (g · a) · b of the three input arrays.
-/
import proofs.«103736_j14559939134162_2_alg».proof.Proof.Gen.KernelIdeal.Frame
import Idealize.ShloMosaic.Lib.Pipeline.Value

set_option maxRecDepth 16384

noncomputable section

namespace Cert.KernelIdeal.Scale0

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem zero_off : (![0, 0] : Fin 2 → Nat) = fun _ => 0 := funext fun a => by fin_cases a <;> rfl

/-- The entrywise product (g · a) · b of three arrays of one shape. -/
abbrev prod3 (a0 a1 a2 : S38400x128.Idx → Elt F .f32) : S38400x128.Idx → Elt F .f32 :=
  fun i => FloatOps.mulf (FloatOps.mulf (a0 i) (a1 i)) (a2 i)

/-- The body's stored value is the entrywise product of its three loaded blocks (the reshapes to the same shape are
    the identity). -/
theorem payload_eq (x0 x1 x2 : Vec F S4800x128 .f32) : k0_pay1 x0 x1 x2 = mulf (mulf x0 x1) x2 := by
  unfold k0_pay1
  simp only [shapeCast_self]

/-- Every window of this region sits, at every grid point, on the same block of rows as the output window, and the
    output's block numbers run over 0 … 7 in the row axis and are 0 in the lane axis. -/
theorem same_block : ∀ t : Fin cfg0.N,
    win0_0.index t (0 : Fin 2) = win0_3.index t (0 : Fin 2) ∧ win0_0.index t (1 : Fin 2) = win0_3.index t (1 : Fin 2)
    ∧ win0_1.index t (0 : Fin 2) = win0_3.index t (0 : Fin 2) ∧ win0_1.index t (1 : Fin 2) = win0_3.index t (1 : Fin 2)
    ∧ win0_2.index t (0 : Fin 2) = win0_3.index t (0 : Fin 2) ∧ win0_2.index t (1 : Fin 2) = win0_3.index t (1 : Fin 2)
    ∧ win0_3.index t (0 : Fin 2) ≤ 7 ∧ win0_3.index t (1 : Fin 2) = 0 :=
  (by decide +kernel : ∀ t : Fin grid0.N, _)

/-- Every block of rows is some grid point's. -/
theorem block_onto : ∀ q : Fin 8, ∃ t : Fin cfg0.N, win0_3.index t = ![q.val, 0] :=
  (by decide +kernel : ∀ q : Fin 8, ∃ t : Fin grid0.N, win0_3.index t = ![q.val, 0])

/-- What grid point `t` writes back is block `t` of the entrywise product of the three input arrays. -/
theorem flushed_eq (c : Dev nD) (t : Fin cfg0.N) :
    (dat0 V c).flushed 3 t
      = ((cfg0.win 3).blk t).view.read (Elt F) (prod3 (V c main_v44) (V c main_v45) (V c main_v46)) := by
  show (cfg0.win 3).cut (grid0.coords t) ((dat0 V c).after 3 t) = _
  rw [after0_3]
  unfold out0_3
  rw [View.canon_unit_zero zero_off]
  simp only [View.ld_unit_zero (S := S4800x128) zero_off]
  rw [payload_eq]
  obtain ⟨e0, e1, e2, e3, e4, e5, -, -⟩ := same_block t
  funext j
  show FloatOps.mulf (FloatOps.mulf (V c main_v44 (((cfg0.win 0).blk t).view.emb j)) (V c main_v45 (((cfg0.win 1).blk t).view.emb j))) (V c main_v46 (((cfg0.win 2).blk t).view.emb j))
    = FloatOps.mulf (FloatOps.mulf (V c main_v44 (((cfg0.win 3).blk t).view.emb j)) (V c main_v45 (((cfg0.win 3).blk t).view.emb j))) (V c main_v46 (((cfg0.win 3).blk t).view.emb j))
  have h0 : ((cfg0.win 0).blk t).view.emb j = ((cfg0.win 3).blk t).view.emb j := by
    funext a; apply Fin.ext
    match a with
    | ⟨0, _⟩ => show win0_0.index t (0 : Fin 2) * 4800 + 1 * (j 0).val = win0_3.index t (0 : Fin 2) * 4800 + 1 * (j 0).val; omega
    | ⟨1, _⟩ => show win0_0.index t (1 : Fin 2) * 128 + 1 * (j 1).val = win0_3.index t (1 : Fin 2) * 128 + 1 * (j 1).val; omega
  have h1 : ((cfg0.win 1).blk t).view.emb j = ((cfg0.win 3).blk t).view.emb j := by
    funext a; apply Fin.ext
    match a with
    | ⟨0, _⟩ => show win0_1.index t (0 : Fin 2) * 4800 + 1 * (j 0).val = win0_3.index t (0 : Fin 2) * 4800 + 1 * (j 0).val; omega
    | ⟨1, _⟩ => show win0_1.index t (1 : Fin 2) * 128 + 1 * (j 1).val = win0_3.index t (1 : Fin 2) * 128 + 1 * (j 1).val; omega
  have h2 : ((cfg0.win 2).blk t).view.emb j = ((cfg0.win 3).blk t).view.emb j := by
    funext a; apply Fin.ext
    match a with
    | ⟨0, _⟩ => show win0_2.index t (0 : Fin 2) * 4800 + 1 * (j 0).val = win0_3.index t (0 : Fin 2) * 4800 + 1 * (j 0).val; omega
    | ⟨1, _⟩ => show win0_2.index t (1 : Fin 2) * 128 + 1 * (j 1).val = win0_3.index t (1 : Fin 2) * 128 + 1 * (j 1).val; omega
  rw [h0, h1, h2]

/-- An index of the output array lies in point `t`'s block iff each coordinate lies in the block's range. -/
theorem mem_block (t : Fin cfg0.N) (i : S38400x128.Idx) :
    i ∈ ((cfg0.win 3).blk t).view.set ↔ ∀ a : Fin 2, win0_3.index t a * S4800x128.size a ≤ (i a).val ∧ (i a).val < win0_3.index t a * S4800x128.size a + S4800x128.size a := by
  show i ∈ ((View.whole main_v47).slice (win0_3.rect t)).set ↔ _
  rw [View.set_slice_whole, Rect.mem_set_unit]
  exact Iff.rfl

/-- The blocks tile the array: row `r` lies in the block of the point whose block number is r / 4800. -/
theorem covered (i : S38400x128.Idx) :
    ∃ t : Fin cfg0.N, (cfg0.win 3).flush t = true ∧ i ∈ ((cfg0.win 3).blk t).view.set := by
  have hi0 : (i 0).val < 38400 := (i 0).isLt
  have hi1 : (i 1).val < 128 := (i 1).isLt
  obtain ⟨t, ht⟩ := block_onto ⟨(i 0).val / 4800, by omega⟩
  have q0 : win0_3.index t (0 : Fin 2) = (i 0).val / 4800 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 4800 ≤ (i 0).val ∧ (i 0).val < win0_3.index t (0 : Fin 2) * 4800 + 4800; omega
  | ⟨1, _⟩ => show win0_3.index t (1 : Fin 2) * 128 ≤ (i 1).val ∧ (i 1).val < win0_3.index t (1 : Fin 2) * 128 + 128; omega

/-- THE OUTPUT ARRAY after the region: the entrywise product (g · a) · b of the three arrays the region finds. -/
theorem final (c : Dev nD) :
    (dat0 V c).arrAt 3 cfg0.N = prod3 (V c main_v44) (V c main_v45) (V c main_v46) :=
  (dat0 V c).arrAt_eq_of_cover 3 _ (fun t _ => flushed_eq V c t) covered

end Cert.KernelIdeal.Scale0

end
-- ==== Proof.Scale3.lean ====
/-
  Region 3 (the per-edge scaling kernel): its output array after the run, as one function of the arrays the
  region finds.  Each grid point handles one block of 4800 rows of 128 lanes; the body multiplies the three input
  blocks entry by entry, (g · a) · b, and the blocks of the 16 points tile the array, so the whole array ends
  at the entrywise product (g · a) · b of the three input arrays.
-/
import proofs.«103736_j14559939134162_2_alg».proof.Proof.Gen.KernelIdeal.Frame
import Idealize.ShloMosaic.Lib.Pipeline.Value

set_option maxRecDepth 16384

noncomputable section

namespace Cert.KernelIdeal.Scale3

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem zero_off : (![0, 0] : Fin 2 → Nat) = fun _ => 0 := funext fun a => by fin_cases a <;> rfl

/-- The entrywise product (g · a) · b of three arrays of one shape. -/
abbrev prod3 (a0 a1 a2 : S76800x128.Idx → Elt F .f32) : S76800x128.Idx → Elt F .f32 :=
  fun i => FloatOps.mulf (FloatOps.mulf (a0 i) (a1 i)) (a2 i)

/-- The body's stored value is the entrywise product of its three loaded blocks (the reshapes to the same shape are
    the identity). -/
theorem payload_eq (x0 x1 x2 : Vec F S4800x128 .f32) : k3_pay1 x0 x1 x2 = mulf (mulf x0 x1) x2 := by
  unfold k3_pay1
  simp only [shapeCast_self]

/-- Every window of this region sits, at every grid point, on the same block of rows as the output window, and the
    output's block numbers run over 0 … 15 in the row axis and are 0 in the lane axis. -/
theorem same_block : ∀ t : Fin cfg3.N,
    win3_0.index t (0 : Fin 2) = win3_3.index t (0 : Fin 2) ∧ win3_0.index t (1 : Fin 2) = win3_3.index t (1 : Fin 2)
    ∧ win3_1.index t (0 : Fin 2) = win3_3.index t (0 : Fin 2) ∧ win3_1.index t (1 : Fin 2) = win3_3.index t (1 : Fin 2)
    ∧ win3_2.index t (0 : Fin 2) = win3_3.index t (0 : Fin 2) ∧ win3_2.index t (1 : Fin 2) = win3_3.index t (1 : Fin 2)
    ∧ win3_3.index t (0 : Fin 2) ≤ 15 ∧ win3_3.index t (1 : Fin 2) = 0 :=
  (by decide +kernel : ∀ t : Fin grid3.N, _)

/-- Every block of rows is some grid point's. -/
theorem block_onto : ∀ q : Fin 16, ∃ t : Fin cfg3.N, win3_3.index t = ![q.val, 0] :=
  (by decide +kernel : ∀ q : Fin 16, ∃ t : Fin grid3.N, win3_3.index t = ![q.val, 0])

/-- What grid point `t` writes back is block `t` of the entrywise product of the three input arrays. -/
theorem flushed_eq (c : Dev nD) (t : Fin cfg3.N) :
    (dat3 V c).flushed 3 t
      = ((cfg3.win 3).blk t).view.read (Elt F) (prod3 (V c main_v73) (V c main_v74) (V c main_v75)) := by
  show (cfg3.win 3).cut (grid3.coords t) ((dat3 V c).after 3 t) = _
  rw [after3_3]
  unfold out3_3
  rw [View.canon_unit_zero zero_off]
  simp only [View.ld_unit_zero (S := S4800x128) zero_off]
  rw [payload_eq]
  obtain ⟨e0, e1, e2, e3, e4, e5, -, -⟩ := same_block t
  funext j
  show FloatOps.mulf (FloatOps.mulf (V c main_v73 (((cfg3.win 0).blk t).view.emb j)) (V c main_v74 (((cfg3.win 1).blk t).view.emb j))) (V c main_v75 (((cfg3.win 2).blk t).view.emb j))
    = FloatOps.mulf (FloatOps.mulf (V c main_v73 (((cfg3.win 3).blk t).view.emb j)) (V c main_v74 (((cfg3.win 3).blk t).view.emb j))) (V c main_v75 (((cfg3.win 3).blk t).view.emb j))
  have h0 : ((cfg3.win 0).blk t).view.emb j = ((cfg3.win 3).blk t).view.emb j := by
    funext a; apply Fin.ext
    match a with
    | ⟨0, _⟩ => show win3_0.index t (0 : Fin 2) * 4800 + 1 * (j 0).val = win3_3.index t (0 : Fin 2) * 4800 + 1 * (j 0).val; omega
    | ⟨1, _⟩ => show win3_0.index t (1 : Fin 2) * 128 + 1 * (j 1).val = win3_3.index t (1 : Fin 2) * 128 + 1 * (j 1).val; omega
  have h1 : ((cfg3.win 1).blk t).view.emb j = ((cfg3.win 3).blk t).view.emb j := by
    funext a; apply Fin.ext
    match a with
    | ⟨0, _⟩ => show win3_1.index t (0 : Fin 2) * 4800 + 1 * (j 0).val = win3_3.index t (0 : Fin 2) * 4800 + 1 * (j 0).val; omega
    | ⟨1, _⟩ => show win3_1.index t (1 : Fin 2) * 128 + 1 * (j 1).val = win3_3.index t (1 : Fin 2) * 128 + 1 * (j 1).val; omega
  have h2 : ((cfg3.win 2).blk t).view.emb j = ((cfg3.win 3).blk t).view.emb j := by
    funext a; apply Fin.ext
    match a with
    | ⟨0, _⟩ => show win3_2.index t (0 : Fin 2) * 4800 + 1 * (j 0).val = win3_3.index t (0 : Fin 2) * 4800 + 1 * (j 0).val; omega
    | ⟨1, _⟩ => show win3_2.index t (1 : Fin 2) * 128 + 1 * (j 1).val = win3_3.index t (1 : Fin 2) * 128 + 1 * (j 1).val; omega
  rw [h0, h1, h2]

/-- An index of the output array lies in point `t`'s block iff each coordinate lies in the block's range. -/
theorem mem_block (t : Fin cfg3.N) (i : S76800x128.Idx) :
    i ∈ ((cfg3.win 3).blk t).view.set ↔ ∀ a : Fin 2, win3_3.index t a * S4800x128.size a ≤ (i a).val ∧ (i a).val < win3_3.index t a * S4800x128.size a + S4800x128.size a := by
  show i ∈ ((View.whole main_v76).slice (win3_3.rect t)).set ↔ _
  rw [View.set_slice_whole, Rect.mem_set_unit]
  exact Iff.rfl

/-- The blocks tile the array: row `r` lies in the block of the point whose block number is r / 4800. -/
theorem covered (i : S76800x128.Idx) :
    ∃ t : Fin cfg3.N, (cfg3.win 3).flush t = true ∧ i ∈ ((cfg3.win 3).blk t).view.set := by
  have hi0 : (i 0).val < 76800 := (i 0).isLt
  have hi1 : (i 1).val < 128 := (i 1).isLt
  obtain ⟨t, ht⟩ := block_onto ⟨(i 0).val / 4800, by omega⟩
  have q0 : win3_3.index t (0 : Fin 2) = (i 0).val / 4800 := congrFun ht 0
  have q1 : win3_3.index t (1 : Fin 2) = 0 := congrFun ht 1
  refine ⟨t, flush3_3 t, ?_⟩
  rw [mem_block]
  intro a
  match a with
  | ⟨0, _⟩ => show win3_3.index t (0 : Fin 2) * 4800 ≤ (i 0).val ∧ (i 0).val < win3_3.index t (0 : Fin 2) * 4800 + 4800; omega
  | ⟨1, _⟩ => show win3_3.index t (1 : Fin 2) * 128 ≤ (i 1).val ∧ (i 1).val < win3_3.index t (1 : Fin 2) * 128 + 128; omega

/-- THE OUTPUT ARRAY after the region: the entrywise product (g · a) · b of the three arrays the region finds. -/
theorem final (c : Dev nD) :
    (dat3 V c).arrAt 3 cfg3.N = prod3 (V c main_v73) (V c main_v74) (V c main_v75) :=
  (dat3 V c).arrAt_eq_of_cover 3 _ (fun t _ => flushed_eq V c t) covered

end Cert.KernelIdeal.Scale3

end
-- ==== Proof.LibPlainDot.lean ====
/-
  A plain matrix product — M×K by K×N, the left operand contracted on its columns and the right on its rows, no batch
  axis (`DotDims.plain M K N`) — read at an index at the ideal values, for any extents.

  * `plain_lhsIdx` / `plain_rhsIdx`: at result index (r, c) and contraction coordinate k the operand indices are
    (r, k) and (k, c).
  * `dotGeneral_plain_apply`: the host's product at (r, c) is the sum over k of left (r, k) times right (k, c).
  * `matmul_plain_zero_apply`: the vector unit's product into a zero accumulator is the same sum.
  * `matmul_plain_zero_eq_dotGeneral`: a product of a block of rows (of any two formats) at a block index is the
    product of whole arrays (of any two formats, under any precision and schedule key) at an array index, as soon as the
    block's row is the array's row and the right operands' columns agree: no rounding is left at the ideal values, so
    the tiling of the rows and the operand formats do not matter.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The left operand's index of a plain product at result index `j` and contraction coordinate `k` is (row of `j`, `k`). -/
theorem plain_lhsIdx (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ (0 : Fin (⟨2, ![M, K]⟩ : Shape).rank)).val = (j 0).val
    unfold DotDims.lhsIdx
    rw [dif_neg (show ¬(0 : Fin (⟨2, ![M, K]⟩ : Shape).rank) ∈ (DotDims.plain M K N).lhsBatch from List.not_mem_nil),
      dif_pos (show (0 : Fin (⟨2, ![M, K]⟩ : Shape).rank) ∈ (DotDims.plain M K N).lhsNonContracting from List.mem_singleton.mpr rfl)]
    rfl
  | ⟨1, _⟩ => exact ((DotDims.plain M K N).lhsIdx_val_of_single rfl j _).trans hk

/-- The right operand's index of a plain product at result index `j` and contraction coordinate `k` is (`k`, column of `j`). -/
theorem plain_rhsIdx (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ =>
    show ((DotDims.plain M K N).rhsIdx j _ (1 : Fin (⟨2, ![K, N]⟩ : Shape).rank)).val = (j 1).val
    unfold DotDims.rhsIdx
    rw [dif_neg (show ¬(1 : Fin (⟨2, ![K, N]⟩ : Shape).rank) ∈ (DotDims.plain M K N).rhsBatch from List.not_mem_nil),
      dif_pos (show (1 : Fin (⟨2, ![K, N]⟩ : Shape).rank) ∈ (DotDims.plain M K N).rhsNonContracting from List.mem_singleton.mpr rfl)]
    rfl

/-- The host's plain product at the ideal values, at (r, c): the sum over k of left (r, k) times right (k, c). -/
theorem dotGeneral_plain_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j = ∑ k : Fin K, l (ix2 (j 0) k) * r (ix2 k (j 1)) := by
  rw [Ideal.dotGeneral_apply, ← Equiv.sum_comp (contrEquiv1 (DotDims.plain M K N) K rfl rfl).symm]
  refine Finset.sum_congr rfl fun k _ => ?_
  rw [plain_lhsIdx, plain_rhsIdx]
  rfl

/-- The vector unit's plain product into a zero accumulator, at the ideal values, at (r, c): the same sum. -/
theorem matmul_plain_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) := by
  rw [Ideal.matmul_constant_zero_apply, ← Equiv.sum_comp (contrEquiv1 (DotDims.plain M K N) K rfl rfl).symm]
  refine Finset.sum_congr rfl fun k _ => ?_
  rw [plain_lhsIdx, plain_rhsIdx]
  rfl

/-- A block of B rows times a right operand, into zero, read at block index `y`, is the whole M-row product read at array
    index `i`, when the block's row at `y` is the array's row at `i` and the right operands agree on the column. -/
theorem matmul_plain_zero_eq_dotGeneral {B : Nat} {φ₁ φ₂ ψ₁ ψ₂ : FTy} (prec prec' : Option ContractPrecision)
    (sched : HostSchedule)
    (lb : FVec Ideal ⟨2, ![B, K]⟩ φ₁) (rb : FVec Ideal ⟨2, ![K, N]⟩ φ₂)
    (l : FVec Ideal ⟨2, ![M, K]⟩ ψ₁) (r : FVec Ideal ⟨2, ![K, N]⟩ ψ₂)
    (y : (⟨2, ![B, N]⟩ : Shape).Idx) (i : (⟨2, ![M, N]⟩ : Shape).Idx)
    (hrow : ∀ k : Fin K, (lb (ix2 (y 0) k) : EReal) = l (ix2 (i 0) k))
    (hcol : ∀ k : Fin K, (rb (ix2 k (y 1)) : EReal) = r (ix2 k (i 1))) :
    (FloatOps.matmul (DotDims.plain B K N) prec lb rb (constant ⟨2, ![B, N]⟩ .f32 0x00000000#32) y : EReal)
      = FloatOps.dotGeneral (DotDims.plain M K N) prec' sched l r i := by
  rw [matmul_plain_zero_apply, dotGeneral_plain_apply]
  exact Finset.sum_congr rfl fun k _ => by rw [hrow k, hcol k]

end Cert.LibPlainDot

end
-- ==== Proof.Dense1.lean ====
/-
  Region 1 (a dense layer on blocks of 10000 rows): its output array after the run, as one function of the arrays
  the region finds.  At each grid point the body multiplies a 10000 × 1 block of rows by the whole 1 × 16 weight
  matrix (into a zero accumulator), adds the 1 × 16 bias row to every row and takes the maximum with zero; the ten blocks tile the
  100000 rows.  So entry (r, c) of the output array is max (Σ_k a(r, k) · w(k, c) + b(0, c), 0).
-/
import proofs.«103736_j14559939134162_2_alg».proof.Proof.Gen.KernelIdeal.Frame
import proofs.«103736_j14559939134162_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Dense1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- The dense layer on whole arrays, entry by entry. -/
def layer (a : S100000x1.Idx → EReal) (w : S1x16.Idx → EReal) (b : S1x16.Idx → EReal) : S100000x16.Idx → EReal :=
  fun i => max ((∑ k : Fin 1, a (ix2 (i 0) k) * w (ix2 k (i 1))) + b (ix2 (0 : Fin 1) (i 1))) 0

/-- The printed dimension numbers of the block product are the plain ones. -/
theorem dims_plain : dot_S10000x1_S1x16_S10000x16_1_0_0_1_n_n = DotDims.plain 10000 1 16 := rfl

/-- The body's stored value at entry (p, q) of the block: row p of the input block times column q of the weights,
    plus the bias entry of that column, clipped below at zero. -/
theorem payload_at (x0 : Vec Ideal S10000x1 .f32) (x1 : Vec Ideal S1x16 .f32) (x2 : Vec Ideal S1x16 .f32) (p : Fin 10000) (q : Fin 16) :
    k1_pay1 x0 x1 x2 (ix2 p q) = max ((∑ k : Fin 1, x0 (ix2 p k) * x1 (ix2 k q)) + x2 (ix2 (0 : Fin 1) q)) 0 := by
  unfold k1_pay1
  simp only [shapeCast_self]
  rw [dims_plain]
  show max ((FloatOps.matmul (F := Ideal) (DotDims.plain 10000 1 16) (some .fp32) x0 x1 (constant S10000x16 .f32 0x00000000#32) (ix2 p q) : EReal)
      + broadcastTo S10000x16 x2 broadcasts_S1x16_S10000x16 (ix2 p q)) (Ideal.ofBits .f32 0x00000000#32) = _
  rw [Ideal.ofBits_zero_f32]
  rw [Cert.LibPlainDot.matmul_plain_zero_apply, broadcastTo_1b_ab_apply] <;> rfl

/-- The same at an index `y` of the block, by its coordinates. -/
theorem payload_apply (x0 : Vec Ideal S10000x1 .f32) (x1 : Vec Ideal S1x16 .f32) (x2 : Vec Ideal S1x16 .f32) (y : S10000x16.Idx) :
    k1_pay1 x0 x1 x2 y = max ((∑ k : Fin 1, x0 (ix2 (y 0) k) * x1 (ix2 k (y 1))) + x2 (ix2 (0 : Fin 1) (y 1))) 0 := by
  exact (congrArg (k1_pay1 x0 x1 x2) (eq_ix2 y)).trans (payload_at x0 x1 x2 (y 0) (y 1))

/-- The windows' block numbers at every grid point: the input rows and the output rows move together, the weights and
    the bias are one block, and the output's row-block number is at most 9. -/
theorem same_block : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) ≤ 9 ∧ win1_3.index t (1 : Fin 2) = 0 :=
  (by decide +kernel : ∀ t : Fin grid1.N, _)

/-- Every block of rows is some grid point's. -/
theorem block_onto : ∀ q : Fin 10, ∃ t : Fin cfg1.N, win1_3.index t = ![q.val, 0] :=
  (by decide +kernel : ∀ q : Fin 10, ∃ t : Fin grid1.N, win1_3.index t = ![q.val, 0])

/-- What grid point `t` writes back is block `t` of the dense layer of the arrays the region finds. -/
theorem flushed_eq (c : Dev nD) (t : Fin cfg1.N) :
    (dat1 V c).flushed 3 t
      = ((cfg1.win 3).blk t).view.read (Elt Ideal) (layer (V c main_v53) (V c main_arg2) (V c main_v54)) := by
  show (cfg1.win 3).cut (grid1.coords t) ((dat1 V c).after 3 t) = _
  rw [after1_3]
  unfold out1_3
  rw [View.canon_unit_zero zero_off]
  simp only [View.ld_unit_zero (S := S10000x1) zero_off, View.ld_unit_zero (S := S1x16) zero_off, View.ld_unit_zero (S := S1x16) zero_off]
  obtain ⟨e0, e1, e2, e3, e4, e5, -, e7⟩ := same_block t
  funext j
  show k1_pay1 (iblk1 V c 0 t) (iblk1 V c 1 t) (iblk1 V c 2 t) j
    = layer (V c main_v53) (V c main_arg2) (V c main_v54) (((cfg1.win 3).blk t).view.emb j)
  refine (payload_apply (iblk1 V c 0 t) (iblk1 V c 1 t) (iblk1 V c 2 t) j).trans ?_
  have hj0 : (j 0).val < 10000 := (j 0).isLt
  have hj1 : (j 1).val < 16 := (j 1).isLt
  have ha : ∀ k : Fin 1, iblk1 V c 0 t (ix2 (j 0) k)
      = V c main_v53 (ix2 ((((cfg1.win 3).blk t).view.emb j) 0) k) := fun k => by
    show V c main_v53 (((cfg1.win 0).blk t).view.emb (ix2 (j 0) k)) = _
    refine congrArg (V c main_v53) ?_
    funext a; apply Fin.ext
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 1 + 1 * k.val = k.val; omega
  have hw : ∀ k : Fin 1, iblk1 V c 1 t (ix2 k (j 1))
      = V c main_arg2 (ix2 k ((((cfg1.win 3).blk t).view.emb j) 1)) := fun k => by
    show V c main_arg2 (((cfg1.win 1).blk t).view.emb (ix2 k (j 1))) = _
    refine congrArg (V c main_arg2) ?_
    funext a; apply Fin.ext
    match a with
    | ⟨0, _⟩ => show win1_1.index t (0 : Fin 2) * 1 + 1 * k.val = k.val; omega
    | ⟨1, _⟩ => show win1_1.index t (1 : Fin 2) * 16 + 1 * (j 1).val = win1_3.index t (1 : Fin 2) * 16 + 1 * (j 1).val; omega
  have hb : iblk1 V c 2 t (ix2 (0 : Fin 1) (j 1))
      = V c main_v54 (ix2 (0 : Fin 1) ((((cfg1.win 3).blk t).view.emb j) 1)) := by
    show V c main_v54 (((cfg1.win 2).blk t).view.emb (ix2 (0 : Fin 1) (j 1))) = _
    refine congrArg (V c main_v54) ?_
    funext a; apply Fin.ext
    match a with
    | ⟨0, _⟩ => show win1_2.index t (0 : Fin 2) * 1 + 1 * 0 = 0; omega
    | ⟨1, _⟩ => show win1_2.index t (1 : Fin 2) * 16 + 1 * (j 1).val = win1_3.index t (1 : Fin 2) * 16 + 1 * (j 1).val; omega
  unfold layer
  simp only [ha, hw, hb]

/-- An index of the output array lies in point `t`'s block iff each coordinate lies in the block's range. -/
theorem mem_block (t : Fin cfg1.N) (i : S100000x16.Idx) :
    i ∈ ((cfg1.win 3).blk t).view.set ↔ ∀ a : Fin 2, win1_3.index t a * S10000x16.size a ≤ (i a).val ∧ (i a).val < win1_3.index t a * S10000x16.size a + S10000x16.size a := by
  show i ∈ ((View.whole main_v55).slice (win1_3.rect t)).set ↔ _
  rw [View.set_slice_whole, Rect.mem_set_unit]
  exact Iff.rfl

/-- The blocks tile the array: row `r` lies in the block of the point whose block number is r / 10000. -/
theorem covered (i : S100000x16.Idx) :
    ∃ t : Fin cfg1.N, (cfg1.win 3).flush t = true ∧ i ∈ ((cfg1.win 3).blk t).view.set := by
  have hi0 : (i 0).val < 100000 := (i 0).isLt
  have hi1 : (i 1).val < 16 := (i 1).isLt
  obtain ⟨t, ht⟩ := block_onto ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_block]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 16 ≤ (i 1).val ∧ (i 1).val < win1_3.index t (1 : Fin 2) * 16 + 16; omega

/-- THE OUTPUT ARRAY after the region: the dense layer of the three arrays the region finds. -/
theorem final (c : Dev nD) :
    (dat1 V c).arrAt 3 cfg1.N = layer (V c main_v53) (V c main_arg2) (V c main_v54) :=
  (dat1 V c).arrAt_eq_of_cover 3 _ (fun t _ => flushed_eq V c t) covered

end Cert.KernelIdeal.Dense1

end
-- ==== Proof.Dense2.lean ====
/-
  Region 2 (a dense layer on blocks of 10000 rows): its output array after the run, as one function of the arrays
  the region finds.  At each grid point the body multiplies a 10000 × 16 block of rows by the whole 16 × 2 weight
  matrix (into a zero accumulator), adds the 1 × 2 bias row to every row; the ten blocks tile the
  100000 rows.  So entry (r, c) of the output array is Σ_k a(r, k) · w(k, c) + b(0, c).
-/
import proofs.«103736_j14559939134162_2_alg».proof.Proof.Gen.KernelIdeal.Frame
import proofs.«103736_j14559939134162_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Dense2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- The dense layer on whole arrays, entry by entry. -/
def layer (a : S100000x16.Idx → EReal) (w : S16x2.Idx → EReal) (b : S1x2.Idx → EReal) : S100000x2.Idx → EReal :=
  fun i => (∑ k : Fin 16, a (ix2 (i 0) k) * w (ix2 k (i 1))) + b (ix2 (0 : Fin 1) (i 1))

/-- The printed dimension numbers of the block product are the plain ones. -/
theorem dims_plain : dot_S10000x16_S16x2_S10000x2_1_0_0_1_n_n = DotDims.plain 10000 16 2 := rfl

/-- The body's stored value at entry (p, q) of the block: row p of the input block times column q of the weights,
    plus the bias entry of that column. -/
theorem payload_at (x0 : Vec Ideal S10000x16 .f32) (x1 : Vec Ideal S16x2 .f32) (x2 : Vec Ideal S1x2 .f32) (p : Fin 10000) (q : Fin 2) :
    k2_pay1 x0 x1 x2 (ix2 p q) = (∑ k : Fin 16, x0 (ix2 p k) * x1 (ix2 k q)) + x2 (ix2 (0 : Fin 1) q) := by
  unfold k2_pay1
  simp only [shapeCast_self]
  rw [dims_plain]
  show (FloatOps.matmul (F := Ideal) (DotDims.plain 10000 16 2) (some .fp32) x0 x1 (constant S10000x2 .f32 0x00000000#32) (ix2 p q) : EReal)
      + broadcastTo S10000x2 x2 broadcasts_S1x2_S10000x2 (ix2 p q) = _
  rw [Cert.LibPlainDot.matmul_plain_zero_apply, broadcastTo_1b_ab_apply] <;> rfl

/-- The same at an index `y` of the block, by its coordinates. -/
theorem payload_apply (x0 : Vec Ideal S10000x16 .f32) (x1 : Vec Ideal S16x2 .f32) (x2 : Vec Ideal S1x2 .f32) (y : S10000x2.Idx) :
    k2_pay1 x0 x1 x2 y = (∑ k : Fin 16, x0 (ix2 (y 0) k) * x1 (ix2 k (y 1))) + x2 (ix2 (0 : Fin 1) (y 1)) := by
  exact (congrArg (k2_pay1 x0 x1 x2) (eq_ix2 y)).trans (payload_at x0 x1 x2 (y 0) (y 1))

/-- The windows' block numbers at every grid point: the input rows and the output rows move together, the weights and
    the bias are one block, and the output's row-block number is at most 9. -/
theorem same_block : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) ≤ 9 ∧ win2_3.index t (1 : Fin 2) = 0 :=
  (by decide +kernel : ∀ t : Fin grid2.N, _)

/-- Every block of rows is some grid point's. -/
theorem block_onto : ∀ q : Fin 10, ∃ t : Fin cfg2.N, win2_3.index t = ![q.val, 0] :=
  (by decide +kernel : ∀ q : Fin 10, ∃ t : Fin grid2.N, win2_3.index t = ![q.val, 0])

/-- What grid point `t` writes back is block `t` of the dense layer of the arrays the region finds. -/
theorem flushed_eq (c : Dev nD) (t : Fin cfg2.N) :
    (dat2 V c).flushed 3 t
      = ((cfg2.win 3).blk t).view.read (Elt Ideal) (layer (V c main_v55) (V c main_arg4) (V c main_v56)) := by
  show (cfg2.win 3).cut (grid2.coords t) ((dat2 V c).after 3 t) = _
  rw [after2_3]
  unfold out2_3
  rw [View.canon_unit_zero zero_off]
  simp only [View.ld_unit_zero (S := S10000x16) zero_off, View.ld_unit_zero (S := S16x2) zero_off, View.ld_unit_zero (S := S1x2) zero_off]
  obtain ⟨e0, e1, e2, e3, e4, e5, -, e7⟩ := same_block t
  funext j
  show k2_pay1 (iblk2 V c 0 t) (iblk2 V c 1 t) (iblk2 V c 2 t) j
    = layer (V c main_v55) (V c main_arg4) (V c main_v56) (((cfg2.win 3).blk t).view.emb j)
  refine (payload_apply (iblk2 V c 0 t) (iblk2 V c 1 t) (iblk2 V c 2 t) j).trans ?_
  have hj0 : (j 0).val < 10000 := (j 0).isLt
  have hj1 : (j 1).val < 2 := (j 1).isLt
  have ha : ∀ k : Fin 16, iblk2 V c 0 t (ix2 (j 0) k)
      = V c main_v55 (ix2 ((((cfg2.win 3).blk t).view.emb j) 0) k) := fun k => by
    show V c main_v55 (((cfg2.win 0).blk t).view.emb (ix2 (j 0) k)) = _
    refine congrArg (V c main_v55) ?_
    funext a; apply Fin.ext
    match a with
    | ⟨0, _⟩ => show win2_0.index t (0 : Fin 2) * 10000 + 1 * (j 0).val = win2_3.index t (0 : Fin 2) * 10000 + 1 * (j 0).val; omega
    | ⟨1, _⟩ => show win2_0.index t (1 : Fin 2) * 16 + 1 * k.val = k.val; omega
  have hw : ∀ k : Fin 16, iblk2 V c 1 t (ix2 k (j 1))
      = V c main_arg4 (ix2 k ((((cfg2.win 3).blk t).view.emb j) 1)) := fun k => by
    show V c main_arg4 (((cfg2.win 1).blk t).view.emb (ix2 k (j 1))) = _
    refine congrArg (V c main_arg4) ?_
    funext a; apply Fin.ext
    match a with
    | ⟨0, _⟩ => show win2_1.index t (0 : Fin 2) * 16 + 1 * k.val = k.val; omega
    | ⟨1, _⟩ => show win2_1.index t (1 : Fin 2) * 2 + 1 * (j 1).val = win2_3.index t (1 : Fin 2) * 2 + 1 * (j 1).val; omega
  have hb : iblk2 V c 2 t (ix2 (0 : Fin 1) (j 1))
      = V c main_v56 (ix2 (0 : Fin 1) ((((cfg2.win 3).blk t).view.emb j) 1)) := by
    show V c main_v56 (((cfg2.win 2).blk t).view.emb (ix2 (0 : Fin 1) (j 1))) = _
    refine congrArg (V c main_v56) ?_
    funext a; apply Fin.ext
    match a with
    | ⟨0, _⟩ => show win2_2.index t (0 : Fin 2) * 1 + 1 * 0 = 0; omega
    | ⟨1, _⟩ => show win2_2.index t (1 : Fin 2) * 2 + 1 * (j 1).val = win2_3.index t (1 : Fin 2) * 2 + 1 * (j 1).val; omega
  unfold layer
  simp only [ha, hw, hb]

/-- An index of the output array lies in point `t`'s block iff each coordinate lies in the block's range. -/
theorem mem_block (t : Fin cfg2.N) (i : S100000x2.Idx) :
    i ∈ ((cfg2.win 3).blk t).view.set ↔ ∀ a : Fin 2, win2_3.index t a * S10000x2.size a ≤ (i a).val ∧ (i a).val < win2_3.index t a * S10000x2.size a + S10000x2.size a := by
  show i ∈ ((View.whole main_v57).slice (win2_3.rect t)).set ↔ _
  rw [View.set_slice_whole, Rect.mem_set_unit]
  exact Iff.rfl

/-- The blocks tile the array: row `r` lies in the block of the point whose block number is r / 10000. -/
theorem covered (i : S100000x2.Idx) :
    ∃ t : Fin cfg2.N, (cfg2.win 3).flush t = true ∧ i ∈ ((cfg2.win 3).blk t).view.set := by
  have hi0 : (i 0).val < 100000 := (i 0).isLt
  have hi1 : (i 1).val < 2 := (i 1).isLt
  obtain ⟨t, ht⟩ := block_onto ⟨(i 0).val / 10000, by omega⟩
  have q0 : win2_3.index t (0 : Fin 2) = (i 0).val / 10000 := congrFun ht 0
  have q1 : win2_3.index t (1 : Fin 2) = 0 := congrFun ht 1
  refine ⟨t, flush2_3 t, ?_⟩
  rw [mem_block]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 2 ≤ (i 1).val ∧ (i 1).val < win2_3.index t (1 : Fin 2) * 2 + 2; omega

/-- THE OUTPUT ARRAY after the region: the dense layer of the three arrays the region finds. -/
theorem final (c : Dev nD) :
    (dat2 V c).arrAt 3 cfg2.N = layer (V c main_v55) (V c main_arg4) (V c main_v56) :=
  (dat2 V c).arrAt_eq_of_cover 3 _ (fun t _ => flushed_eq V c t) covered

end Cert.KernelIdeal.Dense2

end
-- ==== Proof.Softmax4.lean ====
/-
  Region 4 (bias and row-wise log-softmax on blocks of 10000 rows of 2 columns): its output array after the run, as
  one function of the arrays the region finds.  The body's stored value at entry (p, c) of a block depends only on
  row p of the input block and on the bias row: it is a fixed function `rowfun` of the row  c' ↦ x(p, c') + b(0, c'),
  read at c  (this module takes that fact about the body as a hypothesis, `hpay`; which function `rowfun` is does not
  matter here).  The ten blocks tile the 100000 rows, so entry (r, c) of the output array is `rowfun` of the row
  c' ↦ a(r, c') + b(0, c') of the input array, read at c.
-/
import proofs.«103736_j14559939134162_2_alg».proof.Proof.Gen.KernelIdeal.Frame
import Idealize.ShloMosaic.Lib.Pipeline.Value
import Idealize.ShloMosaic.Lib.ValueIdx

set_option maxRecDepth 16384

noncomputable section

namespace Cert.KernelIdeal.Softmax4

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))
variable (rowfun : (Fin 2 → EReal) → Fin 2 → EReal)

theorem zero_off : (![0, 0] : Fin 2 → Nat) = fun _ => 0 := funext fun a => by fin_cases a <;> rfl

/-- The row function applied to every row of  a + (the bias row repeated down the rows). -/
def layer (a : S100000x2.Idx → EReal) (b : S1x2.Idx → EReal) : S100000x2.Idx → EReal :=
  fun i => rowfun (fun c' => a (ix2 (i 0) c') + b (ix2 (0 : Fin 1) c')) (i 1)

/-- The windows' block numbers at every grid point: input rows and output rows move together, the bias is one block,
    and the output's row-block number is at most 9. -/
theorem same_block : ∀ t : Fin cfg4.N,
    win4_0.index t (0 : Fin 2) = win4_2.index t (0 : Fin 2) ∧ win4_0.index t (1 : Fin 2) = 0
    ∧ win4_1.index t (0 : Fin 2) = 0 ∧ win4_1.index t (1 : Fin 2) = 0
    ∧ win4_2.index t (0 : Fin 2) ≤ 9 ∧ win4_2.index t (1 : Fin 2) = 0 :=
  (by decide +kernel : ∀ t : Fin grid4.N, _)

/-- Every block of rows is some grid point's. -/
theorem block_onto : ∀ q : Fin 10, ∃ t : Fin cfg4.N, win4_2.index t = ![q.val, 0] :=
  (by decide +kernel : ∀ q : Fin 10, ∃ t : Fin grid4.N, win4_2.index t = ![q.val, 0])

variable (hpay : ∀ (x0 : Vec Ideal S10000x2 .f32) (x1 : Vec Ideal S1x2 .f32) (y : S10000x2.Idx),
    k4_pay1 x0 x1 y = rowfun (fun c' => x0 (ix2 (y 0) c') + x1 (ix2 (0 : Fin 1) c')) (y 1))

include hpay in
/-- What grid point `t` writes back is block `t` of the row function applied to the rows of the arrays the region finds. -/
theorem flushed_eq (c : Dev nD) (t : Fin cfg4.N) :
    (dat4 V c).flushed 2 t
      = ((cfg4.win 2).blk t).view.read (Elt Ideal) (layer rowfun (V c main_v82) (V c main_v83)) := by
  show (cfg4.win 2).cut (grid4.coords t) ((dat4 V c).after 2 t) = _
  rw [after4_2]
  unfold out4_2
  rw [View.canon_unit_zero zero_off]
  simp only [View.ld_unit_zero (S := S10000x2) zero_off, View.ld_unit_zero (S := S1x2) zero_off]
  obtain ⟨e0, e1, e2, e3, -, e5⟩ := same_block t
  funext j
  show k4_pay1 (iblk4 V c 0 t) (iblk4 V c 1 t) j
    = layer rowfun (V c main_v82) (V c main_v83) (((cfg4.win 2).blk t).view.emb j)
  refine (hpay (iblk4 V c 0 t) (iblk4 V c 1 t) j).trans ?_
  have hj0 : (j 0).val < 10000 := (j 0).isLt
  have hj1 : (j 1).val < 2 := (j 1).isLt
  have ha : ∀ c' : Fin 2, iblk4 V c 0 t (ix2 (j 0) c')
      = V c main_v82 (ix2 ((((cfg4.win 2).blk t).view.emb j) 0) c') := fun c' => by
    show V c main_v82 (((cfg4.win 0).blk t).view.emb (ix2 (j 0) c')) = _
    refine congrArg (V c main_v82) ?_
    funext a; apply Fin.ext
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 2 + 1 * c'.val = c'.val; omega
  have hb : ∀ c' : Fin 2, iblk4 V c 1 t (ix2 (0 : Fin 1) c')
      = V c main_v83 (ix2 (0 : Fin 1) c') := fun c' => by
    show V c main_v83 (((cfg4.win 1).blk t).view.emb (ix2 (0 : Fin 1) c')) = _
    refine congrArg (V c main_v83) ?_
    funext a; apply Fin.ext
    match a with
    | ⟨0, _⟩ => show win4_1.index t (0 : Fin 2) * 1 + 1 * 0 = 0; omega
    | ⟨1, _⟩ => show win4_1.index t (1 : Fin 2) * 2 + 1 * c'.val = c'.val; omega
  have hc : (j 1).val = ((((cfg4.win 2).blk t).view.emb j) 1).val := by
    show (j 1).val = win4_2.index t (1 : Fin 2) * 2 + 1 * (j 1).val; omega
  unfold layer
  simp only [ha, hb]
  exact congrArg _ (Fin.ext hc)

/-- An index of the output array lies in point `t`'s block iff each coordinate lies in the block's range. -/
theorem mem_block (t : Fin cfg4.N) (i : S100000x2.Idx) :
    i ∈ ((cfg4.win 2).blk t).view.set ↔ ∀ a : Fin 2, win4_2.index t a * S10000x2.size a ≤ (i a).val ∧ (i a).val < win4_2.index t a * S10000x2.size a + S10000x2.size a := by
  show i ∈ ((View.whole main_v84).slice (win4_2.rect t)).set ↔ _
  rw [View.set_slice_whole, Rect.mem_set_unit]
  exact Iff.rfl

/-- The blocks tile the array: row `r` lies in the block of the point whose block number is r / 10000. -/
theorem covered (i : S100000x2.Idx) :
    ∃ t : Fin cfg4.N, (cfg4.win 2).flush t = true ∧ i ∈ ((cfg4.win 2).blk t).view.set := by
  have hi0 : (i 0).val < 100000 := (i 0).isLt
  have hi1 : (i 1).val < 2 := (i 1).isLt
  obtain ⟨t, ht⟩ := block_onto ⟨(i 0).val / 10000, by omega⟩
  have q0 : win4_2.index t (0 : Fin 2) = (i 0).val / 10000 := congrFun ht 0
  have q1 : win4_2.index t (1 : Fin 2) = 0 := congrFun ht 1
  refine ⟨t, flush4_2 t, ?_⟩
  rw [mem_block]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 2 ≤ (i 1).val ∧ (i 1).val < win4_2.index t (1 : Fin 2) * 2 + 2; omega

include hpay in
/-- THE OUTPUT ARRAY after the region: the row function applied to the rows of (input array + bias row). -/
theorem final (c : Dev nD) :
    (dat4 V c).arrAt 2 cfg4.N = layer rowfun (V c main_v82) (V c main_v83) :=
  (dat4 V c).arrAt_eq_of_cover 2 _ (fun t _ => flushed_eq V rowfun hpay c t) covered

end Cert.KernelIdeal.Softmax4

end
-- ==== Proof.KChain.lean ====
/-
  The idealized kernel's buffers at the segment boundaries, as pure functions of the argument arrays.

  The host operations before and between the five kernel regions compute, from the edge list a1 = [2, 4800000]:
  the message sources and targets with the self loops appended (`src`, `dst`, length 4900000); the degree of every
  node (a scatter-add of ones at `dst`) and its guarded reciprocal square root `dinv`; `dinv` gathered at the sources
  and at the targets (`ds`, `dd`); row numbers normalised for a gather (`nidx`: a negative number has the row count
  added).  A flat array of per-edge numbers is padded with zeros to a whole number of 4800 × 128 tiles and reshaped to
  rows of 128 lanes (`tile1`, `tile2`) for the scaling kernel, and its result is flattened, cut back to the true
  length and reshaped (`untile1`, `untile2`).
-/
import proofs.«103736_j14559939134162_2_alg».proof.Proof.Gen.KernelIdeal.Frame
import proofs.«103736_j14559939134162_2_alg».proof.Proof.Scale0
import proofs.«103736_j14559939134162_2_alg».proof.Proof.Scale3
import proofs.«103736_j14559939134162_2_alg».proof.Proof.Dense1
import proofs.«103736_j14559939134162_2_alg».proof.Proof.Dense2
import proofs.«103736_j14559939134162_2_alg».proof.Proof.Softmax4
import Idealize.ShloMosaic.Lib.StableHlo.Run
import Idealize.ShloMosaic.PureOps.Ideal
import Idealize.ShloMosaic.PureOps.Ideal.Laws

set_option maxRecDepth 65536

noncomputable section

namespace Cert.KernelIdeal.Chain

open Cert.KernelIdeal Cert.KernelIdeal.Gen Idealize.ShloMosaic Idealize.ShloMosaic.TcCoe Idealize.SL.Sem
open Idealize.ShloMosaic.StableHlo

/-! ## The pure functions -/

/-- Message sources: row 0 of the edge list, then the node numbers (the self loops). -/
def src (a1 : IVec S2x4800000 32) : IVec S4900000 32 :=
  concatenate S4900000 0 [⟨S4800000, shapeCast S4800000 (extractStridedSlice S1x4800000 ![0, 0] a1 slices_S2x4800000_S1x4800000_0_0) shapeCasts_S1x4800000_S4800000⟩, ⟨S100000, iotaInDim S100000 32 0⟩] concatenates_S4800000_S100000_S4900000_d0

/-- Message targets: row 1 of the edge list, then the node numbers. -/
def dst (a1 : IVec S2x4800000 32) : IVec S4900000 32 :=
  concatenate S4900000 0 [⟨S4800000, shapeCast S4800000 (extractStridedSlice S1x4800000 ![1, 0] a1 slices_S2x4800000_S1x4800000_1_0) shapeCasts_S1x4800000_S4800000⟩, ⟨S100000, iotaInDim S100000 32 0⟩] concatenates_S4800000_S100000_S4900000_d0

/-- Row numbers for a gather: a negative number has the row count 100000 added; as a column of index vectors. -/
def nidx (v : IVec S4900000 32) : IVec S4900000x1 32 :=
  broadcastInDim S4900000x1 ![0] bcast_S4900000_S4900000x1_0
    (select (cmpi .slt v (broadcastInDim S4900000 ![] bcast_S_S4900000 (constantI S_ 32 0#32)))
      (addi v (broadcastInDim S4900000 ![] bcast_S_S4900000 (constantI S_ 32 100000#32))) v)

/-- Row numbers for a scatter, as a column of index vectors. -/
def sidx (v : IVec S4900000 32) : IVec S4900000x1 32 :=
  broadcastInDim S4900000x1 ![0] bcast_S4900000_S4900000x1_0 v

/-- Node degrees: ones added at the targets. -/
def deg (a1 : IVec S2x4800000 32) : FVec Ideal S100000 .f32 :=
  Host.scatterAdd scatter_S100000_S4900000x1_S4900000_n_0_0_1
    (broadcastInDim S100000 ![] bcast_S_S100000 (constant (F := Ideal) S_ .f32 0x00000000#32)) (sidx (dst a1))
    (broadcastInDim S4900000 ![] bcast_S_S4900000 (constant (F := Ideal) S_ .f32 0x3F800000#32))

/-- deg^(-1/2) where the degree is positive, zero elsewhere. -/
def dinv (a1 : IVec S2x4800000 32) : FVec Ideal S100000 .f32 :=
  select (cmpf (F := Ideal) .ogt (deg a1) (broadcastInDim S100000 ![] bcast_S_S100000 (constant (F := Ideal) S_ .f32 0x00000000#32)))
    (Host.rsqrt (deg a1)) (broadcastInDim S100000 ![] bcast_S_S100000 (constant (F := Ideal) S_ .f32 0x00000000#32))

/-- `dinv` at the message sources and at the message targets. -/
def ds (a1 : IVec S2x4800000 32) : FVec Ideal S4900000 .f32 :=
  Host.gather gather_S100000_S4900000x1_S4900000_n_0_n_n_0_1_1 (dinv a1) (nidx (src a1))
def dd (a1 : IVec S2x4800000 32) : FVec Ideal S4900000 .f32 :=
  Host.gather gather_S100000_S4900000x1_S4900000_n_0_n_n_0_1_1 (dinv a1) (nidx (dst a1))

/-- The padding value: the integer zero converted. -/
def padv : FVec Ideal S_ .f32 := sitofp .f32 (constantI S_ 32 0#32)

/-- A flat array of 4900000 numbers, zero-padded and laid out as 38400 rows of 128 lanes. -/
def tile1 (g : FVec Ideal S4900000 .f32) : FVec Ideal S38400x128 .f32 :=
  shapeCast S38400x128 (pad S4915200 ![0] ![15200] ![0] g padv pads_S4900000_S4915200_0152000 h_S_) shapeCasts_S4915200_S38400x128
/-- … and back: flattened, cut to the true length, as a column. -/
def untile1 (r : FVec Ideal S38400x128 .f32) : FVec Ideal S4900000x1 .f32 :=
  shapeCast S4900000x1 (extractStridedSlice S4900000 ![0] (shapeCast S4915200 r shapeCasts_S38400x128_S4915200) slices_S4915200_S4900000_0) shapeCasts_S4900000_S4900000x1

/-- A flat array of 9800000 numbers, zero-padded and laid out as 76800 rows of 128 lanes. -/
def tile2 (g : FVec Ideal S9800000 .f32) : FVec Ideal S76800x128 .f32 :=
  shapeCast S76800x128 (pad S9830400 ![0] ![30400] ![0] g padv pads_S9800000_S9830400_0304000 h_S_) shapeCasts_S9830400_S76800x128
/-- … and back: flattened, cut to the true length, as 4900000 rows of 2. -/
def untile2 (r : FVec Ideal S76800x128 .f32) : FVec Ideal S4900000x2 .f32 :=
  shapeCast S4900000x2 (extractStridedSlice S9800000 ![0] (shapeCast S9830400 r shapeCasts_S76800x128_S9830400) slices_S9830400_S9800000_0) shapeCasts_S9800000_S4900000x2

variable (m : (ℓ : Loc nD τ sig) → Buf (Elt Ideal) ℓ) (ρ : Dev nD → PrngReg)

/-- The argument arrays as launched, on core `c`. -/
abbrev A0 (c : Dev nD) : FVec Ideal S100000x1 .f32 := m ((c : Thread nD τ).loc main_arg0)
abbrev A1 (c : Dev nD) : IVec S2x4800000 32 := m ((c : Thread nD τ).loc main_arg1)
abbrev A2 (c : Dev nD) : FVec Ideal S1x16 .f32 := m ((c : Thread nD τ).loc main_arg2)
abbrev A3 (c : Dev nD) : FVec Ideal S16 .f32 := m ((c : Thread nD τ).loc main_arg3)
abbrev A4 (c : Dev nD) : FVec Ideal S16x2 .f32 := m ((c : Thread nD τ).loc main_arg4)
abbrev A5 (c : Dev nD) : FVec Ideal S2 .f32 := m ((c : Thread nD τ).loc main_arg5)

/-! ## After the first stretch (the edge list unpacked, the degrees) -/

set_option maxHeartbeats 8000000 in
theorem W1_v3 (c : Dev nD) : W1 m ρ c (Proc.devRef .tc main_v3) = src (A1 m c) := by after_results_simp <;> rfl
set_option maxHeartbeats 8000000 in
theorem W1_v6 (c : Dev nD) : W1 m ρ c (Proc.devRef .tc main_v6) = dst (A1 m c) := by after_results_simp <;> rfl
set_option maxHeartbeats 8000000 in
theorem W1_v12 (c : Dev nD) : W1 m ρ c (Proc.devRef .tc main_v12)
    = cmpf (F := Ideal) .ogt (deg (A1 m c)) (broadcastInDim S100000 ![] bcast_S_S100000 (constant (F := Ideal) S_ .f32 0x00000000#32)) := by after_results_simp <;> rfl
set_option maxHeartbeats 8000000 in
theorem W1_v13 (c : Dev nD) : W1 m ρ c (Proc.devRef .tc main_v13) = Host.rsqrt (deg (A1 m c)) := by after_results_simp <;> rfl
set_option maxHeartbeats 8000000 in
theorem W1_cst2 (c : Dev nD) : W1 m ρ c (Proc.devRef .tc main_cst_2) = constant (F := Ideal) S_ .f32 0x00000000#32 := by after_results_simp <;> rfl
set_option maxHeartbeats 8000000 in
theorem W1_arg0 (c : Dev nD) : W1 m ρ c (Proc.devRef .tc main_arg0) = A0 m c := by after_results_simp <;> rfl

/-! ## After the guarded reciprocal square root -/

/-- The select of the three operands (the scalar else-value broadcast). -/
theorem g1_v14 (X : Valuation τ sig (Elt Ideal)) :
    StableHlo.after hostOps0_1 X (Proc.devRef .tc main_v14) = select (X (Proc.devRef .tc main_v12)) (X (Proc.devRef .tc main_v13)) (broadcastInDim S100000 ![] bcast_S_S100000 (X (Proc.devRef .tc main_cst_2))) := by
  after_results_simp <;> rfl

/-- These stretches do not write `main_v3`. -/
theorem g1_v3 (X : Valuation τ sig (Elt Ideal)) :
    StableHlo.after hostOps0_1 X (Proc.devRef .tc main_v3) = X (Proc.devRef .tc main_v3) := by
  after_results_simp <;> rfl
/-- These stretches do not write `main_v6`. -/
theorem g1_v6 (X : Valuation τ sig (Elt Ideal)) :
    StableHlo.after hostOps0_1 X (Proc.devRef .tc main_v6) = X (Proc.devRef .tc main_v6) := by
  after_results_simp <;> rfl
/-- These stretches do not write `main_arg0`. -/
theorem g1_arg0 (X : Valuation τ sig (Elt Ideal)) :
    StableHlo.after hostOps0_1 X (Proc.devRef .tc main_arg0) = X (Proc.devRef .tc main_arg0) := by
  after_results_simp <;> rfl

theorem W2_v14 (c : Dev nD) : W2 m ρ c (Proc.devRef .tc main_v14) = dinv (A1 m c) :=
  (g1_v14 (W1 m ρ c)).trans (by rw [W1_v12, W1_v13, W1_cst2] <;> rfl)
theorem W2_v3 (c : Dev nD) : W2 m ρ c (Proc.devRef .tc main_v3) = src (A1 m c) := (g1_v3 (W1 m ρ c)).trans (W1_v3 m ρ c)
theorem W2_v6 (c : Dev nD) : W2 m ρ c (Proc.devRef .tc main_v6) = dst (A1 m c) := (g1_v6 (W1 m ρ c)).trans (W1_v6 m ρ c)
theorem W2_arg0 (c : Dev nD) : W2 m ρ c (Proc.devRef .tc main_arg0) = A0 m c := (g1_arg0 (W1 m ρ c)).trans (W1_arg0 m ρ c)

/-! ## After the three gathers -/

set_option maxHeartbeats 8000000 in
/-- The table gathered at the normalised sources, as a column. -/
theorem g2_v22 (X : Valuation τ sig (Elt Ideal)) :
    StableHlo.after hostOps0_2 X (Proc.devRef .tc main_v22) = shapeCast S4900000x1 (Host.gather gather_S100000_S4900000x1_S4900000_n_0_n_n_0_1_1 (X (Proc.devRef .tc main_v14)) (nidx (X (Proc.devRef .tc main_v3)))) shapeCasts_S4900000_S4900000x1 := by
  after_results_simp <;> rfl

set_option maxHeartbeats 8000000 in
/-- The table gathered at the normalised targets, as a column. -/
theorem g2_v30 (X : Valuation τ sig (Elt Ideal)) :
    StableHlo.after hostOps0_2 X (Proc.devRef .tc main_v30) = shapeCast S4900000x1 (Host.gather gather_S100000_S4900000x1_S4900000_n_0_n_n_0_1_1 (X (Proc.devRef .tc main_v14)) (nidx (X (Proc.devRef .tc main_v6)))) shapeCasts_S4900000_S4900000x1 := by
  after_results_simp <;> rfl

set_option maxHeartbeats 8000000 in
/-- The node features gathered at the normalised sources, flattened. -/
theorem g2_v38 (X : Valuation τ sig (Elt Ideal)) :
    StableHlo.after hostOps0_2 X (Proc.devRef .tc main_v38) = shapeCast S4900000 (Host.gather gather_S100000x1_S4900000x1_S4900000x1_1_0_n_n_0_1_11 (X (Proc.devRef .tc main_arg0)) (nidx (X (Proc.devRef .tc main_v3)))) shapeCasts_S4900000x1_S4900000 := by
  after_results_simp <;> rfl

set_option maxHeartbeats 8000000 in
/-- The integer zero. -/
theorem g2_c8 (X : Valuation τ sig (Elt Ideal)) :
    StableHlo.after hostOps0_2 X (Proc.devRef .tc main_c_8) = constantI S_ 32 0#32 := by
  after_results_simp <;> rfl

set_option maxHeartbeats 8000000 in
/-- These stretches do not write `main_v3`. -/
theorem g2_v3 (X : Valuation τ sig (Elt Ideal)) :
    StableHlo.after hostOps0_2 X (Proc.devRef .tc main_v3) = X (Proc.devRef .tc main_v3) := by
  after_results_simp <;> rfl
set_option maxHeartbeats 8000000 in
/-- These stretches do not write `main_v6`. -/
theorem g2_v6 (X : Valuation τ sig (Elt Ideal)) :
    StableHlo.after hostOps0_2 X (Proc.devRef .tc main_v6) = X (Proc.devRef .tc main_v6) := by
  after_results_simp <;> rfl

theorem W3_v22 (c : Dev nD) : W3 m ρ c (Proc.devRef .tc main_v22) = shapeCast S4900000x1 (ds (A1 m c)) shapeCasts_S4900000_S4900000x1 :=
  (g2_v22 (W2 m ρ c)).trans (by rw [W2_v14, W2_v3] <;> rfl)
theorem W3_v30 (c : Dev nD) : W3 m ρ c (Proc.devRef .tc main_v30) = shapeCast S4900000x1 (dd (A1 m c)) shapeCasts_S4900000_S4900000x1 :=
  (g2_v30 (W2 m ρ c)).trans (by rw [W2_v14, W2_v6] <;> rfl)
/-- The node features at the message sources, one per message. -/
def gx (a0 : FVec Ideal S100000x1 .f32) (a1 : IVec S2x4800000 32) : FVec Ideal S4900000x1 .f32 :=
  Host.gather gather_S100000x1_S4900000x1_S4900000x1_1_0_n_n_0_1_11 a0 (nidx (src a1))
theorem W3_v38 (c : Dev nD) : W3 m ρ c (Proc.devRef .tc main_v38) = shapeCast S4900000 (gx (A0 m c) (A1 m c)) shapeCasts_S4900000x1_S4900000 :=
  (g2_v38 (W2 m ρ c)).trans (by rw [W2_arg0, W2_v3] <;> rfl)
theorem W3_c8 (c : Dev nD) : W3 m ρ c (Proc.devRef .tc main_c_8) = constantI S_ 32 0#32 := g2_c8 (W2 m ρ c)
theorem W3_v3 (c : Dev nD) : W3 m ρ c (Proc.devRef .tc main_v3) = src (A1 m c) := (g2_v3 (W2 m ρ c)).trans (W2_v3 m ρ c)
theorem W3_v6 (c : Dev nD) : W3 m ρ c (Proc.devRef .tc main_v6) = dst (A1 m c) := (g2_v6 (W2 m ρ c)).trans (W2_v6 m ρ c)

/-! ## Region 0's entry: the three tiled operands -/

set_option maxHeartbeats 8000000 in
/-- The flat features padded and tiled. -/
theorem g3_v44 (X : Valuation τ sig (Elt Ideal)) :
    StableHlo.after hostOps0_8 (StableHlo.after hostOps0_7 (StableHlo.after hostOps0_6 (StableHlo.after hostOps0_5 (StableHlo.after hostOps0_4 (StableHlo.after hostOps0_3 X))))) (Proc.devRef .tc main_v44) = shapeCast S38400x128 (pad S4915200 ![0] ![15200] ![0] (X (Proc.devRef .tc main_v38) : FVec Ideal S4900000 .f32) (sitofp (F := Ideal) .f32 (X (Proc.devRef .tc main_c_8) : IVec S_ 32) : FVec Ideal S_ .f32) pads_S4900000_S4915200_0152000 h_S_) shapeCasts_S4915200_S38400x128 := by
  after_results_simp <;> rfl

set_option maxHeartbeats 8000000 in
/-- The source factors flattened, padded and tiled. -/
theorem g3_v45 (X : Valuation τ sig (Elt Ideal)) :
    StableHlo.after hostOps0_8 (StableHlo.after hostOps0_7 (StableHlo.after hostOps0_6 (StableHlo.after hostOps0_5 (StableHlo.after hostOps0_4 (StableHlo.after hostOps0_3 X))))) (Proc.devRef .tc main_v45) = tile1 (shapeCast S4900000 (X (Proc.devRef .tc main_v22)) shapeCasts_S4900000x1_S4900000) := by
  after_results_simp <;> rfl

set_option maxHeartbeats 8000000 in
/-- The target factors flattened, padded and tiled. -/
theorem g3_v46 (X : Valuation τ sig (Elt Ideal)) :
    StableHlo.after hostOps0_8 (StableHlo.after hostOps0_7 (StableHlo.after hostOps0_6 (StableHlo.after hostOps0_5 (StableHlo.after hostOps0_4 (StableHlo.after hostOps0_3 X))))) (Proc.devRef .tc main_v46) = tile1 (shapeCast S4900000 (X (Proc.devRef .tc main_v30)) shapeCasts_S4900000x1_S4900000) := by
  after_results_simp <;> rfl

set_option maxHeartbeats 8000000 in
/-- These stretches do not write `main_v3`. -/
theorem g3_v3 (X : Valuation τ sig (Elt Ideal)) :
    StableHlo.after hostOps0_8 (StableHlo.after hostOps0_7 (StableHlo.after hostOps0_6 (StableHlo.after hostOps0_5 (StableHlo.after hostOps0_4 (StableHlo.after hostOps0_3 X))))) (Proc.devRef .tc main_v3) = X (Proc.devRef .tc main_v3) := by
  after_results_simp <;> rfl
set_option maxHeartbeats 8000000 in
/-- These stretches do not write `main_v6`. -/
theorem g3_v6 (X : Valuation τ sig (Elt Ideal)) :
    StableHlo.after hostOps0_8 (StableHlo.after hostOps0_7 (StableHlo.after hostOps0_6 (StableHlo.after hostOps0_5 (StableHlo.after hostOps0_4 (StableHlo.after hostOps0_3 X))))) (Proc.devRef .tc main_v6) = X (Proc.devRef .tc main_v6) := by
  after_results_simp <;> rfl
set_option maxHeartbeats 8000000 in
/-- These stretches do not write `main_v22`. -/
theorem g3_v22 (X : Valuation τ sig (Elt Ideal)) :
    StableHlo.after hostOps0_8 (StableHlo.after hostOps0_7 (StableHlo.after hostOps0_6 (StableHlo.after hostOps0_5 (StableHlo.after hostOps0_4 (StableHlo.after hostOps0_3 X))))) (Proc.devRef .tc main_v22) = X (Proc.devRef .tc main_v22) := by
  after_results_simp <;> rfl
set_option maxHeartbeats 8000000 in
/-- These stretches do not write `main_v30`. -/
theorem g3_v30 (X : Valuation τ sig (Elt Ideal)) :
    StableHlo.after hostOps0_8 (StableHlo.after hostOps0_7 (StableHlo.after hostOps0_6 (StableHlo.after hostOps0_5 (StableHlo.after hostOps0_4 (StableHlo.after hostOps0_3 X))))) (Proc.devRef .tc main_v30) = X (Proc.devRef .tc main_v30) := by
  after_results_simp <;> rfl

theorem W9_v44 (c : Dev nD) : W9 m ρ c (Proc.devRef .tc main_v44) = tile1 (shapeCast S4900000 (gx (A0 m c) (A1 m c)) shapeCasts_S4900000x1_S4900000) :=
  (g3_v44 (W3 m ρ c)).trans (by rw [W3_v38, W3_c8] <;> rfl)
theorem W9_v45 (c : Dev nD) : W9 m ρ c (Proc.devRef .tc main_v45)
    = tile1 (shapeCast S4900000 (shapeCast S4900000x1 (ds (A1 m c)) shapeCasts_S4900000_S4900000x1) shapeCasts_S4900000x1_S4900000) :=
  (g3_v45 (W3 m ρ c)).trans (by rw [W3_v22])
theorem W9_v46 (c : Dev nD) : W9 m ρ c (Proc.devRef .tc main_v46)
    = tile1 (shapeCast S4900000 (shapeCast S4900000x1 (dd (A1 m c)) shapeCasts_S4900000_S4900000x1) shapeCasts_S4900000x1_S4900000) :=
  (g3_v46 (W3 m ρ c)).trans (by rw [W3_v30])
theorem W9_v3 (c : Dev nD) : W9 m ρ c (Proc.devRef .tc main_v3) = src (A1 m c) := (g3_v3 (W3 m ρ c)).trans (W3_v3 m ρ c)
theorem W9_v6 (c : Dev nD) : W9 m ρ c (Proc.devRef .tc main_v6) = dst (A1 m c) := (g3_v6 (W3 m ρ c)).trans (W3_v6 m ρ c)
theorem W9_v22 (c : Dev nD) : W9 m ρ c (Proc.devRef .tc main_v22) = shapeCast S4900000x1 (ds (A1 m c)) shapeCasts_S4900000_S4900000x1 :=
  (g3_v22 (W3 m ρ c)).trans (W3_v22 m ρ c)
theorem W9_v30 (c : Dev nD) : W9 m ρ c (Proc.devRef .tc main_v30) = shapeCast S4900000x1 (dd (A1 m c)) shapeCasts_S4900000_S4900000x1 :=
  (g3_v30 (W3 m ρ c)).trans (W3_v30 m ρ c)
set_option maxHeartbeats 8000000 in
theorem W9_arg2 (c : Dev nD) : W9 m ρ c (Proc.devRef .tc main_arg2) = A2 m c := by after_results_simp <;> rfl
set_option maxHeartbeats 8000000 in
theorem W9_arg3 (c : Dev nD) : W9 m ρ c (Proc.devRef .tc main_arg3) = A3 m c := by after_results_simp <;> rfl
set_option maxHeartbeats 8000000 in
theorem W9_arg4 (c : Dev nD) : W9 m ρ c (Proc.devRef .tc main_arg4) = A4 m c := by after_results_simp <;> rfl
set_option maxHeartbeats 8000000 in
theorem W9_arg5 (c : Dev nD) : W9 m ρ c (Proc.devRef .tc main_arg5) = A5 m c := by after_results_simp <;> rfl

/-! ## Region 0 (the first scaling) and the first aggregate -/

/-- The first layer's messages: (feature at the source · source factor) · target factor, one per message. -/
def msg1 (a0 : FVec Ideal S100000x1 .f32) (a1 : IVec S2x4800000 32) : FVec Ideal S4900000x1 .f32 :=
  untile1 (Scale0.prod3 (F := Ideal) (tile1 (shapeCast S4900000 (gx a0 a1) shapeCasts_S4900000x1_S4900000))
    (tile1 (shapeCast S4900000 (shapeCast S4900000x1 (ds a1) shapeCasts_S4900000_S4900000x1) shapeCasts_S4900000x1_S4900000))
    (tile1 (shapeCast S4900000 (shapeCast S4900000x1 (dd a1) shapeCasts_S4900000_S4900000x1) shapeCasts_S4900000x1_S4900000)))

theorem W10_v47 (c : Dev nD) : W10 m ρ c (Proc.devRef .tc main_v47)
    = Scale0.prod3 (F := Ideal) (W9 m ρ c (Proc.devRef .tc main_v44)) (W9 m ρ c (Proc.devRef .tc main_v45)) (W9 m ρ c (Proc.devRef .tc main_v46)) :=
  (W10_arr m ρ c 3).trans (Scale0.final (V9 m ρ) c)
theorem W10_v3 (c : Dev nD) : W10 m ρ c (Proc.devRef .tc main_v3) = src (A1 m c) := (W10_of_ne m ρ c main_v3 (by decide)).trans (W9_v3 m ρ c)
theorem W10_v6 (c : Dev nD) : W10 m ρ c (Proc.devRef .tc main_v6) = dst (A1 m c) := (W10_of_ne m ρ c main_v6 (by decide)).trans (W9_v6 m ρ c)
theorem W10_v22 (c : Dev nD) : W10 m ρ c (Proc.devRef .tc main_v22) = shapeCast S4900000x1 (ds (A1 m c)) shapeCasts_S4900000_S4900000x1 := (W10_of_ne m ρ c main_v22 (by decide)).trans (W9_v22 m ρ c)
theorem W10_v30 (c : Dev nD) : W10 m ρ c (Proc.devRef .tc main_v30) = shapeCast S4900000x1 (dd (A1 m c)) shapeCasts_S4900000_S4900000x1 := (W10_of_ne m ρ c main_v30 (by decide)).trans (W9_v30 m ρ c)
theorem W10_arg2 (c : Dev nD) : W10 m ρ c (Proc.devRef .tc main_arg2) = A2 m c := (W10_of_ne m ρ c main_arg2 (by decide)).trans (W9_arg2 m ρ c)
theorem W10_arg3 (c : Dev nD) : W10 m ρ c (Proc.devRef .tc main_arg3) = A3 m c := (W10_of_ne m ρ c main_arg3 (by decide)).trans (W9_arg3 m ρ c)
theorem W10_arg4 (c : Dev nD) : W10 m ρ c (Proc.devRef .tc main_arg4) = A4 m c := (W10_of_ne m ρ c main_arg4 (by decide)).trans (W9_arg4 m ρ c)
theorem W10_arg5 (c : Dev nD) : W10 m ρ c (Proc.devRef .tc main_arg5) = A5 m c := (W10_of_ne m ρ c main_arg5 (by decide)).trans (W9_arg5 m ρ c)

/-- The aggregated raw features: the messages added at their targets, into zeros. -/
def agg1 (a0 : FVec Ideal S100000x1 .f32) (a1 : IVec S2x4800000 32) : FVec Ideal S100000x1 .f32 :=
  Host.scatterAdd scatter_S100000x1_S4900000x1_S4900000x1_1_0_0_1
    (broadcastInDim S100000x1 ![] bcast_S_S100000x1 (constant (F := Ideal) S_ .f32 0x00000000#32)) (sidx (dst a1)) (msg1 a0 a1)

/-- The scaled messages untiled and added at the targets. -/
theorem g11_v53 (X : Valuation τ sig (Elt Ideal)) :
    StableHlo.after hostOps1 X (Proc.devRef .tc main_v53) = Host.scatterAdd scatter_S100000x1_S4900000x1_S4900000x1_1_0_0_1 (broadcastInDim S100000x1 ![] bcast_S_S100000x1 (constant (F := Ideal) S_ .f32 0x00000000#32)) (sidx (X (Proc.devRef .tc main_v6))) (untile1 (X (Proc.devRef .tc main_v47))) := by
  after_results_simp <;> rfl

/-- The first bias as a row. -/
theorem g11_v54 (X : Valuation τ sig (Elt Ideal)) :
    StableHlo.after hostOps1 X (Proc.devRef .tc main_v54) = shapeCast S1x16 (X (Proc.devRef .tc main_arg3) : FVec Ideal S16 .f32) shapeCasts_S16_S1x16 := by
  after_results_simp <;> rfl

/-- These stretches do not write `main_v3`. -/
theorem g11_v3 (X : Valuation τ sig (Elt Ideal)) :
    StableHlo.after hostOps1 X (Proc.devRef .tc main_v3) = X (Proc.devRef .tc main_v3) := by
  after_results_simp <;> rfl
/-- These stretches do not write `main_v6`. -/
theorem g11_v6 (X : Valuation τ sig (Elt Ideal)) :
    StableHlo.after hostOps1 X (Proc.devRef .tc main_v6) = X (Proc.devRef .tc main_v6) := by
  after_results_simp <;> rfl
/-- These stretches do not write `main_v22`. -/
theorem g11_v22 (X : Valuation τ sig (Elt Ideal)) :
    StableHlo.after hostOps1 X (Proc.devRef .tc main_v22) = X (Proc.devRef .tc main_v22) := by
  after_results_simp <;> rfl
/-- These stretches do not write `main_v30`. -/
theorem g11_v30 (X : Valuation τ sig (Elt Ideal)) :
    StableHlo.after hostOps1 X (Proc.devRef .tc main_v30) = X (Proc.devRef .tc main_v30) := by
  after_results_simp <;> rfl
/-- These stretches do not write `main_arg2`. -/
theorem g11_arg2 (X : Valuation τ sig (Elt Ideal)) :
    StableHlo.after hostOps1 X (Proc.devRef .tc main_arg2) = X (Proc.devRef .tc main_arg2) := by
  after_results_simp <;> rfl
/-- These stretches do not write `main_arg4`. -/
theorem g11_arg4 (X : Valuation τ sig (Elt Ideal)) :
    StableHlo.after hostOps1 X (Proc.devRef .tc main_arg4) = X (Proc.devRef .tc main_arg4) := by
  after_results_simp <;> rfl
/-- These stretches do not write `main_arg5`. -/
theorem g11_arg5 (X : Valuation τ sig (Elt Ideal)) :
    StableHlo.after hostOps1 X (Proc.devRef .tc main_arg5) = X (Proc.devRef .tc main_arg5) := by
  after_results_simp <;> rfl

theorem W11_v53 (c : Dev nD) : W11 m ρ c (Proc.devRef .tc main_v53) = agg1 (A0 m c) (A1 m c) :=
  (g11_v53 (W10 m ρ c)).trans (by rw [W10_v6, W10_v47, W9_v44, W9_v45, W9_v46] <;> rfl)
theorem W11_v54 (c : Dev nD) : W11 m ρ c (Proc.devRef .tc main_v54) = shapeCast S1x16 (A3 m c) shapeCasts_S16_S1x16 :=
  (g11_v54 (W10 m ρ c)).trans (by rw [W10_arg3])
theorem W11_v3 (c : Dev nD) : W11 m ρ c (Proc.devRef .tc main_v3) = src (A1 m c) := (g11_v3 (W10 m ρ c)).trans (W10_v3 m ρ c)
theorem W11_v6 (c : Dev nD) : W11 m ρ c (Proc.devRef .tc main_v6) = dst (A1 m c) := (g11_v6 (W10 m ρ c)).trans (W10_v6 m ρ c)
theorem W11_v22 (c : Dev nD) : W11 m ρ c (Proc.devRef .tc main_v22) = shapeCast S4900000x1 (ds (A1 m c)) shapeCasts_S4900000_S4900000x1 := (g11_v22 (W10 m ρ c)).trans (W10_v22 m ρ c)
theorem W11_v30 (c : Dev nD) : W11 m ρ c (Proc.devRef .tc main_v30) = shapeCast S4900000x1 (dd (A1 m c)) shapeCasts_S4900000_S4900000x1 := (g11_v30 (W10 m ρ c)).trans (W10_v30 m ρ c)
theorem W11_arg2 (c : Dev nD) : W11 m ρ c (Proc.devRef .tc main_arg2) = A2 m c := (g11_arg2 (W10 m ρ c)).trans (W10_arg2 m ρ c)
theorem W11_arg4 (c : Dev nD) : W11 m ρ c (Proc.devRef .tc main_arg4) = A4 m c := (g11_arg4 (W10 m ρ c)).trans (W10_arg4 m ρ c)
theorem W11_arg5 (c : Dev nD) : W11 m ρ c (Proc.devRef .tc main_arg5) = A5 m c := (g11_arg5 (W10 m ρ c)).trans (W10_arg5 m ρ c)

/-! ## Region 1 (the first dense layer) -/

/-- The first layer's output: relu (aggregate · W1 + b1). -/
def h1 (a0 : FVec Ideal S100000x1 .f32) (a1 : IVec S2x4800000 32) (a2 : FVec Ideal S1x16 .f32) (a3 : FVec Ideal S16 .f32) : FVec Ideal S100000x16 .f32 :=
  Dense1.layer (agg1 a0 a1) a2 (shapeCast S1x16 a3 shapeCasts_S16_S1x16)

theorem W12_v55 (c : Dev nD) : W12 m ρ c (Proc.devRef .tc main_v55) = h1 (A0 m c) (A1 m c) (A2 m c) (A3 m c) :=
  (W12_arr m ρ c 3).trans ((Dense1.final (V11 m ρ) c).trans (by
    show Dense1.layer (W11 m ρ c (Proc.devRef .tc main_v53)) (W11 m ρ c (Proc.devRef .tc main_arg2)) (W11 m ρ c (Proc.devRef .tc main_v54)) = _
    rw [W11_v53, W11_arg2, W11_v54] <;> rfl))
theorem W12_v3 (c : Dev nD) : W12 m ρ c (Proc.devRef .tc main_v3) = src (A1 m c) := (W12_of_ne m ρ c main_v3 (by decide)).trans (W11_v3 m ρ c)
theorem W12_v6 (c : Dev nD) : W12 m ρ c (Proc.devRef .tc main_v6) = dst (A1 m c) := (W12_of_ne m ρ c main_v6 (by decide)).trans (W11_v6 m ρ c)
theorem W12_v22 (c : Dev nD) : W12 m ρ c (Proc.devRef .tc main_v22) = shapeCast S4900000x1 (ds (A1 m c)) shapeCasts_S4900000_S4900000x1 := (W12_of_ne m ρ c main_v22 (by decide)).trans (W11_v22 m ρ c)
theorem W12_v30 (c : Dev nD) : W12 m ρ c (Proc.devRef .tc main_v30) = shapeCast S4900000x1 (dd (A1 m c)) shapeCasts_S4900000_S4900000x1 := (W12_of_ne m ρ c main_v30 (by decide)).trans (W11_v30 m ρ c)
theorem W12_arg4 (c : Dev nD) : W12 m ρ c (Proc.devRef .tc main_arg4) = A4 m c := (W12_of_ne m ρ c main_arg4 (by decide)).trans (W11_arg4 m ρ c)
theorem W12_arg5 (c : Dev nD) : W12 m ρ c (Proc.devRef .tc main_arg5) = A5 m c := (W12_of_ne m ρ c main_arg5 (by decide)).trans (W11_arg5 m ρ c)

/-! ## Region 2 (the second projection) -/

/-- A zero bias row. -/
theorem g13_v56 (X : Valuation τ sig (Elt Ideal)) :
    StableHlo.after hostOps2 X (Proc.devRef .tc main_v56) = broadcastInDim S1x2 ![] bcast_S_S1x2 (constant (F := Ideal) S_ .f32 0x00000000#32) := by
  after_results_simp <;> rfl

/-- These stretches do not write `main_v55`. -/
theorem g13_v55 (X : Valuation τ sig (Elt Ideal)) :
    StableHlo.after hostOps2 X (Proc.devRef .tc main_v55) = X (Proc.devRef .tc main_v55) := by
  after_results_simp <;> rfl
/-- These stretches do not write `main_v3`. -/
theorem g13_v3 (X : Valuation τ sig (Elt Ideal)) :
    StableHlo.after hostOps2 X (Proc.devRef .tc main_v3) = X (Proc.devRef .tc main_v3) := by
  after_results_simp <;> rfl
/-- These stretches do not write `main_v6`. -/
theorem g13_v6 (X : Valuation τ sig (Elt Ideal)) :
    StableHlo.after hostOps2 X (Proc.devRef .tc main_v6) = X (Proc.devRef .tc main_v6) := by
  after_results_simp <;> rfl
/-- These stretches do not write `main_v22`. -/
theorem g13_v22 (X : Valuation τ sig (Elt Ideal)) :
    StableHlo.after hostOps2 X (Proc.devRef .tc main_v22) = X (Proc.devRef .tc main_v22) := by
  after_results_simp <;> rfl
/-- These stretches do not write `main_v30`. -/
theorem g13_v30 (X : Valuation τ sig (Elt Ideal)) :
    StableHlo.after hostOps2 X (Proc.devRef .tc main_v30) = X (Proc.devRef .tc main_v30) := by
  after_results_simp <;> rfl
/-- These stretches do not write `main_arg4`. -/
theorem g13_arg4 (X : Valuation τ sig (Elt Ideal)) :
    StableHlo.after hostOps2 X (Proc.devRef .tc main_arg4) = X (Proc.devRef .tc main_arg4) := by
  after_results_simp <;> rfl
/-- These stretches do not write `main_arg5`. -/
theorem g13_arg5 (X : Valuation τ sig (Elt Ideal)) :
    StableHlo.after hostOps2 X (Proc.devRef .tc main_arg5) = X (Proc.devRef .tc main_arg5) := by
  after_results_simp <;> rfl

/-- The second projection: h1 · W2 (plus a zero bias row). -/
def proj (a0 : FVec Ideal S100000x1 .f32) (a1 : IVec S2x4800000 32) (a2 : FVec Ideal S1x16 .f32) (a3 : FVec Ideal S16 .f32) (a4 : FVec Ideal S16x2 .f32) : FVec Ideal S100000x2 .f32 :=
  Dense2.layer (h1 a0 a1 a2 a3) a4 (broadcastInDim S1x2 ![] bcast_S_S1x2 (constant (F := Ideal) S_ .f32 0x00000000#32))

theorem W14_v57 (c : Dev nD) : W14 m ρ c (Proc.devRef .tc main_v57) = proj (A0 m c) (A1 m c) (A2 m c) (A3 m c) (A4 m c) :=
  (W14_arr m ρ c 3).trans ((Dense2.final (V13 m ρ) c).trans (by
    show Dense2.layer (W13 m ρ c (Proc.devRef .tc main_v55)) (W13 m ρ c (Proc.devRef .tc main_arg4)) (W13 m ρ c (Proc.devRef .tc main_v56)) = _
    rw [show W13 m ρ c (Proc.devRef .tc main_v55) = _ from (g13_v55 (W12 m ρ c)).trans (W12_v55 m ρ c),
      show W13 m ρ c (Proc.devRef .tc main_arg4) = _ from (g13_arg4 (W12 m ρ c)).trans (W12_arg4 m ρ c),
      show W13 m ρ c (Proc.devRef .tc main_v56) = _ from g13_v56 (W12 m ρ c)] <;> rfl))
theorem W14_v3 (c : Dev nD) : W14 m ρ c (Proc.devRef .tc main_v3) = src (A1 m c) := (W14_of_ne m ρ c main_v3 (by decide)).trans ((g13_v3 (W12 m ρ c)).trans (W12_v3 m ρ c))
theorem W14_v6 (c : Dev nD) : W14 m ρ c (Proc.devRef .tc main_v6) = dst (A1 m c) := (W14_of_ne m ρ c main_v6 (by decide)).trans ((g13_v6 (W12 m ρ c)).trans (W12_v6 m ρ c))
theorem W14_v22 (c : Dev nD) : W14 m ρ c (Proc.devRef .tc main_v22) = shapeCast S4900000x1 (ds (A1 m c)) shapeCasts_S4900000_S4900000x1 := (W14_of_ne m ρ c main_v22 (by decide)).trans ((g13_v22 (W12 m ρ c)).trans (W12_v22 m ρ c))
theorem W14_v30 (c : Dev nD) : W14 m ρ c (Proc.devRef .tc main_v30) = shapeCast S4900000x1 (dd (A1 m c)) shapeCasts_S4900000_S4900000x1 := (W14_of_ne m ρ c main_v30 (by decide)).trans ((g13_v30 (W12 m ρ c)).trans (W12_v30 m ρ c))
theorem W14_arg5 (c : Dev nD) : W14 m ρ c (Proc.devRef .tc main_arg5) = A5 m c := (W14_of_ne m ρ c main_arg5 (by decide)).trans ((g13_arg5 (W12 m ρ c)).trans (W12_arg5 m ρ c))

/-! ## Region 3 (the second scaling) and the second aggregate -/

/-- The projected features at the message sources, one row per message. -/
def gh (a0 : FVec Ideal S100000x1 .f32) (a1 : IVec S2x4800000 32) (a2 : FVec Ideal S1x16 .f32) (a3 : FVec Ideal S16 .f32) (a4 : FVec Ideal S16x2 .f32) : FVec Ideal S4900000x2 .f32 :=
  Host.gather gather_S100000x2_S4900000x1_S4900000x2_1_0_n_n_0_1_12 (proj a0 a1 a2 a3 a4) (nidx (src a1))

/-- A per-message factor repeated over the two columns. -/
def rep2 (v : FVec Ideal S4900000 .f32) : FVec Ideal S4900000x2 .f32 :=
  broadcastInDim S4900000x2 ![0, 1] bcast_S4900000x1_S4900000x2_0_1 (shapeCast S4900000x1 v shapeCasts_S4900000_S4900000x1)

set_option maxHeartbeats 8000000 in
/-- The gathered projection flattened, padded and tiled. -/
theorem g21_v73 (X : Valuation τ sig (Elt Ideal)) :
    StableHlo.after hostOps3_6 (StableHlo.after hostOps3_5 (StableHlo.after hostOps3_4 (StableHlo.after hostOps3_3 (StableHlo.after hostOps3_2 (StableHlo.after hostOps3_1 (StableHlo.after hostOps3 X)))))) (Proc.devRef .tc main_v73) = tile2 (shapeCast S9800000 (Host.gather gather_S100000x2_S4900000x1_S4900000x2_1_0_n_n_0_1_12 (X (Proc.devRef .tc main_v57)) (nidx (X (Proc.devRef .tc main_v3)))) shapeCasts_S4900000x2_S9800000) := by
  after_results_simp <;> rfl

set_option maxHeartbeats 8000000 in
/-- The source factors repeated over the columns, flattened, padded and tiled. -/
theorem g21_v74 (X : Valuation τ sig (Elt Ideal)) :
    StableHlo.after hostOps3_6 (StableHlo.after hostOps3_5 (StableHlo.after hostOps3_4 (StableHlo.after hostOps3_3 (StableHlo.after hostOps3_2 (StableHlo.after hostOps3_1 (StableHlo.after hostOps3 X)))))) (Proc.devRef .tc main_v74) = tile2 (shapeCast S9800000 (broadcastInDim S4900000x2 ![0, 1] bcast_S4900000x1_S4900000x2_0_1 (X (Proc.devRef .tc main_v22))) shapeCasts_S4900000x2_S9800000) := by
  after_results_simp <;> rfl

set_option maxHeartbeats 8000000 in
/-- The target factors repeated over the columns, flattened, padded and tiled. -/
theorem g21_v75 (X : Valuation τ sig (Elt Ideal)) :
    StableHlo.after hostOps3_6 (StableHlo.after hostOps3_5 (StableHlo.after hostOps3_4 (StableHlo.after hostOps3_3 (StableHlo.after hostOps3_2 (StableHlo.after hostOps3_1 (StableHlo.after hostOps3 X)))))) (Proc.devRef .tc main_v75) = tile2 (shapeCast S9800000 (broadcastInDim S4900000x2 ![0, 1] bcast_S4900000x1_S4900000x2_0_1 (X (Proc.devRef .tc main_v30))) shapeCasts_S4900000x2_S9800000) := by
  after_results_simp <;> rfl

set_option maxHeartbeats 8000000 in
/-- These stretches do not write `main_v6`. -/
theorem g21_v6 (X : Valuation τ sig (Elt Ideal)) :
    StableHlo.after hostOps3_6 (StableHlo.after hostOps3_5 (StableHlo.after hostOps3_4 (StableHlo.after hostOps3_3 (StableHlo.after hostOps3_2 (StableHlo.after hostOps3_1 (StableHlo.after hostOps3 X)))))) (Proc.devRef .tc main_v6) = X (Proc.devRef .tc main_v6) := by
  after_results_simp <;> rfl
set_option maxHeartbeats 8000000 in
/-- These stretches do not write `main_arg5`. -/
theorem g21_arg5 (X : Valuation τ sig (Elt Ideal)) :
    StableHlo.after hostOps3_6 (StableHlo.after hostOps3_5 (StableHlo.after hostOps3_4 (StableHlo.after hostOps3_3 (StableHlo.after hostOps3_2 (StableHlo.after hostOps3_1 (StableHlo.after hostOps3 X)))))) (Proc.devRef .tc main_arg5) = X (Proc.devRef .tc main_arg5) := by
  after_results_simp <;> rfl

/-- The second layer's messages: (projection at the source · source factor) · target factor. -/
def msg2 (a0 : FVec Ideal S100000x1 .f32) (a1 : IVec S2x4800000 32) (a2 : FVec Ideal S1x16 .f32) (a3 : FVec Ideal S16 .f32) (a4 : FVec Ideal S16x2 .f32) : FVec Ideal S4900000x2 .f32 :=
  untile2 (Scale3.prod3 (F := Ideal) (tile2 (shapeCast S9800000 (gh a0 a1 a2 a3 a4) shapeCasts_S4900000x2_S9800000))
    (tile2 (shapeCast S9800000 (rep2 (ds a1)) shapeCasts_S4900000x2_S9800000))
    (tile2 (shapeCast S9800000 (rep2 (dd a1)) shapeCasts_S4900000x2_S9800000)))

theorem W22_v76 (c : Dev nD) : W22 m ρ c (Proc.devRef .tc main_v76)
    = Scale3.prod3 (F := Ideal) (tile2 (shapeCast S9800000 (gh (A0 m c) (A1 m c) (A2 m c) (A3 m c) (A4 m c)) shapeCasts_S4900000x2_S9800000))
        (tile2 (shapeCast S9800000 (rep2 (ds (A1 m c))) shapeCasts_S4900000x2_S9800000))
        (tile2 (shapeCast S9800000 (rep2 (dd (A1 m c))) shapeCasts_S4900000x2_S9800000)) :=
  (W22_arr m ρ c 3).trans ((Scale3.final (V21 m ρ) c).trans (by
    show Scale3.prod3 (F := Ideal) (W21 m ρ c (Proc.devRef .tc main_v73)) (W21 m ρ c (Proc.devRef .tc main_v74)) (W21 m ρ c (Proc.devRef .tc main_v75)) = _
    rw [show W21 m ρ c (Proc.devRef .tc main_v73) = _ from g21_v73 (W14 m ρ c), show W21 m ρ c (Proc.devRef .tc main_v74) = _ from g21_v74 (W14 m ρ c),
      show W21 m ρ c (Proc.devRef .tc main_v75) = _ from g21_v75 (W14 m ρ c), W14_v57, W14_v3, W14_v22, W14_v30] <;> rfl))
theorem W22_v6 (c : Dev nD) : W22 m ρ c (Proc.devRef .tc main_v6) = dst (A1 m c) :=
  (W22_of_ne m ρ c main_v6 (by decide)).trans ((g21_v6 (W14 m ρ c)).trans (W14_v6 m ρ c))
theorem W22_arg5 (c : Dev nD) : W22 m ρ c (Proc.devRef .tc main_arg5) = A5 m c :=
  (W22_of_ne m ρ c main_arg5 (by decide)).trans ((g21_arg5 (W14 m ρ c)).trans (W14_arg5 m ρ c))

/-- The second aggregate: the messages added at their targets, into zeros. -/
def agg2 (a0 : FVec Ideal S100000x1 .f32) (a1 : IVec S2x4800000 32) (a2 : FVec Ideal S1x16 .f32) (a3 : FVec Ideal S16 .f32) (a4 : FVec Ideal S16x2 .f32) : FVec Ideal S100000x2 .f32 :=
  Host.scatterAdd scatter_S100000x2_S4900000x1_S4900000x2_1_0_0_1
    (broadcastInDim S100000x2 ![] bcast_S_S100000x2 (constant (F := Ideal) S_ .f32 0x00000000#32)) (sidx (dst a1)) (msg2 a0 a1 a2 a3 a4)

/-- The scaled messages untiled and added at the targets. -/
theorem g23_v82 (X : Valuation τ sig (Elt Ideal)) :
    StableHlo.after hostOps4 X (Proc.devRef .tc main_v82) = Host.scatterAdd scatter_S100000x2_S4900000x1_S4900000x2_1_0_0_1 (broadcastInDim S100000x2 ![] bcast_S_S100000x2 (constant (F := Ideal) S_ .f32 0x00000000#32)) (sidx (X (Proc.devRef .tc main_v6))) (untile2 (X (Proc.devRef .tc main_v76))) := by
  after_results_simp <;> rfl

/-- The second bias as a row. -/
theorem g23_v83 (X : Valuation τ sig (Elt Ideal)) :
    StableHlo.after hostOps4 X (Proc.devRef .tc main_v83) = shapeCast S1x2 (X (Proc.devRef .tc main_arg5) : FVec Ideal S2 .f32) shapeCasts_S2_S1x2 := by
  after_results_simp <;> rfl

theorem W23_v82 (c : Dev nD) : W23 m ρ c (Proc.devRef .tc main_v82) = agg2 (A0 m c) (A1 m c) (A2 m c) (A3 m c) (A4 m c) :=
  (g23_v82 (W22 m ρ c)).trans (by rw [W22_v6, W22_v76] <;> rfl)
theorem W23_v83 (c : Dev nD) : W23 m ρ c (Proc.devRef .tc main_v83) = shapeCast S1x2 (A5 m c) shapeCasts_S2_S1x2 :=
  (g23_v83 (W22 m ρ c)).trans (by rw [W22_arg5])

/-! ## Region 4 (bias and row-wise log-softmax): the result -/

/-- THE RESULT ARRAY of the idealized kernel: the row function applied to the rows of (second aggregate + b2), for any
    row function `rowfun` that the last region's body is known to compute on each row (`hpay`). -/
theorem W24_v84 (rowfun : (Fin 2 → EReal) → Fin 2 → EReal)
    (hpay : ∀ (x0 : Vec Ideal S10000x2 .f32) (x1 : Vec Ideal S1x2 .f32) (y : S10000x2.Idx),
      k4_pay1 x0 x1 y = rowfun (fun c' => x0 (ValueIdx.ix2 (y 0) c') + x1 (ValueIdx.ix2 (0 : Fin 1) c')) (y 1))
    (c : Dev nD) : W24 m ρ c (Proc.devRef .tc main_v84)
      = Softmax4.layer rowfun (agg2 (A0 m c) (A1 m c) (A2 m c) (A3 m c) (A4 m c)) (shapeCast S1x2 (A5 m c) shapeCasts_S2_S1x2) :=
  (W24_arr m ρ c 2).trans ((Softmax4.final (V23 m ρ) rowfun hpay c).trans (by
    show Softmax4.layer rowfun (W23 m ρ c (Proc.devRef .tc main_v82)) (W23 m ρ c (Proc.devRef .tc main_v83)) = _
    rw [W23_v82, W23_v83]))

end Cert.KernelIdeal.Chain

end
-- ==== Proof.LibColumn.lean ====
/-
  Column forms of a row-wise reduction's result, read with coordinates, for any extents.

  A reduction over the second axis of an a × b array that keeps its dimensions leaves one number per row, stored as a
  column: an array of extent [a] is cast to [a, 1], and the column [a, 1] is then repeated along the rows to [a, b].
  * `shapeCast_a_a1_apply`: the cast [a] → [a, 1] read at (i, u) is the operand at i, whatever the unit coordinate u.
  * `shapeCast_a1_a_apply`: the cast back [a, 1] → [a] read at i is the operand at (i, 0).
  * `broadcastTo_a1_ab_apply`: the column [a, 1] repeated to [a, b] read at (p, c) is the column's entry of row p.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column repeated to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibLogSoftmaxRows.lean ====
/-
  A row-wise log-softmax computed two ways, read with coordinates, for any number of rows and columns.

  For a row f : Fin n → EReal let m be the row's maximum (the fold of max from −∞ over the columns). The row's log-softmax
  at column c is  (f c − m) − log (∑ c', exp (f c' − m)):  this is lsmRow f c.
  * vector_lsm_apply: the vector unit's form — a lane maximum over the column axis from the pattern of −∞, cast to a column
    and repeated along the rows, subtracted; the exponentials summed over the column axis from the pattern of zero, cast to a
    column, the logarithm taken, repeated along the rows and subtracted — read at (p, c) is lsmRow of row p at c.
  * host_lsm_apply: the host's form — a reduce with a maximum body from −∞ over the column axis, a further maximum with a row
    of −∞, broadcast to a column and then along the rows, subtracted; the exponentials reduced by a sum from zero, broadcast to
    a column, the logarithm taken, broadcast along the rows and subtracted — read at (i, c) is lsmRow of row i at c.
  So both programs' last stage is one function of their rows.
-/
import Idealize.ShloMosaic.PureOps.Ideal.Laws
import Idealize.ShloMosaic.PureOps.Reduce
import Idealize.ShloMosaic.Lib.Pipeline.Value
import Idealize.ShloMosaic.Lib.ValueIdx
import Idealize.ShloMosaic.Lib.ValueLayout

noncomputable section

namespace Cert.LibLogSoftmaxRows

open Idealize.ShloMosaic Idealize.ShloMosaic.ValueIdx

/-- The log-softmax of one row f at column c: with m the row's maximum (the fold of max from −∞), the entry minus m, minus
    the logarithm of the sum over the row of the exponentials of the entries minus m. -/
def lsmRow {n : Nat} (f : Fin n → EReal) (c : Fin n) : EReal :=
  (f c - (Finset.univ : Finset (Fin n)).fold max ⊥ f)
    - Ideal.log (∑ c' : Fin n, Ideal.exp (f c' - (Finset.univ : Finset (Fin n)).fold max ⊥ f))

/-- The f32 pattern 0xFF800000 is −∞. -/
theorem ofBits_negInf_f32 : Ideal.ofBits .f32 0xFF800000#32 = ⊥ := by simp [Ideal.ofBits, Ideal.ieee]

variable {α : Type}

/-- An [a] array cast to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column repeated to [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of an [a, n] array over row p of the reduced [a] array, with column k inserted, is (p, k). -/
theorem lift_row {a n : ℕ} (hr : (⟨2, ![a, n]⟩ : Shape).Reduces [1] ⟨1, ![a]⟩) (p : Fin a) (k : Fin n) :
    hr.lift (ix1 p) k = ix2 p k := by
  funext c
  match c with
  | ⟨0, _⟩ => rfl
  | ⟨1, _⟩ => rfl

/-- The vector unit's exponential and logarithm, and the host's, read at an index: one function each at the ideal values. -/
theorem exp_apply {s : Shape} {φ : FTy} (x : FVec Ideal s φ) (i : s.Idx) : exp x i = Ideal.exp (x i) := rfl

theorem log_apply {s : Shape} {φ : FTy} (x : FVec Ideal s φ) (i : s.Idx) : log x i = Ideal.log (x i) := rfl

theorem hostExp_apply {s : Shape} {φ : FTy} (x : FVec Ideal s φ) (i : s.Idx) : Host.exp x i = Ideal.exp (x i) := rfl

theorem hostLog_apply {s : Shape} {φ : FTy} (x : FVec Ideal s φ) (i : s.Idx) : Host.log x i = Ideal.log (x i) := rfl

/-- A lane maximum over the column axis from the pattern of −∞, read at row p: the fold of max from −∞ over row p's entries. -/
theorem vector_rowMax_apply {B n : ℕ} (X : FVec Ideal ⟨2, ![B, n]⟩ .f32)
    (hr : (⟨2, ![B, n]⟩ : Shape).Reduces [1] ⟨1, ![B]⟩) (p : Fin B) :
    multiReduction .maximumf [1] ⟨1, ![B]⟩ X 0xFF800000#32 hr (.inl rfl) rfl (ix1 p)
      = (Finset.univ : Finset (Fin n)).fold max ⊥ (fun c' => X (ix2 p c')) := by
  refine (Ideal.multiReduction_maximumf_single X _ hr (.inl rfl) rfl (ix1 p)).trans ?_
  show (Finset.univ : Finset (Fin n)).fold max (Ideal.ofBits .f32 0xFF800000#32) (X ∘ hr.lift (ix1 p)) = _
  rw [ofBits_negInf_f32]
  congr 1
  funext k
  exact congrArg X (lift_row hr p k)

/-- A lane sum over the column axis from the pattern of zero, read at row p: the sum of row p's entries. -/
theorem vector_rowSum_apply {B n : ℕ} (E : FVec Ideal ⟨2, ![B, n]⟩ .f32)
    (hr : (⟨2, ![B, n]⟩ : Shape).Reduces [1] ⟨1, ![B]⟩) (p : Fin B) :
    multiReduction .add [1] ⟨1, ![B]⟩ E 0x00000000#32 hr (.inl rfl) rfl (ix1 p) = ∑ c' : Fin n, E (ix2 p c') := by
  refine (Ideal.multiReduction_add_single E _ hr (.inl rfl) rfl (ix1 p)).trans ?_
  show ∑ k : Fin n, E (hr.lift (ix1 p) k) = _
  exact Finset.sum_congr rfl fun k _ => congrArg E (lift_row hr p k)

/-- A per-row array cast to a column and repeated along the rows reads, at (p, c), the array's entry p. -/
theorem vector_column_apply {B n : ℕ} (v : (⟨1, ![B]⟩ : Shape).Idx → α) (hc : (⟨1, ![B]⟩ : Shape).ShapeCasts ⟨2, ![B, 1]⟩)
    (hb : (⟨2, ![B, 1]⟩ : Shape).Broadcasts ⟨2, ![B, n]⟩) (p : Fin B) (c : Fin n) :
    broadcastTo ⟨2, ![B, n]⟩ (shapeCast ⟨2, ![B, 1]⟩ v hc) hb (ix2 p c) = v (ix1 p) :=
  (broadcastTo_a1_ab_apply _ hb p c).trans (shapeCast_a_a1_apply v hc p 0)

/-- The vector unit's shifted array — the array minus its row maxima as a repeated column — read at (p, c): the entry minus
    row p's maximum. -/
theorem vector_shift_apply {B n : ℕ} (X : FVec Ideal ⟨2, ![B, n]⟩ .f32)
    (hr : (⟨2, ![B, n]⟩ : Shape).Reduces [1] ⟨1, ![B]⟩) (hc : (⟨1, ![B]⟩ : Shape).ShapeCasts ⟨2, ![B, 1]⟩)
    (hb : (⟨2, ![B, 1]⟩ : Shape).Broadcasts ⟨2, ![B, n]⟩) (p : Fin B) (c : Fin n) :
    subf X (broadcastTo ⟨2, ![B, n]⟩ (shapeCast ⟨2, ![B, 1]⟩
        (multiReduction .maximumf [1] ⟨1, ![B]⟩ X 0xFF800000#32 hr (.inl rfl) rfl) hc) hb) (ix2 p c)
      = X (ix2 p c) - (Finset.univ : Finset (Fin n)).fold max ⊥ (fun c' => X (ix2 p c')) := by
  rw [subf_apply, vector_column_apply, vector_rowMax_apply]

/-- THE VECTOR UNIT'S FORM of a row-wise log-softmax, read at (p, c), is the log-softmax of row p at column c. -/
theorem vector_lsm_apply {B n : ℕ} (X : FVec Ideal ⟨2, ![B, n]⟩ .f32)
    (hr : (⟨2, ![B, n]⟩ : Shape).Reduces [1] ⟨1, ![B]⟩) (hc : (⟨1, ![B]⟩ : Shape).ShapeCasts ⟨2, ![B, 1]⟩)
    (hb : (⟨2, ![B, 1]⟩ : Shape).Broadcasts ⟨2, ![B, n]⟩) (p : Fin B) (c : Fin n) :
    subf
        (subf X (broadcastTo ⟨2, ![B, n]⟩ (shapeCast ⟨2, ![B, 1]⟩
          (multiReduction .maximumf [1] ⟨1, ![B]⟩ X 0xFF800000#32 hr (.inl rfl) rfl) hc) hb))
        (broadcastTo ⟨2, ![B, n]⟩ (log (shapeCast ⟨2, ![B, 1]⟩
          (multiReduction .add [1] ⟨1, ![B]⟩
            (exp (subf X (broadcastTo ⟨2, ![B, n]⟩ (shapeCast ⟨2, ![B, 1]⟩
              (multiReduction .maximumf [1] ⟨1, ![B]⟩ X 0xFF800000#32 hr (.inl rfl) rfl) hc) hb)))
            0x00000000#32 hr (.inl rfl) rfl) hc)) hb)
        (ix2 p c)
      = lsmRow (fun c' => X (ix2 p c')) c := by
  rw [subf_apply, vector_shift_apply, broadcastTo_a1_ab_apply, log_apply, shapeCast_a_a1_apply, vector_rowSum_apply]
  unfold lsmRow
  congr 2
  exact Finset.sum_congr rfl fun k _ => (exp_apply _ _).trans (congrArg Ideal.exp (vector_shift_apply X hr hc hb p k))

/-- The host's evidence that [A, n] reduces over its column axis to [A] is also the vector unit's kind of evidence (the result
    has a positive rank). -/
theorem reduces_of_reducesTo {A n : ℕ} (ht : (⟨2, ![A, n]⟩ : Shape).ReducesTo [1] ⟨1, ![A]⟩) :
    (⟨2, ![A, n]⟩ : Shape).Reduces [1] ⟨1, ![A]⟩ := ⟨ht.1, Nat.one_pos, ht.2⟩

/-- The host's reduce with a maximum body from −∞ over the column axis, read at row i: the fold of max from −∞ over row i's
    entries. -/
theorem host_rowMax_apply {A n : ℕ} (Y : FVec Ideal ⟨2, ![A, n]⟩ .f32)
    (ht : (⟨2, ![A, n]⟩ : Shape).ReducesTo [1] ⟨1, ![A]⟩) (h0 : 0 < (⟨0, ![]⟩ : Shape).numel) (i : Fin A) :
    Host.reduce FloatOps.maximumf Y (constant ⟨0, ![]⟩ .f32 0xFF800000#32) ht h0 (ix1 i)
      = (Finset.univ : Finset (Fin n)).fold max ⊥ (fun c' => Y (ix2 i c')) := by
  refine (Host.reduce_eq_fold_single FloatOps.maximumf Y _ ht (reduces_of_reducesTo ht) h0 (ix1 i)).trans ?_
  show (Finset.univ : Finset (Fin n)).fold max (Ideal.ofBits .f32 0xFF800000#32) (Y ∘ (reduces_of_reducesTo ht).lift (ix1 i)) = _
  rw [ofBits_negInf_f32]
  congr 1
  funext k
  exact congrArg Y (lift_row _ i k)

/-- The host's sum from zero over the column axis, read at row i: the sum of row i's entries. -/
theorem host_rowSum_apply {A n : ℕ} (E : FVec Ideal ⟨2, ![A, n]⟩ .f32)
    (ht : (⟨2, ![A, n]⟩ : Shape).ReducesTo [1] ⟨1, ![A]⟩) (h0 : 0 < (⟨0, ![]⟩ : Shape).numel) (i : Fin A) :
    Host.reduceAdd E (constant ⟨0, ![]⟩ .f32 0x00000000#32) ht h0 (ix1 i) = ∑ c' : Fin n, E (ix2 i c') := by
  show Ideal.hostReduceAdd ht E (Ideal.ofBits .f32 0x00000000#32) (ix1 i) = _
  rw [Ideal.hostReduceAdd_single ht (reduces_of_reducesTo ht), Ideal.ofBits_zero_f32, zero_add]
  exact Finset.sum_congr rfl fun k _ => congrArg E (lift_row _ i k)

/-- A per-row array broadcast on the host to a column reads, at (i, u), the array's entry i. -/
theorem hostCol_apply {A : ℕ} (h1 : (⟨1, ![A]⟩ : Shape).BroadcastsInDim ⟨2, ![A, 1]⟩ (![0] : Fin 1 → Fin 2))
    (v : (⟨1, ![A]⟩ : Shape).Idx → α) (i : Fin A) (u : Fin 1) :
    broadcastInDim ⟨2, ![A, 1]⟩ (![0] : Fin 1 → Fin 2) h1 v (ix2 i u) = v (ix1 i) := by
  refine broadcastInDim_apply _ h1 v (ix2 i u) (ix1 i) fun a => ?_
  match a with
  | ⟨0, _⟩ =>
    show i.val = if A = 1 then 0 else i.val
    split
    · have := i.isLt; omega
    · rfl

/-- A column broadcast on the host along the rows reads, at (i, c), the column's entry of row i. -/
theorem hostCols_apply {A n : ℕ} (h2 : (⟨2, ![A, 1]⟩ : Shape).BroadcastsInDim ⟨2, ![A, n]⟩ (![0, 1] : Fin 2 → Fin 2))
    (w : (⟨2, ![A, 1]⟩ : Shape).Idx → α) (i : Fin A) (c : Fin n) :
    broadcastInDim ⟨2, ![A, n]⟩ (![0, 1] : Fin 2 → Fin 2) h2 w (ix2 i c) = w (ix2 i (0 : Fin 1)) := by
  refine broadcastInDim_apply _ h2 w (ix2 i c) (ix2 i (0 : Fin 1)) fun a => ?_
  match a with
  | ⟨0, _⟩ =>
    show i.val = if A = 1 then 0 else i.val
    split
    · have := i.isLt; omega
    · rfl
  | ⟨1, _⟩ => rfl

/-- A per-row array broadcast on the host to a column and then along the rows reads, at (i, c), the array's entry i. -/
theorem host_column_apply {A n : ℕ} (h1 : (⟨1, ![A]⟩ : Shape).BroadcastsInDim ⟨2, ![A, 1]⟩ (![0] : Fin 1 → Fin 2))
    (h2 : (⟨2, ![A, 1]⟩ : Shape).BroadcastsInDim ⟨2, ![A, n]⟩ (![0, 1] : Fin 2 → Fin 2))
    (v : (⟨1, ![A]⟩ : Shape).Idx → α) (i : Fin A) (c : Fin n) :
    broadcastInDim ⟨2, ![A, n]⟩ (![0, 1] : Fin 2 → Fin 2) h2 (broadcastInDim ⟨2, ![A, 1]⟩ (![0] : Fin 1 → Fin 2) h1 v) (ix2 i c)
      = v (ix1 i) :=
  (hostCols_apply h2 _ i c).trans (hostCol_apply h1 v i 0)

/-- A scalar broadcast on the host to any shape reads the scalar at every index. -/
theorem hostSplat_apply {s : Shape} (h : (⟨0, ![]⟩ : Shape).BroadcastsInDim s (![] : Fin 0 → Fin s.rank))
    (v : (⟨0, ![]⟩ : Shape).Idx → α) (j : s.Idx) :
    broadcastInDim s (![] : Fin 0 → Fin s.rank) h v j = v ix0 :=
  broadcastInDim_apply _ h v j ix0 fun a => a.elim0

/-- The host's row maxima after the further maximum with a row of −∞, read at row i: still the fold of max from −∞ over
    row i's entries (max ⊥ x = x). -/
theorem host_rowMax2_apply {A n : ℕ} (Y : FVec Ideal ⟨2, ![A, n]⟩ .f32)
    (ht : (⟨2, ![A, n]⟩ : Shape).ReducesTo [1] ⟨1, ![A]⟩) (h0 : 0 < (⟨0, ![]⟩ : Shape).numel)
    (hs : (⟨0, ![]⟩ : Shape).BroadcastsInDim ⟨1, ![A]⟩ (![] : Fin 0 → Fin 1)) (i : Fin A) :
    maximumf (broadcastInDim ⟨1, ![A]⟩ (![] : Fin 0 → Fin 1) hs (constant ⟨0, ![]⟩ .f32 0xFF800000#32))
        (Host.reduce FloatOps.maximumf Y (constant ⟨0, ![]⟩ .f32 0xFF800000#32) ht h0) (ix1 i)
      = (Finset.univ : Finset (Fin n)).fold max ⊥ (fun c' => Y (ix2 i c')) := by
  rw [maximumf_apply, hostSplat_apply, constant_apply, ofBits_negInf_f32, host_rowMax_apply, max_bot_left]

/-- The host's shifted array — the array minus its row maxima broadcast to a column and along the rows — read at (i, c): the
    entry minus row i's maximum. -/
theorem host_shift_apply {A n : ℕ} (Y : FVec Ideal ⟨2, ![A, n]⟩ .f32)
    (ht : (⟨2, ![A, n]⟩ : Shape).ReducesTo [1] ⟨1, ![A]⟩) (h0 : 0 < (⟨0, ![]⟩ : Shape).numel)
    (hs : (⟨0, ![]⟩ : Shape).BroadcastsInDim ⟨1, ![A]⟩ (![] : Fin 0 → Fin 1))
    (h1 : (⟨1, ![A]⟩ : Shape).BroadcastsInDim ⟨2, ![A, 1]⟩ (![0] : Fin 1 → Fin 2))
    (h2 : (⟨2, ![A, 1]⟩ : Shape).BroadcastsInDim ⟨2, ![A, n]⟩ (![0, 1] : Fin 2 → Fin 2)) (i : Fin A) (c : Fin n) :
    subf Y (broadcastInDim ⟨2, ![A, n]⟩ (![0, 1] : Fin 2 → Fin 2) h2 (broadcastInDim ⟨2, ![A, 1]⟩ (![0] : Fin 1 → Fin 2) h1
        (maximumf (broadcastInDim ⟨1, ![A]⟩ (![] : Fin 0 → Fin 1) hs (constant ⟨0, ![]⟩ .f32 0xFF800000#32))
          (Host.reduce FloatOps.maximumf Y (constant ⟨0, ![]⟩ .f32 0xFF800000#32) ht h0)))) (ix2 i c)
      = Y (ix2 i c) - (Finset.univ : Finset (Fin n)).fold max ⊥ (fun c' => Y (ix2 i c')) := by
  rw [subf_apply, host_column_apply, host_rowMax2_apply]

/-- THE HOST'S FORM of a row-wise log-softmax, read at (i, c), is the log-softmax of row i at column c. -/
theorem host_lsm_apply {A n : ℕ} (Y : FVec Ideal ⟨2, ![A, n]⟩ .f32)
    (ht : (⟨2, ![A, n]⟩ : Shape).ReducesTo [1] ⟨1, ![A]⟩) (h0 : 0 < (⟨0, ![]⟩ : Shape).numel)
    (hs : (⟨0, ![]⟩ : Shape).BroadcastsInDim ⟨1, ![A]⟩ (![] : Fin 0 → Fin 1))
    (h1 : (⟨1, ![A]⟩ : Shape).BroadcastsInDim ⟨2, ![A, 1]⟩ (![0] : Fin 1 → Fin 2))
    (h2 : (⟨2, ![A, 1]⟩ : Shape).BroadcastsInDim ⟨2, ![A, n]⟩ (![0, 1] : Fin 2 → Fin 2)) (i : Fin A) (c : Fin n) :
    subf
        (subf Y (broadcastInDim ⟨2, ![A, n]⟩ (![0, 1] : Fin 2 → Fin 2) h2 (broadcastInDim ⟨2, ![A, 1]⟩ (![0] : Fin 1 → Fin 2) h1
          (maximumf (broadcastInDim ⟨1, ![A]⟩ (![] : Fin 0 → Fin 1) hs (constant ⟨0, ![]⟩ .f32 0xFF800000#32))
            (Host.reduce FloatOps.maximumf Y (constant ⟨0, ![]⟩ .f32 0xFF800000#32) ht h0)))))
        (broadcastInDim ⟨2, ![A, n]⟩ (![0, 1] : Fin 2 → Fin 2) h2 (Host.log (broadcastInDim ⟨2, ![A, 1]⟩ (![0] : Fin 1 → Fin 2) h1
          (Host.reduceAdd
            (Host.exp (subf Y (broadcastInDim ⟨2, ![A, n]⟩ (![0, 1] : Fin 2 → Fin 2) h2 (broadcastInDim ⟨2, ![A, 1]⟩ (![0] : Fin 1 → Fin 2) h1
              (maximumf (broadcastInDim ⟨1, ![A]⟩ (![] : Fin 0 → Fin 1) hs (constant ⟨0, ![]⟩ .f32 0xFF800000#32))
                (Host.reduce FloatOps.maximumf Y (constant ⟨0, ![]⟩ .f32 0xFF800000#32) ht h0))))))
            (constant ⟨0, ![]⟩ .f32 0x00000000#32) ht h0))))
        (ix2 i c)
      = lsmRow (fun c' => Y (ix2 i c')) c := by
  rw [subf_apply, host_shift_apply, hostCols_apply, hostLog_apply, hostCol_apply, host_rowSum_apply]
  unfold lsmRow
  congr 2
  exact Finset.sum_congr rfl fun k _ => (hostExp_apply _ _).trans (congrArg Ideal.exp (host_shift_apply Y ht h0 hs h1 h2 i k))

end Cert.LibLogSoftmaxRows

end
-- ==== Proof.KValue.lean ====
/-
  The idealized kernel's intermediate arrays read at an index.

  * Padding a flat array with zeros, tiling it into rows of 128 lanes, multiplying three such arrays entry by entry,
    flattening the product, cutting it back to the true length and reshaping is just the entrywise product of the three
    original arrays: every step but the product is a re-indexing, and cutting off the padding undoes it.  So message e of
    the first layer is (x(src e) · ds(e)) · dd(e), and entry (e, c) of the second layer's messages is
    (p(src e, c) · ds(e)) · dd(e).
  * The last region's body, on a row, is the row-wise log-softmax of the row plus the bias row.
-/
import proofs.«103736_j14559939134162_2_alg».proof.Proof.KChain
import proofs.«103736_j14559939134162_2_alg».proof.Proof.LibColumn
import proofs.«103736_j14559939134162_2_alg».proof.Proof.LibLogSoftmaxRows
import Idealize.ShloMosaic.Lib.KernelVsHost
import Idealize.ShloMosaic.Lib.ValueLayout
import Idealize.ShloMosaic.Lib.ValueIdx
import Idealize.ShloMosaic.Lib.Pipeline.Value

set_option maxRecDepth 65536

noncomputable section

open scoped BigOperators

namespace Cert.KernelIdeal.Value

open Cert.KernelIdeal Cert.KernelIdeal.Gen Cert.KernelIdeal.Chain Idealize.ShloMosaic Idealize.ShloMosaic.ValueIdx

/-! ## Cutting the padding off -/

/-- A flat array of 4900000 numbers, padded at the end and cut back to its length, is itself. -/
theorem slice_pad1 (g : FVec Ideal S4900000 .f32) (v : FVec Ideal S_ .f32) :
    extractStridedSlice S4900000 ![0] (pad S4915200 ![0] ![15200] ![0] g v pads_S4900000_S4915200_0152000 h_S_) slices_S4915200_S4900000_0 = g := by
  funext j
  unfold extractStridedSlice
  refine pad_apply_of_inside _ _ _ g v _ _ _ j (fun a => ?_)
  match a with
  | ⟨0, _⟩ => show 0 + (j 0).val = 0 + (j 0).val * (0 + 1); omega

/-- A flat array of 9800000 numbers, padded at the end and cut back to its length, is itself. -/
theorem slice_pad2 (g : FVec Ideal S9800000 .f32) (v : FVec Ideal S_ .f32) :
    extractStridedSlice S9800000 ![0] (pad S9830400 ![0] ![30400] ![0] g v pads_S9800000_S9830400_0304000 h_S_) slices_S9830400_S9800000_0 = g := by
  funext j
  unfold extractStridedSlice
  refine pad_apply_of_inside _ _ _ g v _ _ _ j (fun a => ?_)
  match a with
  | ⟨0, _⟩ => show 0 + (j 0).val = 0 + (j 0).val * (0 + 1); omega

/-- Untiling is a re-indexing: it commutes with the entrywise product. -/
theorem untile1_prod3 (A B C : FVec Ideal S38400x128 .f32) (i : S4900000x1.Idx) :
    untile1 (Scale0.prod3 (F := Ideal) A B C) i = (untile1 A i * untile1 B i) * untile1 C i := rfl
theorem untile2_prod3 (A B C : FVec Ideal S76800x128 .f32) (i : S4900000x2.Idx) :
    untile2 (Scale3.prod3 (F := Ideal) A B C) i = (untile2 A i * untile2 B i) * untile2 C i := rfl

/-- Tiling then untiling a flat array gives the array as a column. -/
theorem untile1_tile1 (g : FVec Ideal S4900000 .f32) : untile1 (tile1 g) = shapeCast S4900000x1 g shapeCasts_S4900000_S4900000x1 := by
  unfold untile1 tile1
  rw [shapeCast_shapeCast, slice_pad1]
/-- Tiling then untiling a flat array gives the array as rows of two. -/
theorem untile2_tile2 (g : FVec Ideal S9800000 .f32) : untile2 (tile2 g) = shapeCast S4900000x2 g shapeCasts_S9800000_S4900000x2 := by
  unfold untile2 tile2
  rw [shapeCast_shapeCast, slice_pad2]

/-! ## The messages at an index -/

/-- Message e of the first layer: (feature at the source · source factor) · target factor. -/
theorem msg1_apply (a0 : FVec Ideal S100000x1 .f32) (a1 : IVec S2x4800000 32) (e : Fin 4900000) :
    msg1 a0 a1 (ix2 e (0 : Fin 1)) = (gx a0 a1 (ix2 e (0 : Fin 1)) * ds a1 (ix1 e)) * dd a1 (ix1 e) := by
  unfold msg1
  rw [untile1_prod3, untile1_tile1, untile1_tile1, untile1_tile1, shapeCast_shapeCast, shapeCast_shapeCast, shapeCast_shapeCast,
    Cert.LibColumn.shapeCast_a_a1_apply, Cert.LibColumn.shapeCast_a_a1_apply]

/-- A per-message factor repeated over the two columns reads, at (e, c), the factor of message e. -/
theorem rep2_apply (v : FVec Ideal S4900000 .f32) (e : Fin 4900000) (c : Fin 2) : rep2 v (ix2 e c) = v (ix1 e) := by
  unfold rep2
  rw [Cert.LibLogSoftmaxRows.hostCols_apply, Cert.LibColumn.shapeCast_a_a1_apply]

/-- Entry (e, c) of the second layer's messages: (projection at the source · source factor) · target factor. -/
theorem msg2_apply (a0 : FVec Ideal S100000x1 .f32) (a1 : IVec S2x4800000 32) (a2 : FVec Ideal S1x16 .f32) (a3 : FVec Ideal S16 .f32)
    (a4 : FVec Ideal S16x2 .f32) (e : Fin 4900000) (c : Fin 2) :
    msg2 a0 a1 a2 a3 a4 (ix2 e c) = (gh a0 a1 a2 a3 a4 (ix2 e c) * ds a1 (ix1 e)) * dd a1 (ix1 e) := by
  unfold msg2
  rw [untile2_prod3, untile2_tile2, untile2_tile2, untile2_tile2, shapeCast_shapeCast, shapeCast_shapeCast, shapeCast_shapeCast,
    rep2_apply, rep2_apply]

/-! ## The last region's body on a row -/

/-- At entry (p, q) of a block: the row-wise log-softmax of row p of (block + bias row), read at q. -/
theorem softmax_payload_at (x0 : Vec Ideal S10000x2 .f32) (x1 : Vec Ideal S1x2 .f32) (p : Fin 10000) (q : Fin 2) :
    k4_pay1 x0 x1 (ix2 p q) = Cert.LibLogSoftmaxRows.lsmRow (fun c' => x0 (ix2 p c') + x1 (ix2 (0 : Fin 1) c')) q := by
  unfold k4_pay1
  simp only [shapeCast_self]
  refine (Cert.LibLogSoftmaxRows.vector_lsm_apply (addf (F := Ideal) x0 (broadcastTo S10000x2 x1 broadcasts_S1x2_S10000x2))
    reduces_S10000x2_S10000 shapeCasts_S10000_S10000x1 broadcasts_S10000x1_S10000x2 p q).trans ?_
  refine congrArg (fun f => Cert.LibLogSoftmaxRows.lsmRow f q) (funext fun c' => ?_)
  rw [addf_apply, broadcastTo_1b_ab_apply]

/-- The same at an index `y` of the block, by its coordinates. -/
theorem softmax_payload (x0 : Vec Ideal S10000x2 .f32) (x1 : Vec Ideal S1x2 .f32) (y : S10000x2.Idx) :
    k4_pay1 x0 x1 y = Cert.LibLogSoftmaxRows.lsmRow (fun c' => x0 (ix2 (y 0) c') + x1 (ix2 (0 : Fin 1) c')) (y 1) :=
  (congrArg (k4_pay1 x0 x1) (eq_ix2 y)).trans (softmax_payload_at x0 x1 (y 0) (y 1))

end Cert.KernelIdeal.Value

end
-- ==== Proof.LibScatterRows.lean ====
/-
  Rows added into a table, for extents N, C, E: an operand `[N, C]`, a column of integer row numbers `[E, 1]`
  and updates `[E, C]`, scattered with update window axis 1, inserted window axis 0, the row number going to
  operand axis 0, index vector axis 1.  Update entry `(e, c)` lands at operand entry `(row e, c)`, `row e` the
  row number `idx[e, 0]` read signed, when `0 ≤ row e < N`, and is dropped otherwise.  So the accumulating
  scatter's entry `(i, c)` is the operand's entry plus the sum, over the `e` whose row number is `i`, of the
  updates' entries `(e, c)`.
-/
import Idealize.ShloMosaic.Lib.ValueIdx
import Idealize.ShloMosaic.PureOps.Ideal

noncomputable section

namespace Cert.LibScatterRows

open scoped BigOperators
open Idealize.ShloMosaic Idealize.ShloMosaic.ValueIdx

/-- Those dimension numbers; their conditions `wf` are decided on a program's literal shapes. -/
abbrev rowScatter (N C E : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section
variable {N C E w : Nat} (wf : ScatterDims.WF ⟨2, ![N, C]⟩ ⟨2, ![E, 1]⟩ ⟨2, ![E, C]⟩ [1] [0] [0] 1)
  (idx : IVec ⟨2, ![E, 1]⟩ w) (e : Fin E) (c : Fin C)

/-- On operand axis 0 the window starts at the row number of `e`, read signed. -/
theorem start_zero :
    (rowScatter N C E wf).start (ix2 e c) idx 0 = (idx (ix2 e (0 : Fin 1))).toInt := by
  unfold ScatterDims.start
  rw [dif_pos (show (0 : Fin 2) ∈ (rowScatter N C E wf).scatterDimsToOperandDims from List.mem_singleton.mpr rfl)]
  have hsi : (rowScatter N C E wf).siIdx (ix2 e c)
      ⟨List.idxOf (0 : Fin 2) (rowScatter N C E wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On operand axis 1, which the map does not name, the window starts at 0. -/
theorem start_one : (rowScatter N C E wf).start (ix2 e c) idx 1 = 0 := by
  unfold ScatterDims.start
  rw [dif_neg (show (1 : Fin 2) ∉ ([0] : List (Fin 2)) from by decide)]

/-- Operand axis 0 is inserted: its window coordinate is 0. -/
theorem window_zero : (rowScatter N C E wf).window (ix2 e c) 0 = 0 := by
  unfold ScatterDims.window
  rw [dif_neg (show (0 : Fin 2) ∉ (rowScatter N C E wf).sKept from by
    show (0 : Fin 2) ∉ (List.finRange 2).filter (· ∉ ([0] : List (Fin 2)))
    decide)]

/-- Operand axis 1 takes the updates' axis 1: its window coordinate is `c`. -/
theorem window_one : (rowScatter N C E wf).window (ix2 e c) 1 = c.val := by
  unfold ScatterDims.window
  rw [dif_pos (show (1 : Fin 2) ∈ (rowScatter N C E wf).sKept from by
    show (1 : Fin 2) ∈ (List.finRange 2).filter (· ∉ ([0] : List (Fin 2)))
    decide)]
  rfl

/-- WHERE UPDATE ENTRY `(e, c)` LANDS: at row `idx[e, 0]` (read signed), column `c`, when that row is in
    `[0, N)`; nowhere otherwise. -/
theorem resultIdx_rows :
    (rowScatter N C E wf).resultIdx? (ix2 e c) idx
      = if h : 0 ≤ (idx (ix2 e (0 : Fin 1))).toInt ∧ (idx (ix2 e (0 : Fin 1))).toInt < (N : Int) then
          some (ix2 (⟨(idx (ix2 e (0 : Fin 1))).toInt.toNat, by omega⟩ : Fin N) c)
        else none := by
  unfold ScatterDims.resultIdx?
  by_cases h : 0 ≤ (idx (ix2 e (0 : Fin 1))).toInt ∧ (idx (ix2 e (0 : Fin 1))).toInt < (N : Int)
  · have hall : ∀ a : Fin 2,
        0 ≤ (rowScatter N C E wf).start (ix2 e c) idx a + ((rowScatter N C E wf).window (ix2 e c) a : Int)
        ∧ (rowScatter N C E wf).start (ix2 e c) idx a + ((rowScatter N C E wf).window (ix2 e c) a : Int)
          < (((⟨2, ![N, C]⟩ : Shape).size a : Nat) : Int) := by
      intro a
      match a with
      | ⟨0, _⟩ =>
        show 0 ≤ (rowScatter N C E wf).start (ix2 e c) idx 0 + ((rowScatter N C E wf).window (ix2 e c) 0 : Int)
          ∧ (rowScatter N C E wf).start (ix2 e c) idx 0 + ((rowScatter N C E wf).window (ix2 e c) 0 : Int) < (N : Int)
        rw [start_zero, window_zero]
        omega
      | ⟨1, _⟩ =>
        show 0 ≤ (rowScatter N C E wf).start (ix2 e c) idx 1 + ((rowScatter N C E wf).window (ix2 e c) 1 : Int)
          ∧ (rowScatter N C E wf).start (ix2 e c) idx 1 + ((rowScatter N C E wf).window (ix2 e c) 1 : Int) < (C : Int)
        rw [start_one, window_one]
        have := c.isLt
        omega
    rw [dif_pos hall, dif_pos h]
    congr 1
    funext a
    refine Fin.ext ?_
    match a with
    | ⟨0, _⟩ =>
      show ((rowScatter N C E wf).start (ix2 e c) idx 0 + ((rowScatter N C E wf).window (ix2 e c) 0 : Int)).toNat
        = (idx (ix2 e (0 : Fin 1))).toInt.toNat
      rw [start_zero, window_zero]
      simp
    | ⟨1, _⟩ =>
      show ((rowScatter N C E wf).start (ix2 e c) idx 1 + ((rowScatter N C E wf).window (ix2 e c) 1 : Int)).toNat
        = c.val
      rw [start_one, window_one]
      simp
  · have hnot : ¬ ∀ a : Fin 2,
        0 ≤ (rowScatter N C E wf).start (ix2 e c) idx a + ((rowScatter N C E wf).window (ix2 e c) a : Int)
        ∧ (rowScatter N C E wf).start (ix2 e c) idx a + ((rowScatter N C E wf).window (ix2 e c) a : Int)
          < (((⟨2, ![N, C]⟩ : Shape).size a : Nat) : Int) := by
      intro hall
      have h0 : 0 ≤ (rowScatter N C E wf).start (ix2 e c) idx 0 + ((rowScatter N C E wf).window (ix2 e c) 0 : Int)
          ∧ (rowScatter N C E wf).start (ix2 e c) idx 0 + ((rowScatter N C E wf).window (ix2 e c) 0 : Int) < (N : Int) :=
        hall 0
      rw [start_zero, window_zero] at h0
      exact h ⟨by omega, by omega⟩
    rw [dif_neg hnot, dif_neg h]

/-- Update entry `(e, c')` lands at operand entry `(i, c)` exactly when the row number of `e` is `i` and
    `c' = c`. -/
theorem resultIdx_rows_eq_some_iff (i : Fin N) (c' : Fin C) :
    (rowScatter N C E wf).resultIdx? (ix2 e c') idx = some (ix2 i c)
      ↔ (idx (ix2 e (0 : Fin 1))).toInt = (i.val : Int) ∧ c' = c := by
  rw [resultIdx_rows]
  constructor
  · intro h
    by_cases hr : 0 ≤ (idx (ix2 e (0 : Fin 1))).toInt ∧ (idx (ix2 e (0 : Fin 1))).toInt < (N : Int)
    · rw [dif_pos hr] at h
      have h' := Option.some.inj h
      have h0 := congrFun h' 0
      have h1 : c' = c := congrFun h' 1
      have h0' : (idx (ix2 e (0 : Fin 1))).toInt.toNat = i.val := congrArg Fin.val h0
      exact ⟨by omega, h1⟩
    · rw [dif_neg hr] at h
      exact absurd h (by simp)
  · rintro ⟨hr, rfl⟩
    have hi := i.isLt
    have hb : 0 ≤ (idx (ix2 e (0 : Fin 1))).toInt ∧ (idx (ix2 e (0 : Fin 1))).toInt < (N : Int) :=
      ⟨by omega, by omega⟩
    rw [dif_pos hb]
    have hx : (⟨(idx (ix2 e (0 : Fin 1))).toInt.toNat, by omega⟩ : Fin N) = i := Fin.ext (by
      show (idx (ix2 e (0 : Fin 1))).toInt.toNat = i.val
      omega)
    exact congrArg (fun t => some (ix2 t c')) hx

end

/-- THE ACCUMULATING SCATTER READ AT `(i, c)`: the operand's entry plus the updates' entries `(e, c)` over the
    `e` whose row number, read signed, is `i`. -/
theorem scatterAdd_rows_apply {N C E w : Nat} {φ : FTy}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (i : Fin N) (c : Fin C) :
    Host.scatterAdd (F := Ideal) (φ := φ) (rowScatter N C E wf) x idx upd (ix2 i c)
      = x (ix2 i c) + ∑ e : Fin E, if (idx (ix2 e (0 : Fin 1))).toInt = (i.val : Int) then upd (ix2 e c) else 0 := by
  show Ideal.hostScatterAdd (rowScatter N C E wf) x idx upd (ix2 i c) = _
  unfold Ideal.hostScatterAdd
  congr 1
  rw [Finset.sum_filter, sum_idx2]
  refine Finset.sum_congr rfl fun e _ => ?_
  by_cases hr : (idx (ix2 e (0 : Fin 1))).toInt = (i.val : Int)
  · rw [if_pos hr]
    have hterm : ∀ c' : Fin C,
        (if (rowScatter N C E wf).resultIdx? (ix2 e c') idx = some (ix2 i c) then upd (ix2 e c') else 0)
          = if c' = c then upd (ix2 e c') else 0 := by
      intro c'
      by_cases hc : c' = c
      · rw [if_pos hc, if_pos ((resultIdx_rows_eq_some_iff wf idx e c i c').2 ⟨hr, hc⟩)]
      · rw [if_neg hc, if_neg (fun h => hc ((resultIdx_rows_eq_some_iff wf idx e c i c').1 h).2)]
    rw [Finset.sum_congr rfl (fun c' _ => hterm c'), Finset.sum_ite_eq' Finset.univ c, if_pos (Finset.mem_univ c)]
  · rw [if_neg hr]
    exact Finset.sum_eq_zero fun c' _ =>
      if_neg (fun h => hr ((resultIdx_rows_eq_some_iff wf idx e c i c').1 h).1)

end Cert.LibScatterRows

end
-- ==== Proof.LibGatherRows2.lean ====
/-
  Rows of a table taken at a column of row numbers, for any element type and extents N, C, E:
  a table `[N, C]` read at integer row numbers `[E, 1]` by a gather with offset axis 1, collapsed
  operand axis 0, start index map [0], index vector axis 1, slice sizes [1, C], giving `[E, C]`.  Its entry
  `(e, c)` is the table's entry `(row, c)`, `row` the row number `idx[e, 0]` read signed and clamped into
  `[0, N − 1]`.
-/
import Idealize.ShloMosaic.Lib.ValueIdx

noncomputable section

namespace Cert.LibGatherRows2

open Idealize.ShloMosaic Idealize.ShloMosaic.ValueIdx

variable {α : Type}

/-- Those dimension numbers; their conditions `wf` are decided on a program's literal shapes. -/
abbrev rowGather (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE GATHER READ AT `(e, c)`: the table at the clamped row number and column `c`. -/
theorem gather_rows2_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N C E wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowGather N C E wf).start (ix2 e c) idx 0 + (rowGather N C E wf).batchCoord (ix2 e c) 0
      + (rowGather N C E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N C E wf).startIndexMap from List.mem_singleton.mpr rfl)]
    have hsi : (rowGather N C E wf).siIdx (ix2 e c) ⟨List.idxOf (0 : Fin 2) (rowGather N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N C E wf).start (ix2 e c) idx 1 + (rowGather N C E wf).batchCoord (ix2 e c) 1
      + (rowGather N C E wf).offCoord (ix2 e c) 1 = c.val
    rw [GatherDims.batchCoord_eq_zero _ _ _ List.not_mem_nil]
    have hst : (rowGather N C E wf).start (ix2 e c) idx 1 = 0 := by
      unfold GatherDims.start
      rw [dif_neg (show (1 : Fin 2) ∉ ([0] : List (Fin 2)) from by decide)]
    rw [hst]
    simp only [Nat.add_zero, Nat.zero_add]
    unfold GatherDims.offCoord
    rw [dif_pos ((GatherDims.mem_sKept _ _).mpr ⟨(show (1 : Fin 2) ∉ ([0] : List (Fin 2)) from by decide), List.not_mem_nil⟩)]
    rfl

end Cert.LibGatherRows2

end
-- ==== Proof.LibRowBias.lean ====
/-
  A vector read as a row and repeated down the rows, for any element type and any extents R, C, read at (r, k):
  * `hostRow_apply`: the host's two steps — a length-C vector given a leading unit axis ([C] → [1, C], its axis sent to
    axis 1) and that row broadcast to [R, C] — read at (r, k) the vector's entry k;
  * `vectorRow_apply`: the vector unit's two steps — the vector cast to [1, C] and broadcast to [R, C] — read the same;
  * `hostSplat_apply`: a scalar broadcast to any shape reads the scalar everywhere.
-/
import Idealize.ShloMosaic.Lib.Pipeline.Value
import Idealize.ShloMosaic.Lib.ValueIdx
import Idealize.ShloMosaic.Lib.ValueLayout

noncomputable section

namespace Cert.LibRowBias

open Idealize.ShloMosaic Idealize.ShloMosaic.ValueIdx

variable {α : Type} {R C : Nat}

/-- A length-C vector given a leading unit axis on the host reads, at (u, k), its entry k. -/
theorem hostUnitRow_apply (h1 : (⟨1, ![C]⟩ : Shape).BroadcastsInDim ⟨2, ![1, C]⟩ (![1] : Fin 1 → Fin 2))
    (b : (⟨1, ![C]⟩ : Shape).Idx → α) (u : Fin 1) (k : Fin C) :
    broadcastInDim ⟨2, ![1, C]⟩ (![1] : Fin 1 → Fin 2) h1 b (ix2 u k) = b (ix1 k) := by
  refine broadcastInDim_apply _ h1 b (ix2 u k) (ix1 k) fun a => ?_
  match a with
  | ⟨0, _⟩ =>
    show k.val = if C = 1 then 0 else k.val
    split
    · have := k.isLt; omega
    · rfl

/-- That row broadcast to R rows reads, at (r, k), the row's entry (0, k). -/
theorem hostRows_apply (h2 : (⟨2, ![1, C]⟩ : Shape).BroadcastsInDim ⟨2, ![R, C]⟩ (![0, 1] : Fin 2 → Fin 2))
    (v : (⟨2, ![1, C]⟩ : Shape).Idx → α) (r : Fin R) (k : Fin C) :
    broadcastInDim ⟨2, ![R, C]⟩ (![0, 1] : Fin 2 → Fin 2) h2 v (ix2 r k) = v (ix2 (0 : Fin 1) k) := by
  refine broadcastInDim_apply _ h2 v (ix2 r k) (ix2 (0 : Fin 1) k) fun a => ?_
  match a with
  | ⟨0, _⟩ => rfl
  | ⟨1, _⟩ =>
    show k.val = if C = 1 then 0 else k.val
    split
    · have := k.isLt; omega
    · rfl

/-- The host's row of a vector, repeated down R rows, reads at (r, k) the vector's entry k. -/
theorem hostRow_apply (h1 : (⟨1, ![C]⟩ : Shape).BroadcastsInDim ⟨2, ![1, C]⟩ (![1] : Fin 1 → Fin 2))
    (h2 : (⟨2, ![1, C]⟩ : Shape).BroadcastsInDim ⟨2, ![R, C]⟩ (![0, 1] : Fin 2 → Fin 2))
    (b : (⟨1, ![C]⟩ : Shape).Idx → α) (r : Fin R) (k : Fin C) :
    broadcastInDim ⟨2, ![R, C]⟩ (![0, 1] : Fin 2 → Fin 2) h2 (broadcastInDim ⟨2, ![1, C]⟩ (![1] : Fin 1 → Fin 2) h1 b) (ix2 r k)
      = b (ix1 k) :=
  (hostRows_apply h2 _ r k).trans (hostUnitRow_apply h1 b 0 k)

/-- The vector unit's row of a vector, repeated down R rows, reads at (r, k) the vector's entry k. -/
theorem vectorRow_apply (h1 : (⟨1, ![C]⟩ : Shape).ShapeCasts ⟨2, ![1, C]⟩)
    (h2 : (⟨2, ![1, C]⟩ : Shape).Broadcasts ⟨2, ![R, C]⟩)
    (b : (⟨1, ![C]⟩ : Shape).Idx → α) (r : Fin R) (k : Fin C) :
    broadcastTo ⟨2, ![R, C]⟩ (shapeCast ⟨2, ![1, C]⟩ b h1) h2 (ix2 r k) = b (ix1 k) :=
  (broadcastTo_1b_ab_apply _ h2 r k).trans (shapeCast_a_1a_apply b h1 0 k)

/-- A scalar broadcast on the host to any shape reads the scalar at every index. -/
theorem hostSplat_apply {s : Shape} (h : (⟨0, ![]⟩ : Shape).BroadcastsInDim s (![] : Fin 0 → Fin s.rank))
    (v : (⟨0, ![]⟩ : Shape).Idx → α) (j : s.Idx) :
    broadcastInDim s (![] : Fin 0 → Fin s.rank) h v j = v ix0 :=
  broadcastInDim_apply _ h v j ix0 fun a => a.elim0

end Cert.LibRowBias

end
-- ==== Proof.RefSide.lean ====
/-
  The reference program read stage by stage at the ideal values.

  The reference computes the edge bookkeeping twice (once per layer): the second computation is the first one again.
  Its aggregations are scatter-adds of rows; its projections are plain matrix products; its last stage is a row-wise
  log-softmax.  Each is read here at an index, in the form the comparison with the kernel needs.
-/
import proofs.«103736_j14559939134162_2_alg».proof.Proof.ReadP
import proofs.«103736_j14559939134162_2_alg».proof.Proof.LibScatterRows
import proofs.«103736_j14559939134162_2_alg».proof.Proof.LibGatherRows2
import proofs.«103736_j14559939134162_2_alg».proof.Proof.LibRowBias
import proofs.«103736_j14559939134162_2_alg».proof.Proof.LibPlainDot
import proofs.«103736_j14559939134162_2_alg».proof.Proof.LibLogSoftmaxRows

set_option maxRecDepth 65536

noncomputable section

open scoped BigOperators

namespace Cert.RefSide

open Cert.ReferenceIdeal Cert.ReferenceIdeal.Gen Cert.ReferenceIdeal.ReadP Idealize.ShloMosaic Idealize.ShloMosaic.ValueIdx

variable (x0 : FVec Ideal S100000x1 .f32) (x1 : IVec S2x4800000 32) (x2 : FVec Ideal S1x16 .f32)
  (x3 : FVec Ideal S16 .f32) (x4 : FVec Ideal S16x2 .f32) (x5 : FVec Ideal S2 .f32)

/-! ## The second computation of the edge bookkeeping is the first -/

theorem src_again : val_main_v51 (F := Ideal) x1 = val_main_v3 (F := Ideal) x1 := rfl
theorem dst_again : val_main_v54 (F := Ideal) x1 = val_main_v6 (F := Ideal) x1 := rfl
theorem deg_again : val_main_v58 (F := Ideal) x1 = val_main_v10 (F := Ideal) x1 := rfl
theorem dinv_again : val_main_v62 (F := Ideal) x1 = val_main_v14 (F := Ideal) x1 := by
  unfold val_main_v62 val_main_v14 val_main_v60 val_main_v12 val_main_v61 val_main_v13
  rw [deg_again]; rfl
theorem ds_again : val_main_v69 (F := Ideal) x1 = val_main_v21 (F := Ideal) x1 := by
  unfold val_main_v69 val_main_v21
  rw [dinv_again]; rfl
theorem dd_again : val_main_v76 (F := Ideal) x1 = val_main_v28 (F := Ideal) x1 := by
  unfold val_main_v76 val_main_v28
  rw [dinv_again]; rfl
theorem norm_again : val_main_v77 (F := Ideal) x1 = val_main_v29 (F := Ideal) x1 := by
  unfold val_main_v77 val_main_v29
  rw [ds_again, dd_again]
theorem gidx_again : val_main_v84 (F := Ideal) x1 = val_main_v36 (F := Ideal) x1 := rfl
theorem sidx_again : val_main_v90 (F := Ideal) x1 = val_main_v42 (F := Ideal) x1 := rfl

/-! ## The scale factor of a message, and the bias rows, at an index -/

/-- The scale factor repeated over 16 columns reads, at (e, c), ds(e) · dd(e). -/
theorem norm16_apply (e : Fin 4900000) (c : Fin 16) :
    val_main_v39 (F := Ideal) x1 (ix2 e c) = val_main_v21 (F := Ideal) x1 (ix1 e) * val_main_v28 (F := Ideal) x1 (ix1 e) := by
  have hi : idx_main_v38 (idx_main_v39 (ix2 e c)) = ix1 e := by
    funext a; match a with | ⟨0, _⟩ => rfl
  rw [val_main_v39_apply, val_main_v38_apply, val_main_v29_apply, hi, Ideal.mulf_def]

/-- The scale factor repeated over 2 columns reads, at (e, c), ds(e) · dd(e). -/
theorem norm2_apply (e : Fin 4900000) (c : Fin 2) :
    val_main_v87 (F := Ideal) x1 (ix2 e c) = val_main_v21 (F := Ideal) x1 (ix1 e) * val_main_v28 (F := Ideal) x1 (ix1 e) := by
  have hi : idx_main_v86 (idx_main_v87 (ix2 e c)) = ix1 e := by
    funext a; match a with | ⟨0, _⟩ => rfl
  rw [val_main_v87_apply, val_main_v86_apply, norm_again, val_main_v29_apply, hi, Ideal.mulf_def]

/-- The first bias repeated down the rows reads, at (r, c), b1(c). -/
theorem bias1_apply (r : Fin 100000) (c : Fin 16) : val_main_v45 (F := Ideal) x3 (ix2 r c) = x3 (ix1 c) := by
  unfold val_main_v45 val_main_v44
  exact Cert.LibRowBias.hostRow_apply _ _ x3 r c

/-- The second bias repeated down the rows reads, at (r, c), b2(c). -/
theorem bias2_apply (r : Fin 100000) (c : Fin 2) : val_main_v93 (F := Ideal) x5 (ix2 r c) = x5 (ix1 c) := by
  unfold val_main_v93 val_main_v92
  exact Cert.LibRowBias.hostRow_apply _ _ x5 r c

/-- The zero the relu compares with. -/
theorem relu_zero_apply (i : S100000x16.Idx) : val_main_call1_v0 (F := Ideal) i = 0 := by
  unfold val_main_call1_v0 val_main_call1_cst
  rw [Cert.LibRowBias.hostSplat_apply]
  exact Ideal.ofBits_zero_f32

/-! ## Layer 1 -/

/-- The projected features x · W1 at (r, c): the one product x(r, 0) · W1(0, c). -/
theorem proj1_apply (r : Fin 100000) (c : Fin 16) :
    val_main_v30 (F := Ideal) x0 x2 (ix2 r c) = x0 (ix2 r (0 : Fin 1)) * x2 (ix2 (0 : Fin 1) c) := by
  have hl : lidx_main_v30 (ix2 r c) (0 : Fin 1) = ix2 r (0 : Fin 1) := by
    funext a; match a with | ⟨0, _⟩ => rfl | ⟨1, _⟩ => rfl
  have hr : ridx_main_v30 (ix2 r c) (0 : Fin 1) = ix2 (0 : Fin 1) c := by
    funext a; match a with | ⟨0, _⟩ => rfl | ⟨1, _⟩ => rfl
  rw [val_main_v30_apply, Fin.sum_univ_one, hl, hr]

/-- The first layer's aggregate is a scatter-add of rows. -/
theorem agg1_eq (wf) : val_main_v43 (F := Ideal) x0 x1 x2
    = Host.scatterAdd (F := Ideal) (φ := .f32) (Cert.LibScatterRows.rowScatter 100000 16 4900000 wf) (val_main_v41 (F := Ideal)) (val_main_v42 (F := Ideal) x1) (val_main_v40 (F := Ideal) x0 x1 x2) := rfl

/-- The first layer's gathered projected features are a gather of rows. -/
theorem gath1_eq (wf) : val_main_v37 (F := Ideal) x0 x1 x2
    = Host.gather (Cert.LibGatherRows2.rowGather 100000 16 4900000 wf) (val_main_v30 (F := Ideal) x0 x2) (val_main_v36 (F := Ideal) x1) := rfl

/-- The first layer's output at (r, c): max (aggregate(r, c) + b1(c), 0). -/
theorem layer1_apply (r : Fin 100000) (c : Fin 16) :
    val_main_v47 (F := Ideal) x0 x1 x2 x3 (ix2 r c) = max (val_main_v43 (F := Ideal) x0 x1 x2 (ix2 r c) + x3 (ix1 c)) 0 := by
  rw [val_main_v47_apply, val_main_v46_apply, bias1_apply, relu_zero_apply, Ideal.maximumf_def, Ideal.addf_def]

/-! ## Layer 2 -/

/-- The second projection at (r, c): Σ_k h(r, k) · W2(k, c). -/
theorem proj2_apply (r : Fin 100000) (c : Fin 2) :
    val_main_v78 (F := Ideal) x0 x1 x2 x3 x4 (ix2 r c) = ∑ k : Fin 16, val_main_v47 (F := Ideal) x0 x1 x2 x3 (ix2 r k) * x4 (ix2 k c) := by
  rw [val_main_v78_apply]
  refine Finset.sum_congr rfl fun k _ => ?_
  have hl : lidx_main_v78 (ix2 r c) k = ix2 r k := by
    funext a; match a with | ⟨0, _⟩ => rfl | ⟨1, _⟩ => rfl
  have hr : ridx_main_v78 (ix2 r c) k = ix2 k c := by
    funext a; match a with | ⟨0, _⟩ => rfl | ⟨1, _⟩ => rfl
  rw [hl, hr]

/-- The second layer's messages at (e, c): the gathered projection times ds(e) · dd(e). -/
theorem msg2_apply (e : Fin 4900000) (c : Fin 2) :
    val_main_v88 (F := Ideal) x0 x1 x2 x3 x4 (ix2 e c)
      = val_main_v85 (F := Ideal) x0 x1 x2 x3 x4 (ix2 e c) * (val_main_v21 (F := Ideal) x1 (ix1 e) * val_main_v28 (F := Ideal) x1 (ix1 e)) := by
  rw [val_main_v88_apply, norm2_apply, Ideal.mulf_def]

/-- The second layer's pre-activation at (r, c): aggregate(r, c) + b2(c). -/
theorem pre2_apply (r : Fin 100000) (c : Fin 2) :
    val_main_v94 (F := Ideal) x0 x1 x2 x3 x4 x5 (ix2 r c) = val_main_v91 (F := Ideal) x0 x1 x2 x3 x4 (ix2 r c) + x5 (ix1 c) := by
  rw [val_main_v94_apply, bias2_apply, Ideal.addf_def]

/-- THE RESULT at (r, c): the row-wise log-softmax of the pre-activation's row r, read at c. -/
theorem result_apply (r : Fin 100000) (c : Fin 2) :
    val_main_v95 (F := Ideal) x0 x1 x2 x3 x4 x5 (ix2 r c)
      = Cert.LibLogSoftmaxRows.lsmRow (fun c' => val_main_v94 (F := Ideal) x0 x1 x2 x3 x4 x5 (ix2 r c')) c := by
  unfold val_main_v95 val_main_call3_v10 val_main_call3_v9 val_main_call3_v8 val_main_call3_v7 val_main_call3_v6 val_main_call3_v5
    val_main_call3_v4 val_main_call3_v3 val_main_call3_v2 val_main_call3_v1 val_main_call3_v0 val_main_call3_cst val_main_call3_cst_0 val_main_call3_cst_1
  exact Cert.LibLogSoftmaxRows.host_lsm_apply (val_main_v94 (F := Ideal) x0 x1 x2 x3 x4 x5) reducesTo_S100000x2_S100000_d1 h_S_ bcast_S_S100000
    bcast_S100000_S100000x1_0 bcast_S100000x1_S100000x2_0_1 r c

end Cert.RefSide

end
-- ==== Proof.Finite.lean ====
/-
  FINITENESS FACTS for moving a factor across a sum on the extended reals.
  Part 1: the guarded reciprocal square root — `rsqrt d` where `d > 0`, else `0` — is always a real number:
  at `⊥` and at a real `d ≤ 0` the guard fails and the value is `0`; at a real `d > 0` it is `(√d)⁻¹`; at `⊤` the
  reciprocal square root is `0`.
  Part 2: the precondition `finite_inputs` says of every float argument that each entry's absolute value is below
  `+∞`, all the entries' comparisons reduced by `and` into one bit that is 1.  Over the extended reals
  `max x (-x) < ⊤` fails at `⊥` and at `⊤` (the maximum is `⊤`), so it holds exactly at the reals: every entry of
  the first and of the third argument is a real number.
-/
import proofs.«103736_j14559939134162_2_alg».proof.Pre_finite_inputs
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx

/-! ## Part 1: the guarded reciprocal square root is a real number -/

/-- The comparison `d > 0` at `⊥` is the bit 0. -/
theorem cmp_ogt_bot : Ideal.cmp .ogt (⊥ : EReal) 0 = 0#1 := by
  simp [Ideal.cmp]

/-- The comparison `d > 0` at `⊤` is the bit 1. -/
theorem cmp_ogt_top : Ideal.cmp .ogt (⊤ : EReal) 0 = 1#1 := by
  simp [Ideal.cmp]

/-- The comparison `d > 0` at a positive real is the bit 1. -/
theorem cmp_ogt_pos (r : ℝ) (hr : 0 < r) : Ideal.cmp .ogt (r : EReal) 0 = 1#1 := by
  have : (0 : EReal) < (r : EReal) := by exact_mod_cast hr
  simp [Ideal.cmp, this]

/-- The comparison `d > 0` at a real that is not positive is the bit 0. -/
theorem cmp_ogt_nonpos (r : ℝ) (hr : ¬ 0 < r) : Ideal.cmp .ogt (r : EReal) 0 = 0#1 := by
  have : ¬ (0 : EReal) < (r : EReal) := by exact_mod_cast hr
  simp [Ideal.cmp, this]

/-- THE GUARDED RECIPROCAL SQUARE ROOT IS FINITE: `rsqrt d` where `d > 0`, else `0`, is a real at every `d`. -/
theorem guarded_rsqrt_finite (d : EReal) :
    ∃ r : ℝ, Scalar.select (FloatOps.cmpf (F := Ideal) (φ := .f32) .ogt d (0 : EReal)) (Ideal.rsqrt d) (0 : EReal)
      = (r : EReal) := by
  show ∃ r : ℝ, Scalar.select (Ideal.cmp .ogt d 0) (Ideal.rsqrt d) (0 : EReal) = (r : EReal)
  induction d with
  | bot =>
    rw [cmp_ogt_bot, select_zero]
    exact ⟨0, rfl⟩
  | coe r =>
    by_cases hr : 0 < r
    · rw [cmp_ogt_pos r hr, select_one, Ideal.rsqrt_coe, if_neg (not_lt.2 hr.le), if_neg hr.ne']
      exact ⟨_, rfl⟩
    · rw [cmp_ogt_nonpos r hr, select_zero]
      exact ⟨0, rfl⟩
  | top =>
    rw [cmp_ogt_top, select_one, Ideal.rsqrt_top]
    exact ⟨0, rfl⟩

/-- The same with both zeros spelled as the f32 pattern `0x00000000`. -/
theorem guarded_rsqrt_finite_bits (d : EReal) :
    ∃ r : ℝ, Scalar.select (FloatOps.cmpf (F := Ideal) (φ := .f32) .ogt d (Ideal.ofBits .f32 0x00000000#32))
        (Ideal.rsqrt d) (Ideal.ofBits .f32 0x00000000#32) = (r : EReal) := by
  rw [Ideal.ofBits_zero_f32]
  exact guarded_rsqrt_finite d

/-! ## Part 2: the precondition's arguments are real -/

/-- The f32 pattern `0x7F800000` is `+∞`. -/
theorem ofBits_inf_f32 : Ideal.ofBits .f32 0x7F800000#32 = ⊤ := by
  simp [Ideal.ofBits, Ideal.ieee]

/-- AN ENTRY WHOSE ABSOLUTE VALUE IS BELOW `+∞` IS A REAL: `max x (-x) < ⊤` fails at `⊥` and at `⊤`. -/
theorem real_of_abs_lt_inf (x : EReal)
    (h : Ideal.cmp .olt (max x (-x)) (Ideal.ofBits .f32 0x7F800000#32) = 1#1) : ∃ r : ℝ, x = (r : EReal) := by
  rw [ofBits_inf_f32] at h
  induction x with
  | bot => simp [Ideal.cmp] at h
  | coe r => exact ⟨r, rfl⟩
  | top => simp [Ideal.cmp] at h

/-- The scalar shape has one index. -/
instance : Subsingleton Cert.Pre_finite_inputs.S_.Idx := ⟨fun a b => funext fun d => d.elim0⟩

/-- ONE `jnp.all(|a| < inf)` READ BACK: when the reduction by `and` of the entries' comparisons is 1, every entry
    of `a` is a real. -/
theorem all_real {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (h0 : 0 < Cert.Pre_finite_inputs.S_.numel)
    (e : Host.reduce IntOp.andi
        (cmpf .olt (Host.absf a) (broadcastInDim s ![] hb (constant Cert.Pre_finite_inputs.S_ .f32 0x7F800000#32)))
        (constantI Cert.Pre_finite_inputs.S_ 1 1#1) hr h0 ix0 = 1#1) :
    ∀ i, ∃ r : ℝ, a i = (r : EReal) := by
  intro i
  have hi := Host.reduce_andi_all _ _ hr h0 ix0 e i
  exact real_of_abs_lt_inf (a i) hi

section Pre
variable [Cert.Pre_finite_inputs.Facts]
open Cert.Pre_finite_inputs

/-- The precondition's bit, split: each of the five reductions is 1. -/
theorem fn_split (a0 : FVec Ideal S100000x1 .f32) (a1 : IVec S2x4800000 32) (a2 : FVec Ideal S1x16 .f32)
    (a3 : FVec Ideal S16 .f32) (a4 : FVec Ideal S16x2 .f32) (a5 : FVec Ideal S2 .f32)
    (h : fn (F := Ideal) a0 a1 a2 a3 a4 a5 = (fun _ => 1#1)) :
    Host.reduce IntOp.andi
        (cmpf .olt (Host.absf a0) (broadcastInDim S100000x1 ![] Facts.bcast_S_S100000x1 (constant S_ .f32 0x7F800000#32)))
        (constantI S_ 1 1#1) Facts.reducesTo_S100000x1_S_d0_1 Facts.h_S_ ix0 = 1#1
    ∧ Host.reduce IntOp.andi
        (cmpf .olt (Host.absf a2) (broadcastInDim S1x16 ![] Facts.bcast_S_S1x16 (constant S_ .f32 0x7F800000#32)))
        (constantI S_ 1 1#1) Facts.reducesTo_S1x16_S_d0_1 Facts.h_S_ ix0 = 1#1 := by
  have e := congrFun h ix0
  unfold Cert.Pre_finite_inputs.fn Cert.Pre_finite_inputs.fn_part1 at e
  simp only [andi, IntOp.andi_eq_one] at e
  exact ⟨e.1.1.1.1, e.1.1.1.2⟩

/-- EVERY ENTRY OF THE FIRST ARGUMENT IS A REAL. -/
theorem arg0_real (a0 : FVec Ideal S100000x1 .f32) (a1 : IVec S2x4800000 32) (a2 : FVec Ideal S1x16 .f32)
    (a3 : FVec Ideal S16 .f32) (a4 : FVec Ideal S16x2 .f32) (a5 : FVec Ideal S2 .f32)
    (h : fn (F := Ideal) a0 a1 a2 a3 a4 a5 = (fun _ => 1#1)) : ∀ i, ∃ r : ℝ, a0 i = (r : EReal) :=
  all_real a0 _ _ _ (fn_split a0 a1 a2 a3 a4 a5 h).1

/-- EVERY ENTRY OF THE THIRD ARGUMENT IS A REAL. -/
theorem arg2_real (a0 : FVec Ideal S100000x1 .f32) (a1 : IVec S2x4800000 32) (a2 : FVec Ideal S1x16 .f32)
    (a3 : FVec Ideal S16 .f32) (a4 : FVec Ideal S16x2 .f32) (a5 : FVec Ideal S2 .f32)
    (h : fn (F := Ideal) a0 a1 a2 a3 a4 a5 = (fun _ => 1#1)) : ∀ i, ∃ r : ℝ, a2 i = (r : EReal) :=
  all_real a2 _ _ _ (fn_split a0 a1 a2 a3 a4 a5 h).2

end Pre

end Cert.Finite

end
-- ==== Proof.LibSumScale.lean ====
/-
  A weighted finite sum over the extended reals, rescaled: when every value is finite (the image of a real),
  `(0 + ∑ e, if p e then (a e * s e) * d e else 0) * w = 0 + ∑ e, if p e then (a e * w) * (s e * d e) else 0`.
  Over the extended reals multiplication does not distribute over addition in general (`⊤ + ⊥`), so the
  statement asks finiteness; under it both sides are coercions of reals and the identity is the reals'.
-/
import Mathlib.Data.EReal.Basic
import Mathlib.Algebra.BigOperators.Ring.Finset
import Mathlib.Tactic.Ring

noncomputable section

namespace Cert.LibSumScale

open scoped BigOperators

/-- A finite sum of coerced reals is the coercion of the real sum. -/
private theorem coe_sum {ι : Type} (S : Finset ι) (f : ι → ℝ) :
    ∑ e ∈ S, ((f e : ℝ) : EReal) = ((∑ e ∈ S, f e : ℝ) : EReal) := by
  classical
  induction S using Finset.induction_on with
  | empty => simp
  | insert b S hb ih => rw [Finset.sum_insert hb, Finset.sum_insert hb, ih, EReal.coe_add]

/-- RESCALING A FILTERED WEIGHTED SUM of finite extended reals by a finite factor `w`: the factor moves
    inside the sum, onto the first factor of each term. -/
theorem sum_scale {ι : Type} [Fintype ι] (p : ι → Prop) [DecidablePred p] (a s d : ι → EReal) (w : EReal)
    (ha : ∀ e, ∃ r : ℝ, a e = (r : EReal)) (hs : ∀ e, ∃ r : ℝ, s e = (r : EReal))
    (hd : ∀ e, ∃ r : ℝ, d e = (r : EReal)) (hw : ∃ r : ℝ, w = (r : EReal)) :
    (0 + ∑ e, if p e then (a e * s e) * d e else 0) * w
      = 0 + ∑ e, if p e then (a e * w) * (s e * d e) else 0 := by
  choose ra hra using ha
  choose rs hrs using hs
  choose rd hrd using hd
  obtain ⟨rw', hrw⟩ := hw
  have hL : ∀ e, (if p e then (a e * s e) * d e else (0 : EReal))
      = (((if p e then (ra e * rs e) * rd e else 0 : ℝ)) : EReal) := by
    intro e
    rw [hra e, hrs e, hrd e]
    split_ifs
    · rw [EReal.coe_mul, EReal.coe_mul]
    · rfl
  have hR : ∀ e, (if p e then (a e * w) * (s e * d e) else (0 : EReal))
      = (((if p e then (ra e * rw') * (rs e * rd e) else 0 : ℝ)) : EReal) := by
    intro e
    rw [hra e, hrs e, hrd e, hrw]
    split_ifs
    · rw [EReal.coe_mul, EReal.coe_mul, EReal.coe_mul]
    · rfl
  simp only [hL, hR]
  rw [coe_sum, coe_sum, hrw, zero_add, zero_add, ← EReal.coe_mul]
  congr 1
  rw [Finset.sum_mul]
  refine Finset.sum_congr rfl fun e _ => ?_
  split_ifs
  · ring
  · ring

end Cert.LibSumScale

end
-- ==== Proof.LibAggregate.lean ====
/-
  Aggregating before or after a rank-one projection, on the extended reals, for any extents N, C, E.

  Rows are added into a zero table at row numbers `idx`: once a table of width 1 from updates m₁(e, 0) = (a e · s e) · d e,
  once a table of width C from updates m_C(e, c) = (a e · w c) · (s e · d e).  When every a e, s e, d e and w c is a real
  number, entry (r, c) of the wide table is entry (r, 0) of the narrow table times w c: the factor w c moves across the
  sum of the updates that land on row r (distributivity, which on the extended reals needs the summands finite).
-/
import proofs.«103736_j14559939134162_2_alg».proof.Proof.LibScatterRows
import proofs.«103736_j14559939134162_2_alg».proof.Proof.LibSumScale

noncomputable section

open scoped BigOperators

namespace Cert.LibAggregate

open Idealize.ShloMosaic Idealize.ShloMosaic.ValueIdx Cert.LibScatterRows

/-- Entry (r, 0) of the narrow aggregate, times w c, is entry (r, c) of the wide aggregate. -/
theorem narrow_mul_eq_wide {N C E w : Nat} {φ : FTy}
    (wf1 : ScatterDims.WF ⟨2, ![N, 1]⟩ ⟨2, ![E, 1]⟩ ⟨2, ![E, 1]⟩ [1] [0] [0] 1)
    (wfC : ScatterDims.WF ⟨2, ![N, C]⟩ ⟨2, ![E, 1]⟩ ⟨2, ![E, C]⟩ [1] [0] [0] 1)
    (idx : IVec ⟨2, ![E, 1]⟩ w)
    (z1 : (⟨2, ![N, 1]⟩ : Shape).Idx → EReal) (zC : (⟨2, ![N, C]⟩ : Shape).Idx → EReal)
    (hz1 : ∀ i, z1 i = 0) (hzC : ∀ i, zC i = 0)
    (m1 : (⟨2, ![E, 1]⟩ : Shape).Idx → EReal) (mC : (⟨2, ![E, C]⟩ : Shape).Idx → EReal)
    (a s d : Fin E → EReal) (wt : Fin C → EReal)
    (hm1 : ∀ e, m1 (ix2 e (0 : Fin 1)) = (a e * s e) * d e)
    (hmC : ∀ e c, mC (ix2 e c) = (a e * wt c) * (s e * d e))
    (ha : ∀ e, ∃ r : ℝ, a e = (r : EReal)) (hs : ∀ e, ∃ r : ℝ, s e = (r : EReal))
    (hd : ∀ e, ∃ r : ℝ, d e = (r : EReal)) (hw : ∀ c, ∃ r : ℝ, wt c = (r : EReal))
    (r : Fin N) (c : Fin C) :
    Host.scatterAdd (F := Ideal) (φ := φ) (rowScatter N 1 E wf1) z1 idx m1 (ix2 r (0 : Fin 1)) * wt c
      = Host.scatterAdd (F := Ideal) (φ := φ) (rowScatter N C E wfC) zC idx mC (ix2 r c) := by
  rw [scatterAdd_rows_apply, scatterAdd_rows_apply, hz1, hzC]
  simp only [hm1, hmC]
  exact Cert.LibSumScale.sum_scale (fun e => (idx (ix2 e (0 : Fin 1))).toInt = (r.val : Int)) a s d (wt c) ha hs hd (hw c)

end Cert.LibAggregate

end
-- ==== Proof.Bridge.lean ====
/-
  The idealized kernel's result and the idealized reference's result are one function of the arguments.

  Both programs compute the same edge bookkeeping (sources, targets, dinv, its gathers ds and dd).
  LAYER 1.  The kernel aggregates the raw one-column features first and projects afterwards:
      h(r, c) = max ((Σ_{e → r} (x(src e) · ds e) · dd e) · W1(0, c) + b1 c, 0);
  the reference projects first:  h(r, c) = max (Σ_{e → r} (x(src e) · W1(0, c)) · (ds e · dd e) + b1 c, 0).
  Moving W1(0, c) across the sum is distributivity, which on the extended reals needs the summands finite: x and W1 are
  finite by the precondition, and dinv is finite whatever the degree is (its guard sends every non-positive or infinite
  degree to a finite value).
  LAYER 2.  Both project h by W2 (the kernel adds a zero row), gather at the sources, scale by ds and dd — the kernel as
  (p · ds) · dd, the reference as p · (ds · dd): associativity —, add the rows at the targets and add b2.
  LAST.  Both apply the row-wise log-softmax to each row.
-/
import proofs.«103736_j14559939134162_2_alg».proof.Proof.KValue
import proofs.«103736_j14559939134162_2_alg».proof.Proof.RefSide
import proofs.«103736_j14559939134162_2_alg».proof.Proof.Finite
import proofs.«103736_j14559939134162_2_alg».proof.Proof.LibAggregate
import proofs.«103736_j14559939134162_2_alg».proof.Proof.LibGatherRows2
import proofs.«103736_j14559939134162_2_alg».proof.Proof.LibRowBias
import Idealize.ShloMosaic.Lib.ValueLayout

set_option maxRecDepth 65536

noncomputable section

open scoped BigOperators

namespace Cert.Bridge

open Idealize.ShloMosaic Idealize.ShloMosaic.ValueIdx
open Cert.KernelIdeal (S100000x1 S2x4800000 S1x16 S16 S16x2 S2 S100000 S100000x16 S100000x2 S4900000 S4900000x1 S1x2 S_)
open Cert.KernelIdeal.Chain Cert.ReferenceIdeal.ReadP

variable (x0 : FVec Ideal S100000x1 .f32) (x1 : IVec S2x4800000 32) (x2 : FVec Ideal S1x16 .f32)
  (x3 : FVec Ideal S16 .f32) (x4 : FVec Ideal S16x2 .f32) (x5 : FVec Ideal S2 .f32)

/-! ## The edge bookkeeping is the same on both sides -/

theorem src_eq : val_main_v3 (F := Ideal) x1 = src x1 := rfl
theorem dst_eq : val_main_v6 (F := Ideal) x1 = dst x1 := rfl
theorem deg_eq : val_main_v10 (F := Ideal) x1 = deg x1 := by
  unfold val_main_v10 val_main_v9 deg sidx
  rw [dst_eq]; rfl
theorem dinv_eq : val_main_v14 (F := Ideal) x1 = dinv x1 := by
  unfold val_main_v14 val_main_v12 val_main_v13 dinv
  rw [deg_eq]; rfl
theorem gidx_src_eq : val_main_v20 (F := Ideal) x1 = nidx (src x1) := by
  unfold val_main_v20 val_main_v19 val_main_v16 val_main_v18 nidx
  rw [src_eq]; rfl
theorem gidx_dst_eq : val_main_v27 (F := Ideal) x1 = nidx (dst x1) := by
  unfold val_main_v27 val_main_v26 val_main_v23 val_main_v25 nidx
  rw [dst_eq]; rfl
theorem gidx_src_eq' : val_main_v36 (F := Ideal) x1 = nidx (src x1) := by
  unfold val_main_v36 val_main_v35 val_main_v32 val_main_v34 nidx
  rw [src_eq]; rfl
theorem ds_eq : val_main_v21 (F := Ideal) x1 = ds x1 := by
  unfold val_main_v21 ds
  rw [dinv_eq, gidx_src_eq]; rfl
theorem dd_eq : val_main_v28 (F := Ideal) x1 = dd x1 := by
  unfold val_main_v28 dd
  rw [dinv_eq, gidx_dst_eq]; rfl
theorem sidx_eq : val_main_v42 (F := Ideal) x1 = sidx (dst x1) := by
  unfold val_main_v42 sidx
  rw [dst_eq]

/-! ## Finiteness of dinv and of its gathers -/

/-- A zero array made by broadcasting the zero constant. -/
theorem splat_zero {s : Shape} (h : S_.BroadcastsInDim s (![] : Fin 0 → Fin s.rank)) (i : s.Idx) :
    broadcastInDim s ![] h (constant (F := Ideal) S_ .f32 0x00000000#32) i = 0 := by
  rw [Cert.LibRowBias.hostSplat_apply]
  exact Ideal.ofBits_zero_f32

/-- Whatever the degrees D are, the guarded reciprocal square root is a real number at every node. -/
theorem guarded_real (D : FVec Ideal S100000 .f32) (i : S100000.Idx) :
    ∃ r : ℝ, select (cmpf (F := Ideal) .ogt D (broadcastInDim S100000 ![] Cert.KernelIdeal.Gen.bcast_S_S100000 (constant (F := Ideal) S_ .f32 0x00000000#32)))
      (Host.rsqrt D) (broadcastInDim S100000 ![] Cert.KernelIdeal.Gen.bcast_S_S100000 (constant (F := Ideal) S_ .f32 0x00000000#32)) i = (r : EReal) := by
  rw [select_apply, cmpf_apply, splat_zero]
  exact Cert.Finite.guarded_rsqrt_finite (D i)

theorem dinv_real (i : S100000.Idx) : ∃ r : ℝ, dinv x1 i = (r : EReal) := by
  unfold dinv
  exact guarded_real (deg x1) i
theorem ds_real (j : S4900000.Idx) : ∃ r : ℝ, ds x1 j = (r : EReal) := by
  unfold ds Host.gather; exact dinv_real x1 _
theorem dd_real (j : S4900000.Idx) : ∃ r : ℝ, dd x1 j = (r : EReal) := by
  unfold dd Host.gather; exact dinv_real x1 _

/-! ## Layer 1 -/

section Layer1
variable (h0 : ∀ i, ∃ r : ℝ, x0 i = (r : EReal)) (h2 : ∀ i, ∃ r : ℝ, x2 i = (r : EReal))

/-- The node feature a message carries: the feature of the clamped, normalised source. -/
theorem gx_apply (e : Fin 4900000) :
    gx x0 x1 (ix2 e (0 : Fin 1))
      = x0 (ix2 (⟨min (nidx (src x1) (ix2 e (0 : Fin 1))).toInt.toNat (100000 - 1), by omega⟩ : Fin 100000) (0 : Fin 1)) :=
  Cert.LibGatherRows2.gather_rows2_apply (N := 100000) (C := 1) (E := 4900000) (by decide) (by decide) x0 (nidx (src x1)) e 0

/-- The projected feature a message carries in the reference: that feature times the weight of the column. -/
theorem gproj_apply (e : Fin 4900000) (c : Fin 16) :
    val_main_v37 (F := Ideal) x0 x1 x2 (ix2 e c) = gx x0 x1 (ix2 e (0 : Fin 1)) * x2 (ix2 (0 : Fin 1) c) := by
  rw [Cert.RefSide.gath1_eq x0 x1 x2 (by decide), Cert.LibGatherRows2.gather_rows2_apply (by decide), Cert.RefSide.proj1_apply,
    gidx_src_eq', gx_apply]

include h0 h2 in
/-- The narrow aggregate times the weight of a column is the wide aggregate at that column. -/
theorem agg_eq (r : Fin 100000) (c : Fin 16) :
    agg1 x0 x1 (ix2 r (0 : Fin 1)) * x2 (ix2 (0 : Fin 1) c) = val_main_v43 (F := Ideal) x0 x1 x2 (ix2 r c) := by
  rw [Cert.RefSide.agg1_eq x0 x1 x2 (by decide), sidx_eq]
  refine Cert.LibAggregate.narrow_mul_eq_wide (N := 100000) (C := 16) (E := 4900000) (φ := .f32) (by decide) (by decide) (sidx (dst x1)) _ _
    (fun i => splat_zero _ i) (fun i => ?_) (msg1 x0 x1) (val_main_v40 (F := Ideal) x0 x1 x2)
    (fun e => gx x0 x1 (ix2 e (0 : Fin 1))) (fun e => ds x1 (ix1 e)) (fun e => dd x1 (ix1 e)) (fun c => x2 (ix2 (0 : Fin 1) c))
    (fun e => Cert.KernelIdeal.Value.msg1_apply x0 x1 e) (fun e c => ?_)
    (fun e => ?_) (fun e => ds_real x1 _) (fun e => dd_real x1 _) (fun c => h2 _) r c
  · unfold val_main_v41 val_main_cst_8
    exact splat_zero _ i
  · rw [val_main_v40_apply, Cert.RefSide.norm16_apply, ds_eq, dd_eq, gproj_apply, Ideal.mulf_def]
  · unfold gx Host.gather; exact h0 _

include h0 h2 in
/-- THE FIRST LAYER'S OUTPUT is the same array in both programs. -/
theorem h1_eq : h1 x0 x1 x2 x3 = val_main_v47 (F := Ideal) x0 x1 x2 x3 := by
  have key : ∀ (r : Fin 100000) (c : Fin 16), h1 x0 x1 x2 x3 (ix2 r c) = val_main_v47 (F := Ideal) x0 x1 x2 x3 (ix2 r c) := fun r c => by
    rw [Cert.RefSide.layer1_apply, ← agg_eq x0 x1 x2 h0 h2 r c]
    show max ((∑ k : Fin 1, agg1 x0 x1 (ix2 r k) * x2 (ix2 k c)) + shapeCast S1x16 x3 Cert.KernelIdeal.Gen.shapeCasts_S16_S1x16 (ix2 (0 : Fin 1) c)) 0 = _
    rw [Fin.sum_univ_one, shapeCast_a_1a_apply]
  funext i
  rw [eq_ix2 i]
  exact key (i 0) (i 1)

/-! ## Layer 2 -/

include h0 h2 in
/-- The second projection is the same array in both programs (the kernel's zero bias row adds nothing). -/
theorem proj_eq : proj x0 x1 x2 x3 x4 = val_main_v78 (F := Ideal) x0 x1 x2 x3 x4 := by
  have key : ∀ (r : Fin 100000) (c : Fin 2), proj x0 x1 x2 x3 x4 (ix2 r c) = val_main_v78 (F := Ideal) x0 x1 x2 x3 x4 (ix2 r c) := fun r c => by
    rw [Cert.RefSide.proj2_apply, ← h1_eq x0 x1 x2 x3 h0 h2]
    show (∑ k : Fin 16, h1 x0 x1 x2 x3 (ix2 r k) * x4 (ix2 k c))
        + broadcastInDim S1x2 ![] Cert.KernelIdeal.Gen.bcast_S_S1x2 (constant (F := Ideal) S_ .f32 0x00000000#32) (ix2 (0 : Fin 1) c) = _
    rw [splat_zero, add_zero]
  funext i
  rw [eq_ix2 i]
  exact key (i 0) (i 1)

include h0 h2 in
/-- The gathered projection is the same array in both programs. -/
theorem gh_eq : gh x0 x1 x2 x3 x4 = val_main_v85 (F := Ideal) x0 x1 x2 x3 x4 := by
  unfold gh val_main_v85
  rw [proj_eq x0 x1 x2 x3 x4 h0 h2, Cert.RefSide.gidx_again, gidx_src_eq']
  rfl

include h0 h2 in
/-- The second layer's messages are the same array in both programs: (p · ds) · dd = p · (ds · dd). -/
theorem msg2_eq : msg2 x0 x1 x2 x3 x4 = val_main_v88 (F := Ideal) x0 x1 x2 x3 x4 := by
  have key : ∀ (e : Fin 4900000) (c : Fin 2), msg2 x0 x1 x2 x3 x4 (ix2 e c) = val_main_v88 (F := Ideal) x0 x1 x2 x3 x4 (ix2 e c) := fun e c => by
    rw [Cert.KernelIdeal.Value.msg2_apply, Cert.RefSide.msg2_apply, gh_eq x0 x1 x2 x3 x4 h0 h2, ds_eq, dd_eq, mul_assoc]
  funext i
  rw [eq_ix2 i]
  exact key (i 0) (i 1)

include h0 h2 in
/-- The second aggregate is the same array in both programs. -/
theorem agg2_eq : agg2 x0 x1 x2 x3 x4 = val_main_v91 (F := Ideal) x0 x1 x2 x3 x4 := by
  unfold agg2 val_main_v91 val_main_v89 val_main_cst_19
  rw [msg2_eq x0 x1 x2 x3 x4 h0 h2, Cert.RefSide.sidx_again, sidx_eq]
  rfl

/-! ## The result -/

include h0 h2 in
/-- THE RESULT is the same array in both programs: the row-wise log-softmax of (second aggregate + b2). -/
theorem result_eq :
    Cert.KernelIdeal.Softmax4.layer Cert.LibLogSoftmaxRows.lsmRow (agg2 x0 x1 x2 x3 x4) (shapeCast S1x2 x5 Cert.KernelIdeal.Gen.shapeCasts_S2_S1x2)
      = val_main_v95 (F := Ideal) x0 x1 x2 x3 x4 x5 := by
  have key : ∀ (r : Fin 100000) (c : Fin 2),
      Cert.KernelIdeal.Softmax4.layer Cert.LibLogSoftmaxRows.lsmRow (agg2 x0 x1 x2 x3 x4) (shapeCast S1x2 x5 Cert.KernelIdeal.Gen.shapeCasts_S2_S1x2) (ix2 r c)
        = val_main_v95 (F := Ideal) x0 x1 x2 x3 x4 x5 (ix2 r c) := fun r c => by
    rw [Cert.RefSide.result_apply]
    show Cert.LibLogSoftmaxRows.lsmRow (fun c' => agg2 x0 x1 x2 x3 x4 (ix2 r c') + shapeCast S1x2 x5 Cert.KernelIdeal.Gen.shapeCasts_S2_S1x2 (ix2 (0 : Fin 1) c')) c = _
    refine congrArg (fun f => Cert.LibLogSoftmaxRows.lsmRow f c) (funext fun c' => ?_)
    rw [Cert.RefSide.pre2_apply, agg2_eq x0 x1 x2 x3 x4 h0 h2, shapeCast_a_1a_apply]
  funext i
  rw [eq_ix2 i]
  exact key (i 0) (i 1)

end Layer1

end Cert.Bridge

end
-- ==== Proof.lean ====
/-
  The certificate: a two-layer graph convolution (gather, normalise by deg^(-1/2) at both ends, scatter-add, dense layer)
  followed by a row-wise log-softmax, computed by five kernel regions among host operations, against its plain reference.

  * The three frames: the two kernel programs' are generated whole; the reference's is its run with the result dropped.
  * The idealization rewrote nothing, so there is nothing to preserve.
  * At the ideal values both programs end with the same result array.  The kernel's result buffer is read back through the
    24 segments of its @main to a closed function of the arguments (the regions' output arrays as whole-array functions,
    the host stretches as their operations); the reference's result is its generated run.  The two functions agree index
    by index: the edge bookkeeping is literally shared; the first layer differs by the order of aggregation and projection,
    equal by distributivity over finite summands (the float inputs are finite by the precondition, and deg^(-1/2) with its
    guard is always finite); the second layer differs by associativity and an added zero; the last stage is the same
    row-wise function of equal rows.
-/
import proofs.«103736_j14559939134162_2_alg».proof.Defs
import proofs.«103736_j14559939134162_2_alg».proof.Proof.Gen.Kernel
import proofs.«103736_j14559939134162_2_alg».proof.Proof.Gen.Kernel.Skeleton
import proofs.«103736_j14559939134162_2_alg».proof.Proof.Gen.Kernel.Launch
import proofs.«103736_j14559939134162_2_alg».proof.Proof.Gen.Kernel.Points
import proofs.«103736_j14559939134162_2_alg».proof.Proof.Gen.Kernel.Frame
import proofs.«103736_j14559939134162_2_alg».proof.Proof.Gen.KernelIdeal
import proofs.«103736_j14559939134162_2_alg».proof.Proof.Gen.KernelIdeal.Skeleton
import proofs.«103736_j14559939134162_2_alg».proof.Proof.Gen.KernelIdeal.Launch
import proofs.«103736_j14559939134162_2_alg».proof.Proof.Gen.KernelIdeal.Points
import proofs.«103736_j14559939134162_2_alg».proof.Proof.Gen.KernelIdeal.Frame
import proofs.«103736_j14559939134162_2_alg».proof.Proof.Gen.ReferenceIdeal
import proofs.«103736_j14559939134162_2_alg».proof.Proof.Gen.Pre_finite_inputs
import proofs.«103736_j14559939134162_2_alg».proof.Proof.KRun
import proofs.«103736_j14559939134162_2_alg».proof.Proof.RefRead
import proofs.«103736_j14559939134162_2_alg».proof.Proof.Bridge
import Idealize.ShloMosaic.Adequacy
import Idealize.ShloMosaic.Init

set_option maxRecDepth 65536

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- At the ideal values, from memories that agree on the arguments, both programs end with the same result array:
    the reference's composed term of the arguments. -/
theorem algebraic : Cert.algebraic_KernelIdeal_ReferenceIdeal := by
  intro m ρ m' ρ' hpre hagree
  have h0 : ∀ c : Dev Cert.KernelIdeal.nD, ∀ i, ∃ r : ℝ, (m ((c.tc : Thread Cert.KernelIdeal.nD Cert.KernelIdeal.τ).loc Cert.KernelIdeal.main_arg0)) i = (r : EReal) :=
    fun c => Cert.Finite.arg0_real _ _ _ _ _ _ (hpre c)
  have h2 : ∀ c : Dev Cert.KernelIdeal.nD, ∀ i, ∃ r : ℝ, (m ((c.tc : Thread Cert.KernelIdeal.nD Cert.KernelIdeal.τ).loc Cert.KernelIdeal.main_arg2)) i = (r : EReal) :=
    fun c => Cert.Finite.arg2_real _ _ _ _ _ _ (hpre c)
  refine ⟨fun c => Cert.ReferenceIdeal.ReadP.val_main_v95 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩)
      (Cert.KernelIdeal.Run.run_result (F := Ideal) m ρ)
    exact (Cert.KernelIdeal.Chain.W24_v84 m ρ Cert.LibLogSoftmaxRows.lsmRow Cert.KernelIdeal.Value.softmax_payload c).trans
      (Cert.Bridge.result_eq _ _ _ _ _ _ (h0 c) (h2 c))
  · refine (θ_run Cert.ReferenceIdeal.defs _ _).mono (fun r h c => ⟨?_, (h c).2⟩)
      (Cert.ReferenceIdeal.ValueP.run (F := Ideal) m' ρ')
    rw [(h c).1, Cert.ReferenceIdeal.ReadP.val_main_v95_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
